-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v2_2)) (v2 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v2_2) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S256x128 : Shape := ⟨2, ![256, 128]⟩
abbrev S128x128 : Shape := ⟨2, ![128, 128]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  main_v38

def fn_part1 {F : FTy → Type} [FloatOps F] (main_arg4 : FVec F S256x128 .f32) (main_arg5 : FVec F S128x128 .f32) (main_arg6 : FVec F S128x128 .f32) (main_arg7 : FVec F S128x128 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S4096x4096 .f32) (main_arg1 : FVec F S4096x256 .f32) (main_arg2 : FVec F S4096x4096 .f32) (main_arg3 : FVec F S4096x256 .f32) (main_arg4 : FVec F S256x128 .f32) (main_arg5 : FVec F S128x128 .f32) (main_arg6 : FVec F S128x128 .f32) (main_arg7 : FVec F S128x128 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_arg6 main_arg7 main_v13 main_v16
-- ==== Kernel.lean ====
abbrev S4096x4096 : Shape := ⟨2, ![4096, 4096]⟩
abbrev S4096x256 : Shape := ⟨2, ![4096, 256]⟩
abbrev S256x128 : Shape := ⟨2, ![256, 128]⟩
abbrev S128x128 : Shape := ⟨2, ![128, 128]⟩
abbrev S4096x128 : Shape := ⟨2, ![4096, 128]⟩
abbrev S512x4096 : Shape := ⟨2, ![512, 4096]⟩
abbrev S512x128 : Shape := ⟨2, ![512, 128]⟩
abbrev S512x256 : Shape := ⟨2, ![512, 256]⟩
abbrev S1024x128 : Shape := ⟨2, ![1024, 128]⟩
abbrev S1024x512 : Shape := ⟨2, ![1024, 512]⟩
abbrev S128x512 : Shape := ⟨2, ![128, 512]⟩

abbrev nBuf : Space → Nat
  | .hbm => 15
  | .vmem => 39
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S4096x4096, .f32⟩
  | .hbm, ⟨3, _⟩ => ⟨S4096x256, .f32⟩
  | .hbm, ⟨4, _⟩ => ⟨S256x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x4096, .f32⟩
  | .hbm, ⟨13, _⟩ => ⟨S4096x128, .f32⟩
  | .hbm, ⟨14, _⟩ => ⟨S4096x128, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S512x4096, .f32⟩
  | .local _ .vmem, ⟨4, _⟩ => ⟨S512x4096, .f32⟩
  | .local _ .vmem, ⟨5, _⟩ => ⟨S4096x256, .f32⟩
  | .local _ .vmem, ⟨6, _⟩ => ⟨S256x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x4096, .f32⟩
  | .local _ .vmem, ⟨12, _⟩ => ⟨S512x4096, .f32⟩
  | .local _ .vmem, ⟨13, _⟩ => ⟨S4096x128, .f32⟩
  | .local _ .vmem, ⟨14, _⟩ => ⟨S512x4096, .f32⟩
  | .local _ .vmem, ⟨15, _⟩ => ⟨S512x4096, .f32⟩
  | .local _ .vmem, ⟨16, _⟩ => ⟨S4096x128, .f32⟩
  | .local _ .vmem, ⟨17, _⟩ => ⟨S128x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S1024x128, .f32⟩
  | .local _ .vmem, ⟨23, _⟩ => ⟨S1024x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S128x128, .f32⟩
  | .local _ .vmem, ⟨29, _⟩ => ⟨S128x128, .f32⟩
  | .local _ .vmem, ⟨30, _⟩ => ⟨S1024x512, .f32⟩
  | .local _ .vmem, ⟨31, _⟩ => ⟨S1024x512, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1_0 : Ref sig .tc := ⟨.hbm, 10, rfl⟩
abbrev main_v1_1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc2_scratch0 : Ref sig .tc := ⟨.vmem, 36, rfl⟩
abbrev cc2_scratch1 : Ref sig .tc := ⟨.vmem, 37, rfl⟩
abbrev cc2_scratch2 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4096x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_18 : BitVec 32 := 0#32
  let v26 : BitVec 1 := Scalar.cmpi .ne v25 c0_i32_18
  v26

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1024x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1024x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

class Facts₀ : Prop where
  inb_S256x128_S256x128_0_0 : ∀ a, (![0, 0] : Fin 2 → Nat) a + S256x128.size a ≤ S256x128.size a
  h_S256x128 : 0 < S256x128.numel
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S512x128_S512x128_0_0 : ∀ a, (![0, 0] : Fin 2 → Nat) a + S512x128.size a ≤ S512x128.size a
  h_S512x128 : 0 < S512x128.numel
  inb_S128x128_S128x128_0_0 : ∀ a, (![0, 0] : Fin 2 → Nat) a + S128x128.size a ≤ S128x128.size a
  h_S128x128 : 0 < S128x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S512x128_S512x128 : S512x128.ShapeCasts S512x128
  transposes_S512x128_p1_0_S128x512 : S512x128.Transposes [1, 0] S128x512
  inb_S1024x512_S1024x512_0_0 : ∀ a, (![0, 0] : Fin 2 → Nat) a + S1024x512.size a ≤ S1024x512.size a
  h_S1024x512 : 0 < S1024x512.numel
  dot_S512x4096_S4096x256_S512x256_1_0_0_1_n_n_wf : DotDims.WF S512x4096 S4096x256 S512x256 [1] [0] [0] [1] [] []
  dot_S512x256_S256x128_S512x128_1_0_0_1_n_n_wf : DotDims.WF S512x256 S256x128 S512x128 [1] [0] [0] [1] [] []
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  dot_S1024x128_S128x128_S1024x128_1_0_0_1_n_n_wf : DotDims.WF S1024x128 S128x128 S1024x128 [1] [0] [0] [1] [] []
  dot_S1024x128_S128x512_S1024x512_1_0_0_1_n_n_wf : DotDims.WF S1024x128 S128x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .f32 = 32 ∨ (Rect.block (s := S4096x256) S4096x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S4096x128.size a
  hwx0_5 : ∀ i : grid0.Coords, EltTy.bits .f32 = 32 ∨ (Rect.block (s := S4096x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S4096x128.size a
  hwx0_6 : ∀ i : grid0.Coords, EltTy.bits .f32 = 32 ∨ (Rect.block (s := S4096x128) S512x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S4096x4096.size a
  hwx1_2 : ∀ i : grid1.Coords, EltTy.bits .f32 = 32 ∨ (Rect.block (s := S4096x4096) S512x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S4096x128.size a
  hwx1_3 : ∀ i : grid1.Coords, EltTy.bits .f32 = 32 ∨ (Rect.block (s := S4096x128) S4096x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S4096x128.size a
  hwx1_5 : ∀ i : grid1.Coords, EltTy.bits .f32 = 32 ∨ (Rect.block (s := S4096x128) S512x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x128.size a ≤ S4096x128.size a
  hwx1_6 : ∀ i : grid1.Coords, EltTy.bits .f32 = 32 ∨ (Rect.block (s := S4096x128) S512x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S4096x128.size a
  hwx2_0 : ∀ i : grid2.Coords, EltTy.bits .f32 = 32 ∨ (Rect.block (s := S4096x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S4096x128.size a
  hwx2_1 : ∀ i : grid2.Coords, EltTy.bits .f32 = 32 ∨ (Rect.block (s := S4096x128) S512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S4096x128.size a
  hwx2_2 : ∀ i : grid2.Coords, EltTy.bits .f32 = 32 ∨ (Rect.block (s := S4096x128) S512x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x512.size a ≤ S4096x4096.size a
  hwx2_5 : ∀ i : grid2.Coords, EltTy.bits .f32 = 32 ∨ (Rect.block (s := S4096x4096) S1024x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x128.size a ≤ S4096x128.size a
  hwx2_6 : ∀ i : grid2.Coords, EltTy.bits .f32 = 32 ∨ (Rect.block (s := S4096x128) S1024x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x128.size a ≤ S4096x128.size a
  hwx2_7 : ∀ i : grid2.Coords, EltTy.bits .f32 = 32 ∨ (Rect.block (s := S4096x128) S1024x128.size (cc2_transform_7 i) (hinb2_7 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S512x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S4096x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1_0) S512x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1_1) S512x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v1_0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S512x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_1) S512x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2_0) S1024x512.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v2_1) S1024x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v2_2) S1024x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x256 : Shape := ⟨2, ![4096, 256]⟩
abbrev S256x128 : Shape := ⟨2, ![256, 128]⟩
abbrev S128x128 : Shape := ⟨2, ![128, 128]⟩
abbrev S4096x128 : Shape := ⟨2, ![4096, 128]⟩
abbrev S_ : Shape := ⟨0, ![]⟩
abbrev S128x4096 : Shape := ⟨2, ![128, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S4096x4096, .f32⟩
  | .hbm, ⟨3, _⟩ => ⟨S4096x256, .f32⟩
  | .hbm, ⟨4, _⟩ => ⟨S256x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S4096x256, .f32⟩
  | .hbm, ⟨9, _⟩ => ⟨S4096x128, .f32⟩
  | .hbm, ⟨10, _⟩ => ⟨S_, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S_, .f32⟩
  | .hbm, ⟨16, _⟩ => ⟨S4096x128, .f32⟩
  | .hbm, ⟨17, _⟩ => ⟨S4096x128, .f32⟩
  | .hbm, ⟨18, _⟩ => ⟨S4096x256, .f32⟩
  | .hbm, ⟨19, _⟩ => ⟨S4096x128, .f32⟩
  | .hbm, ⟨20, _⟩ => ⟨S_, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S_, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S128x4096, .f32⟩
  | .hbm, ⟨30, _⟩ => ⟨S4096x4096, .f32⟩
  | .hbm, ⟨31, _⟩ => ⟨S4096x4096, .f32⟩
  | .hbm, ⟨32, _⟩ => ⟨S4096x128, .f32⟩
  | .hbm, ⟨33, _⟩ => ⟨S4096x128, .f32⟩
  | .hbm, ⟨34, _⟩ => ⟨S4096x128, .f32⟩
  | .hbm, ⟨35, _⟩ => ⟨S4096x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_cst : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call2_cst : Ref sig .tc := ⟨.hbm, 20, rfl⟩
abbrev main_call2_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call3_cst : Ref sig .tc := ⟨.hbm, 25, rfl⟩
abbrev main_call3_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  transposes_S4096x128_S128x4096_1_0 : S4096x128.Transposes [1, 0] S128x4096
  dot_S4096x4096_S4096x256_S4096x256_1_0_0_1_n_n_wf : DotDims.WF S4096x4096 S4096x256 S4096x256 [1] [0] [0] [1] [] []
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []
  dot_S4096x128_S128x128_S4096x128_1_0_0_1_n_n_wf : DotDims.WF S4096x128 S128x128 S4096x128 [1] [0] [0] [1] [] []
  dot_S4096x128_S128x4096_S4096x4096_1_0_0_1_n_n_wf : DotDims.WF S4096x128 S128x4096 S4096x4096 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.Bits.Region0.lean ====
/- Region 0 of the kernel: the first graph-convolution layer, on both graphs at once. At grid point `i` the body reads a
   block of 512 rows of each adjacency matrix (windows 0 and 2), the whole feature matrices (windows 1 and 3) and the
   whole weight matrix (window 4), and stores into each output window (5 and 6) the 512 rows
   `max ((A_rows · X) · W, 0)` of its graph. This module states, at any buffer contents `V` the region is entered with,
   what the body leaves in every window's staging buffer and proves the body's triple at every grid point. -/
import proofs.«141314_j39779987096265_2_alg».proof.Proof.Gen.Kernel.Launch
import proofs.«141314_j39779987096265_2_alg».proof.Proof.Gen.Kernel.Skeleton
import proofs.«141314_j39779987096265_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 512 or 4096 coordinates recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or not (an unfetched window's block index has not moved, so the block it kept is this point's), for any proof data
    whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether the pipeline fetched it there
    or not (an unfetched window's block index has not moved, so the block it kept is this point's), for any proof data
    whose array is `V`'s (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether the pipeline fetched it there
    or not (an unfetched window's block index has not moved, so the block it kept is this point's), for any proof data
    whose array is `V`'s (`hA`) and whose body leaves the block in place (`hafter`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether the pipeline fetched it there
    or not (an unfetched window's block index has not moved, so the block it kept is this point's), for any proof data
    whose array is `V`'s (`hA`) and whose body leaves the block in place (`hafter`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, whether the pipeline fetched it there
    or not (an unfetched window's block index has not moved, so the block it kept is this point's), for any proof data
    whose array is `V`'s (`hA`) and whose body leaves the block in place (`hafter`). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole staging buffer -/

abbrev r0_0 : Rect S256x128 := Rect.unit (s := S256x128) ![0, 0] S256x128.size inb_S256x128_S256x128_0_0
abbrev r0_1 : Rect S512x4096 := Rect.unit (s := S512x4096) ![0, 0] S512x4096.size inb_S512x4096_S512x4096_0_0
abbrev r0_2 : Rect S4096x256 := Rect.unit (s := S4096x256) ![0, 0] S4096x256.size inb_S4096x256_S4096x256_0_0
abbrev r0_3 : Rect S512x128 := Rect.unit (s := S512x128) ![0, 0] S512x128.size inb_S512x128_S512x128_0_0

/-! ## What the body leaves in each output window's buffer -/

/-- Window 5's staging buffer after the body: its one store, of the whole buffer, of the first graph's layer
    `max ((x0 · x1) · x4, 0)` — the weight block `x4`, the adjacency rows `x0` and the features `x1`. -/
def out0_5 (x4 : Vec F S256x128 .f32) (x0 : Vec F S512x4096 .f32) (x1 : Vec F S4096x256 .f32) : Vec F S512x128 .f32 :=
  View.canon [⟨r0_3, k0_pay1 (View.ld x4 r0_0) (View.ld x0 r0_1) (View.ld x1 r0_2)⟩]

/-- The store is of the whole buffer, so it covers it. -/
theorem cover0_5 (p0 : Vec F S512x128 .f32) (y : S512x128.Idx) :
    ∃ pc ∈ ([⟨r0_3, p0⟩] : List (View.Piece (Elt F) S512x128 .f32)), y ∈ pc.1.set :=
  View.cover_of_tiled [⟨r0_3, p0⟩] S512x128.size (by rfl) y

/-- Window 6's staging buffer after the body: its one store, of the whole buffer, of the second graph's layer
    `max ((x2 · x3) · x4, 0)`. -/
def out0_6 (x4 : Vec F S256x128 .f32) (x2 : Vec F S512x4096 .f32) (x3 : Vec F S4096x256 .f32) : Vec F S512x128 .f32 :=
  View.canon [⟨r0_3, k0_pay2 (View.ld x4 r0_0) (View.ld x2 r0_1) (View.ld x3 r0_2)⟩]

/-- The store is of the whole buffer, so it covers it. -/
theorem cover0_6 (p0 : Vec F S512x128 .f32) (y : S512x128.Idx) :
    ∃ pc ∈ ([⟨r0_3, p0⟩] : List (View.Piece (Elt F) S512x128 .f32)), y ∈ pc.1.set :=
  View.cover_of_tiled [⟨r0_3, p0⟩] S512x128.size (by rfl) y

/-! ## The body's triple -/

set_option maxHeartbeats 1000000 in
/-- The kernel body on whole staging memrefs, the five inputs' at read contents `x0 … x4` and the two outputs' at
    anything, runs to the continuation holding the inputs' as they were and the outputs' at `out0_5`, `out0_6` of the
    inputs'. The body reads each output buffer once before it stores over all of it; what it read is not used. -/
theorem sound_kernel0 (c : Dev nD) (E : Set ℕ) (i : grid0.Coords)
    (arg1 : Memref sig .tc .vmem S512x4096 .f32) (harg1 : arg1.IsWhole) (arg2 : Memref sig .tc .vmem S4096x256 .f32) (harg2 : arg2.IsWhole)
    (arg3 : Memref sig .tc .vmem S512x4096 .f32) (harg3 : arg3.IsWhole) (arg4 : Memref sig .tc .vmem S4096x256 .f32) (harg4 : arg4.IsWhole)
    (arg5 : Memref sig .tc .vmem S256x128 .f32) (harg5 : arg5.IsWhole)
    (arg6 : Memref sig .tc .vmem S512x128 .f32) (harg6 : arg6.IsWhole) (arg7 : Memref sig .tc .vmem S512x128 .f32) (harg7 : arg7.IsWhole)
    (x0 : Vec F S512x4096 .f32) (x1 : Vec F S4096x256 .f32) (x2 : Vec F S512x4096 .f32) (x3 : Vec F S4096x256 .f32) (x4 : Vec F S256x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x4 x0 x1) ∗ owns (c : Thread nD τ) arg7 fullShare (out0_6 x4 x2 x3)) -∗ K ⟨⟩))
      ⊢ wp frame (wpE (defs₀ (F := F)) Variants.none c none) E (cc0__gcn_dual_kernel i arg1 harg1 arg2 harg2 arg3 harg3 arg4 harg4 arg5 harg5 arg6 harg6 arg7 harg7) K := by
  simp only [cc0__gcn_dual_kernel_eq_skeleton]; unfold cc0__gcn_dual_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at point `t`
    each input's buffer still at its block and each output's at its layer of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 4 t) (iblk0 V c 0 t) (iblk0 V c 1 t)
    | ⟨6, _⟩ => out0_6 (iblk0 V c 4 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 4 t) (iblk0 V c 0 t) (iblk0 V c 1 t) := by dsimp only [dat0]
theorem after0_6 (c : Dev nD) (t : Fin cfg0.N) : (dat0 V c).after 6 t = out0_6 (iblk0 V c 4 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Region1.lean ====
/- Region 1 of the kernel: the second graph-convolution layer (its feature matrices are the first layer's two results), on both graphs at once. At grid point `i` the body reads a
   block of 512 rows of each adjacency matrix (windows 0 and 2), the whole feature matrices (windows 1 and 3) and the
   whole weight matrix (window 4), and stores into each output window (5 and 6) the 512 rows
   `max ((A_rows · X) · W, 0)` of its graph. This module states, at any buffer contents `V` the region is entered with,
   what the body leaves in every window's staging buffer and proves the body's triple at every grid point. -/
import proofs.«141314_j39779987096265_2_alg».proof.Proof.Gen.Kernel.Launch
import proofs.«141314_j39779987096265_2_alg».proof.Proof.Gen.Kernel.Skeleton
import proofs.«141314_j39779987096265_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 512 or 4096 coordinates recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there
    or not (an unfetched window's block index has not moved, so the block it kept is this point's), for any proof data
    whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether the pipeline fetched it there
    or not (an unfetched window's block index has not moved, so the block it kept is this point's), for any proof data
    whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether the pipeline fetched it there
    or not (an unfetched window's block index has not moved, so the block it kept is this point's), for any proof data
    whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether the pipeline fetched it there
    or not (an unfetched window's block index has not moved, so the block it kept is this point's), for any proof data
    whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether the pipeline fetched it there
    or not (an unfetched window's block index has not moved, so the block it kept is this point's), for any proof data
    whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store is of a whole staging buffer -/

abbrev r1_0 : Rect S128x128 := Rect.unit (s := S128x128) ![0, 0] S128x128.size inb_S128x128_S128x128_0_0
abbrev r1_1 : Rect S512x4096 := Rect.unit (s := S512x4096) ![0, 0] S512x4096.size inb_S512x4096_S512x4096_0_0
abbrev r1_2 : Rect S4096x128 := Rect.unit (s := S4096x128) ![0, 0] S4096x128.size inb_S4096x128_S4096x128_0_0
abbrev r1_3 : Rect S512x128 := Rect.unit (s := S512x128) ![0, 0] S512x128.size inb_S512x128_S512x128_0_0

/-! ## What the body leaves in each output window's buffer -/

/-- Window 5's staging buffer after the body: its one store, of the whole buffer, of the first graph's layer
    `max ((x0 · x1) · x4, 0)` — the weight block `x4`, the adjacency rows `x0` and the features `x1`. -/
def out1_5 (x4 : Vec F S128x128 .f32) (x0 : Vec F S512x4096 .f32) (x1 : Vec F S4096x128 .f32) : Vec F S512x128 .f32 :=
  View.canon [⟨r1_3, k1_pay1 (View.ld x4 r1_0) (View.ld x0 r1_1) (View.ld x1 r1_2)⟩]

/-- The store is of the whole buffer, so it covers it. -/
theorem cover1_5 (p0 : Vec F S512x128 .f32) (y : S512x128.Idx) :
    ∃ pc ∈ ([⟨r1_3, p0⟩] : List (View.Piece (Elt F) S512x128 .f32)), y ∈ pc.1.set :=
  View.cover_of_tiled [⟨r1_3, p0⟩] S512x128.size (by rfl) y

/-- Window 6's staging buffer after the body: its one store, of the whole buffer, of the second graph's layer
    `max ((x2 · x3) · x4, 0)`. -/
def out1_6 (x4 : Vec F S128x128 .f32) (x2 : Vec F S512x4096 .f32) (x3 : Vec F S4096x128 .f32) : Vec F S512x128 .f32 :=
  View.canon [⟨r1_3, k1_pay2 (View.ld x4 r1_0) (View.ld x2 r1_1) (View.ld x3 r1_2)⟩]

/-- The store is of the whole buffer, so it covers it. -/
theorem cover1_6 (p0 : Vec F S512x128 .f32) (y : S512x128.Idx) :
    ∃ pc ∈ ([⟨r1_3, p0⟩] : List (View.Piece (Elt F) S512x128 .f32)), y ∈ pc.1.set :=
  View.cover_of_tiled [⟨r1_3, p0⟩] S512x128.size (by rfl) y

/-! ## The body's triple -/

set_option maxHeartbeats 1000000 in
/-- The kernel body on whole staging memrefs, the five inputs' at read contents `x0 … x4` and the two outputs' at
    anything, runs to the continuation holding the inputs' as they were and the outputs' at `out1_5`, `out1_6` of the
    inputs'. The body reads each output buffer once before it stores over all of it; what it read is not used. -/
theorem sound_kernel1 (c : Dev nD) (E : Set ℕ) (i : grid1.Coords)
    (arg1 : Memref sig .tc .vmem S512x4096 .f32) (harg1 : arg1.IsWhole) (arg2 : Memref sig .tc .vmem S4096x128 .f32) (harg2 : arg2.IsWhole)
    (arg3 : Memref sig .tc .vmem S512x4096 .f32) (harg3 : arg3.IsWhole) (arg4 : Memref sig .tc .vmem S4096x128 .f32) (harg4 : arg4.IsWhole)
    (arg5 : Memref sig .tc .vmem S128x128 .f32) (harg5 : arg5.IsWhole)
    (arg6 : Memref sig .tc .vmem S512x128 .f32) (harg6 : arg6.IsWhole) (arg7 : Memref sig .tc .vmem S512x128 .f32) (harg7 : arg7.IsWhole)
    (x0 : Vec F S512x4096 .f32) (x1 : Vec F S4096x128 .f32) (x2 : Vec F S512x4096 .f32) (x3 : Vec F S4096x128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x4 x0 x1) ∗ owns (c : Thread nD τ) arg7 fullShare (out1_6 x4 x2 x3)) -∗ K ⟨⟩))
      ⊢ wp frame (wpE (defs₀ (F := F)) Variants.none c none) E (cc1__gcn_dual_kernel i arg1 harg1 arg2 harg2 arg3 harg3 arg4 harg4 arg5 harg5 arg6 harg6 arg7 harg7) K := by
  simp only [cc1__gcn_dual_kernel_eq_skeleton]; unfold cc1__gcn_dual_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer still at its block and each output's at its layer of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 4 t) (iblk1 V c 0 t) (iblk1 V c 1 t)
    | ⟨6, _⟩ => out1_6 (iblk1 V c 4 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 4 t) (iblk1 V c 0 t) (iblk1 V c 1 t) := by dsimp only [dat1]
theorem after1_6 (c : Dev nD) (t : Fin cfg1.N) : (dat1 V c).after 6 t = out1_6 (iblk1 V c 4 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.R2Defs.lean ====
/-
  The attention region (the third pallas_call, grid (4, 8): row block i of 1024 rows, column block j of 512): what its
  three case runs and its proof data are stated over. At each point the body first, when j = 0, zeroes the two
  accumulators and stores the query block Q = Xs_i · W3 in a third scratch buffer; then it stores the score tile
  exp(Q · Xt_jᵀ) into the first result's block and adds its products with Xs_j and Xt_j to the accumulators; and, when
  j = 7, stores the accumulators' products with W4 into the other two results' blocks. So a point is in one of three
  cases: A (j = 0), B (0 < j < 7), C (j = 7); the last two results' windows are idle off case C.
-/
import proofs.«141314_j39779987096265_2_alg».proof.Proof.Gen.Kernel.Launch
import proofs.«141314_j39779987096265_2_alg».proof.Proof.Gen.Kernel.Skeleton
import proofs.«141314_j39779987096265_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "j = 0", as the body computes it from the second grid coordinate. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- "j = 7" (the last column block). -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Off the last column block the last two results' windows are idle and not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_6 : ∀ t : Fin cfg2.N, cond2_1 (grid2.coords t) → cfg2.idle 6 (grid2.coords t) = false := by decide +kernel
theorem liveAt2_7 : ∀ t : Fin cfg2.N, cond2_1 (grid2.coords t) → cfg2.idle 7 (grid2.coords t) = false := by decide +kernel

/-! ## The memrefs the body is called with -/

abbrev VO2_5 : View sig .tc .vmem S1024x512 .f32 := (Memref.whole cc2_stg5_0 : Memref sig .tc .vmem S1024x512 .f32).view
abbrev VO2_6 : View sig .tc .vmem S1024x128 .f32 := (Memref.whole cc2_stg6_0 : Memref sig .tc .vmem S1024x128 .f32).view
abbrev VO2_7 : View sig .tc .vmem S1024x128 .f32 := (Memref.whole cc2_stg7_0 : Memref sig .tc .vmem S1024x128 .f32).view
abbrev ms2_0 (t : Fin cfg2.N) : Memref sig .tc .vmem S1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x128 .f32 := win2_7.stage (cfg2.slots t 7)
abbrev hs2_7 (t : Fin cfg2.N) : (ms2_7 t).IsWhole := hstage2_7 ((cfg2.slots t 7).cast nbuf2_7)
/-- The three scratch operands: the two accumulators and the query block. -/
abbrev scM2_0 : Memref sig .tc .vmem S1024x128 .f32 := Memref.whole cc2_scratch0
abbrev scM2_1 : Memref sig .tc .vmem S1024x128 .f32 := Memref.whole cc2_scratch1
abbrev scM2_2 : Memref sig .tc .vmem S1024x128 .f32 := Memref.whole cc2_scratch2
abbrev VS2_0 : View sig .tc .vmem S1024x128 .f32 := scM2_0.view
abbrev VS2_1 : View sig .tc .vmem S1024x128 .f32 := scM2_1.view
abbrev VS2_2 : View sig .tc .vmem S1024x128 .f32 := scM2_2.view

/-! ## The windows' blocks, at the contents `V` the region is entered with -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Cert.Kernel.Hand

end
-- ==== Proof.Bits.R2RunA.lean ====
/-
  The attention body run on whole staging memrefs in case A — the first column block (j = 0): the accumulators are zeroed and the query block stored before the tile is computed, so the three scratch buffers come at anything. What each buffer the body stores into ends with is
  a list of pieces (last store first) that the symbolic run finds; the inputs' buffers, and a buffer the case does not store
  into, are handed back as they came.
-/
import proofs.«141314_j39779987096265_2_alg».proof.Proof.Bits.R2Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (hc0 : cond2_0 i) (hc1 : ¬cond2_1 i)
    (x0 : Vec F S1024x128 .f32) (x1 : Vec F S512x128 .f32) (x2 : Vec F S512x128 .f32) (x3 : Vec F S128x128 .f32) (x4 : Vec F S128x128 .f32) :
    Σ' (L5 : List (View.Piece (Elt F) S1024x512 .f32)) (LS0 : List (View.Piece (Elt F) S1024x128 .f32)) (LS1 : List (View.Piece (Elt F) S1024x128 .f32)), { LS2 : List (View.Piece (Elt F) S1024x128 .f32) //
      ∀ (xi6 : Vec F S1024x128 .f32) (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12) K } := by
  refine ⟨?_, ?_, ?_, ?_, fun xi6 xi7 E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    isplitl [HS1]
    · iexists _; iexact HS1
    iexists _; iexact HS2

end Cert.Kernel.Hand

end
-- ==== Proof.Bits.R2RunB.lean ====
/-
  The attention body run on whole staging memrefs in case B — a middle column block (0 < j < 7): the scratch buffers come at what the point before left; the query block is only read. What each buffer the body stores into ends with is
  a list of pieces (last store first) that the symbolic run finds; the inputs' buffers, and a buffer the case does not store
  into, are handed back as they came.
-/
import proofs.«141314_j39779987096265_2_alg».proof.Proof.Bits.R2Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (hc0 : ¬cond2_0 i) (hc1 : ¬cond2_1 i)
    (x0 : Vec F S1024x128 .f32) (x1 : Vec F S512x128 .f32) (x2 : Vec F S512x128 .f32) (x3 : Vec F S128x128 .f32) (x4 : Vec F S128x128 .f32) (xs0 : Vec F S1024x128 .f32) (xs1 : Vec F S1024x128 .f32) (xs2 : Vec F S1024x128 .f32) :
    Σ' (L5 : List (View.Piece (Elt F) S1024x512 .f32)) (LS0 : List (View.Piece (Elt F) S1024x128 .f32)), { LS1 : List (View.Piece (Elt F) S1024x128 .f32) //
      ∀ (xi6 : Vec F S1024x128 .f32) (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ owns (c : Thread nD τ) arg12 fullShare xs2) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12) K } := by
  refine ⟨?_, ?_, ?_, fun xi6 xi7 E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    isplitl [HS1]
    · iexists _; iexact HS1
    iexists _; isplitr; · ipureintro; exact harg12.read_unread _
    iexact HS2

end Cert.Kernel.Hand

end
-- ==== Proof.Bits.R2RunC.lean ====
/-
  The attention body run on whole staging memrefs in case C — the last column block (j = 7): as in the middle, and the accumulators' products with W4 are stored into the last two results' blocks. What each buffer the body stores into ends with is
  a list of pieces (last store first) that the symbolic run finds; the inputs' buffers, and a buffer the case does not store
  into, are handed back as they came.
-/
import proofs.«141314_j39779987096265_2_alg».proof.Proof.Bits.R2Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (hc0 : ¬cond2_0 i) (hc1 : cond2_1 i)
    (x0 : Vec F S1024x128 .f32) (x1 : Vec F S512x128 .f32) (x2 : Vec F S512x128 .f32) (x3 : Vec F S128x128 .f32) (x4 : Vec F S128x128 .f32) (xs0 : Vec F S1024x128 .f32) (xs1 : Vec F S1024x128 .f32) (xs2 : Vec F S1024x128 .f32) :
    Σ' (L5 : List (View.Piece (Elt F) S1024x512 .f32)) (L6 : List (View.Piece (Elt F) S1024x128 .f32)) (L7 : List (View.Piece (Elt F) S1024x128 .f32)) (LS0 : List (View.Piece (Elt F) S1024x128 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ owns (c : Thread nD τ) arg12 fullShare xs2) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    isplitl [H7]
    · iexists _; iexact H7
    isplitl [HS0]
    · iexists _; iexact HS0
    isplitl [HS1]
    · iexists _; iexact HS1
    iexists _; isplitr; · ipureintro; exact harg12.read_unread _
    iexact HS2

end Cert.Kernel.Hand

end
-- ==== Proof.Bits.Region2.lean ====
/-
  The attention region's proof data and body obligation. After point t = 8 i + j the first result's staging buffer holds
  the score tile of row block i and column block j; the two accumulators hold the sums over the column blocks 0..j of
  the tile's products with the blocks of Xs and Xt; the query buffer holds Xs_i · W3 (stored at j = 0, kept until the next
  row block); at j = 7 the last two results' buffers hold the accumulators' products with W4. The invariant between two
  points says exactly what the three scratch buffers hold, so that the next point's body finds it.
-/
import proofs.«141314_j39779987096265_2_alg».proof.Proof.Bits.R2RunA
import proofs.«141314_j39779987096265_2_alg».proof.Proof.Bits.R2RunB
import proofs.«141314_j39779987096265_2_alg».proof.Proof.Bits.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's buffer holds its block at every point, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What the buffers hold after a point, case by case -/

/-- The three results' staging buffers (`o5`: the score tile; `o6`, `o7`: the two projections) and the three scratch
    buffers (`s0`, `s1`: the accumulators; `s2`: the query block) after a point's body. -/
structure St2 (F : FTy → Type) where
  o5 : Vec F S1024x512 .f32
  o6 : Vec F S1024x128 .f32
  o7 : Vec F S1024x128 .f32
  s0 : Vec F S1024x128 .f32
  s1 : Vec F S1024x128 .f32
  s2 : Vec F S1024x128 .f32

abbrev runA (c : Dev nD) (t : Fin cfg2.N) (hc0 : cond2_0 (grid2.coords t)) (hc1 : ¬cond2_1 (grid2.coords t)) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) hc0 hc1 (iblk2 V c 0 t) (iblk2 V c 1 t) (iblk2 V c 2 t) (iblk2 V c 3 t) (iblk2 V c 4 t)
abbrev runB (c : Dev nD) (t : Fin cfg2.N) (hc0 : ¬cond2_0 (grid2.coords t)) (hc1 : ¬cond2_1 (grid2.coords t)) (p : St2 F) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) hc0 hc1 (iblk2 V c 0 t) (iblk2 V c 1 t) (iblk2 V c 2 t) (iblk2 V c 3 t) (iblk2 V c 4 t) p.s0 p.s1 p.s2
abbrev runC (c : Dev nD) (t : Fin cfg2.N) (hc0 : ¬cond2_0 (grid2.coords t)) (hc1 : cond2_1 (grid2.coords t)) (p : St2 F) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) hc0 hc1 (iblk2 V c 0 t) (iblk2 V c 1 t) (iblk2 V c 2 t) (iblk2 V c 3 t) (iblk2 V c 4 t) p.s0 p.s1 p.s2

/-- Case A (j = 0): the tile and all three scratch buffers are stored; the projections' buffers are not (placeholders). -/
def stA (c : Dev nD) (t : Fin cfg2.N) (hc0 : cond2_0 (grid2.coords t)) (hc1 : ¬cond2_1 (grid2.coords t)) : St2 F where
  o5 := VO2_5.read (Elt F) (VO2_5.writes (Elt F) VO2_5.junk (runA V c t hc0 hc1).1)
  o6 := VO2_6.read (Elt F) VO2_6.junk
  o7 := VO2_7.read (Elt F) VO2_7.junk
  s0 := VS2_0.read (Elt F) (VS2_0.writes (Elt F) VS2_0.junk (runA V c t hc0 hc1).2.1)
  s1 := VS2_1.read (Elt F) (VS2_1.writes (Elt F) VS2_1.junk (runA V c t hc0 hc1).2.2.1)
  s2 := VS2_2.read (Elt F) (VS2_2.writes (Elt F) VS2_2.junk (runA V c t hc0 hc1).2.2.2.1)

/-- Case B (0 < j < 7): the tile and the accumulators are stored over what the point before left; the query block is kept. -/
def stB (c : Dev nD) (t : Fin cfg2.N) (hc0 : ¬cond2_0 (grid2.coords t)) (hc1 : ¬cond2_1 (grid2.coords t)) (p : St2 F) : St2 F where
  o5 := VO2_5.read (Elt F) (VO2_5.writes (Elt F) VO2_5.junk (runB V c t hc0 hc1 p).1)
  o6 := VO2_6.read (Elt F) VO2_6.junk
  o7 := VO2_7.read (Elt F) VO2_7.junk
  s0 := VS2_0.read (Elt F) (VS2_0.writes (Elt F) VS2_0.junk (runB V c t hc0 hc1 p).2.1)
  s1 := VS2_1.read (Elt F) (VS2_1.writes (Elt F) VS2_1.junk (runB V c t hc0 hc1 p).2.2.1)
  s2 := p.s2

/-- Case C (j = 7): as case B, and the two projections are stored. -/
def stC (c : Dev nD) (t : Fin cfg2.N) (hc0 : ¬cond2_0 (grid2.coords t)) (hc1 : cond2_1 (grid2.coords t)) (p : St2 F) : St2 F where
  o5 := VO2_5.read (Elt F) (VO2_5.writes (Elt F) VO2_5.junk (runC V c t hc0 hc1 p).1)
  o6 := VO2_6.read (Elt F) (VO2_6.writes (Elt F) VO2_6.junk (runC V c t hc0 hc1 p).2.1)
  o7 := VO2_7.read (Elt F) (VO2_7.writes (Elt F) VO2_7.junk (runC V c t hc0 hc1 p).2.2.1)
  s0 := VS2_0.read (Elt F) (VS2_0.writes (Elt F) VS2_0.junk (runC V c t hc0 hc1 p).2.2.2.1)
  s1 := VS2_1.read (Elt F) (VS2_1.writes (Elt F) VS2_1.junk (runC V c t hc0 hc1 p).2.2.2.2.1)
  s2 := p.s2

/-! ## The pieces each case stores cover the buffer they are stored into -/

theorem coverA_5 (c : Dev nD) (t : Fin cfg2.N) (hc0 hc1) (y : S1024x512.Idx) : ∃ pc ∈ (runA (F := F) V c t hc0 hc1).1, y ∈ pc.1.set :=
  View.cover_of_tiledL (runA (F := F) V c t hc0 hc1).1 S1024x512.size (by sl_kernel_rfl) y
theorem coverA_s0 (c : Dev nD) (t : Fin cfg2.N) (hc0 hc1) (y : S1024x128.Idx) : ∃ pc ∈ (runA (F := F) V c t hc0 hc1).2.1, y ∈ pc.1.set :=
  View.cover_of_tiledL (runA (F := F) V c t hc0 hc1).2.1 S1024x128.size (by sl_kernel_rfl) y
theorem coverA_s1 (c : Dev nD) (t : Fin cfg2.N) (hc0 hc1) (y : S1024x128.Idx) : ∃ pc ∈ (runA (F := F) V c t hc0 hc1).2.2.1, y ∈ pc.1.set :=
  View.cover_of_tiledL (runA (F := F) V c t hc0 hc1).2.2.1 S1024x128.size (by sl_kernel_rfl) y
theorem coverA_s2 (c : Dev nD) (t : Fin cfg2.N) (hc0 hc1) (y : S1024x128.Idx) : ∃ pc ∈ (runA (F := F) V c t hc0 hc1).2.2.2.1, y ∈ pc.1.set :=
  View.cover_of_tiledL (runA (F := F) V c t hc0 hc1).2.2.2.1 S1024x128.size (by sl_kernel_rfl) y
theorem coverB_5 (c : Dev nD) (t : Fin cfg2.N) (hc0 hc1) (p : St2 F) (y : S1024x512.Idx) : ∃ pc ∈ (runB (F := F) V c t hc0 hc1 p).1, y ∈ pc.1.set :=
  View.cover_of_tiledL (runB (F := F) V c t hc0 hc1 p).1 S1024x512.size (by sl_kernel_rfl) y
theorem coverB_s0 (c : Dev nD) (t : Fin cfg2.N) (hc0 hc1) (p : St2 F) (y : S1024x128.Idx) : ∃ pc ∈ (runB (F := F) V c t hc0 hc1 p).2.1, y ∈ pc.1.set :=
  View.cover_of_tiledL (runB (F := F) V c t hc0 hc1 p).2.1 S1024x128.size (by sl_kernel_rfl) y
theorem coverB_s1 (c : Dev nD) (t : Fin cfg2.N) (hc0 hc1) (p : St2 F) (y : S1024x128.Idx) : ∃ pc ∈ (runB (F := F) V c t hc0 hc1 p).2.2.1, y ∈ pc.1.set :=
  View.cover_of_tiledL (runB (F := F) V c t hc0 hc1 p).2.2.1 S1024x128.size (by sl_kernel_rfl) y
theorem coverC_5 (c : Dev nD) (t : Fin cfg2.N) (hc0 hc1) (p : St2 F) (y : S1024x512.Idx) : ∃ pc ∈ (runC (F := F) V c t hc0 hc1 p).1, y ∈ pc.1.set :=
  View.cover_of_tiledL (runC (F := F) V c t hc0 hc1 p).1 S1024x512.size (by sl_kernel_rfl) y
theorem coverC_6 (c : Dev nD) (t : Fin cfg2.N) (hc0 hc1) (p : St2 F) (y : S1024x128.Idx) : ∃ pc ∈ (runC (F := F) V c t hc0 hc1 p).2.1, y ∈ pc.1.set :=
  View.cover_of_tiledL (runC (F := F) V c t hc0 hc1 p).2.1 S1024x128.size (by sl_kernel_rfl) y
theorem coverC_7 (c : Dev nD) (t : Fin cfg2.N) (hc0 hc1) (p : St2 F) (y : S1024x128.Idx) : ∃ pc ∈ (runC (F := F) V c t hc0 hc1 p).2.2.1, y ∈ pc.1.set :=
  View.cover_of_tiledL (runC (F := F) V c t hc0 hc1 p).2.2.1 S1024x128.size (by sl_kernel_rfl) y
theorem coverC_s0 (c : Dev nD) (t : Fin cfg2.N) (hc0 hc1) (p : St2 F) (y : S1024x128.Idx) : ∃ pc ∈ (runC (F := F) V c t hc0 hc1 p).2.2.2.1, y ∈ pc.1.set :=
  View.cover_of_tiledL (runC (F := F) V c t hc0 hc1 p).2.2.2.1 S1024x128.size (by sl_kernel_rfl) y
theorem coverC_s1 (c : Dev nD) (t : Fin cfg2.N) (hc0 hc1) (p : St2 F) (y : S1024x128.Idx) : ∃ pc ∈ (runC (F := F) V c t hc0 hc1 p).2.2.2.2.1, y ∈ pc.1.set :=
  View.cover_of_tiledL (runC (F := F) V c t hc0 hc1 p).2.2.2.2.1 S1024x128.size (by sl_kernel_rfl) y

/-! ## Point by point -/

/-- What the buffers hold after the body at position `n`: the case the position is in (its remainder mod 8), cases B
    and C over what position `n - 1` left in the scratch buffers. -/
def outsAt2 (c : Dev nD) : (n : ℕ) → n < cfg2.N → St2 F
  | 0, hn => stA V c ⟨0, hn⟩ ((hcond2_0 ⟨0, hn⟩).mpr (Nat.zero_mod _)) (fun h => (fun h => by (try dsimp only at h); omega) ((hcond2_1 ⟨0, hn⟩).mp h))
  | n + 1, hn =>
    if h0 : (n + 1) % 8 = 0 then
      if h1 : (n + 1) % 8 = 7 then
        False.elim (by omega)
      else
        stA V c ⟨n + 1, hn⟩ ((hcond2_0 ⟨n + 1, hn⟩).mpr h0) (fun h => h1 ((hcond2_1 ⟨n + 1, hn⟩).mp h))
    else
      if h1 : (n + 1) % 8 = 7 then
        stC V c ⟨n + 1, hn⟩ (fun h => h0 ((hcond2_0 ⟨n + 1, hn⟩).mp h)) ((hcond2_1 ⟨n + 1, hn⟩).mpr h1) (outsAt2 c n (Nat.lt_of_succ_lt hn))
      else
        stB V c ⟨n + 1, hn⟩ (fun h => h0 ((hcond2_0 ⟨n + 1, hn⟩).mp h)) (fun h => h1 ((hcond2_1 ⟨n + 1, hn⟩).mp h)) (outsAt2 c n (Nat.lt_of_succ_lt hn))

theorem outsAt2_A (c : Dev nD) (t : Fin cfg2.N) (h0 : t.val % 8 = 0) (h1 : ¬t.val % 8 = 7) :
    outsAt2 V c t.val t.isLt = stA V c t ((hcond2_0 t).mpr h0) (fun h => h1 ((hcond2_1 t).mp h)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = stB V c t (fun h => h0 ((hcond2_0 t).mp h)) (fun h => h1 ((hcond2_1 t).mp h))
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = stC V c t (fun h => h0 ((hcond2_0 t).mp h)) ((hcond2_1 t).mpr h1)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between two points -/

/-- The scoped buffers no window stages, other than the region's own three scratch buffers. -/
abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- Before the first point the three scratch buffers hold anything. -/
theorem scopedRest2_owns (c : Dev nD) :
    (Pipeline.scopedRest (Ix := Unit) (Name := ℕ) (U := UR sig nD τ) (Lvl := ℕ) (Val := Elt F) spec2 c : sProp 𝕄)
      = iprop(iprop((∃ d, owns (c : Thread nD τ) scM2_0 fullShare d) ∗ (∃ d, owns (c : Thread nD τ) scM2_1 fullShare d) ∗ (∃ d, owns (c : Thread nD τ) scM2_2 fullShare d)) ∗ restBut2 c) := by
  rw [scopedRest2_split]; simp only [scM2_0, scM2_1, scM2_2, owns_whole]; try rfl

/-- Before position `n`: at the start every scoped buffer the pipeline does not stage at anything; afterwards the three
    scratch buffers at what position `n - 1` left in them. -/
def PhiS2 (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(iprop(owns (c : Thread nD τ) scM2_0 fullShare (outsAt2 V c n hn).s0 ∗ owns (c : Thread nD τ) scM2_1 fullShare (outsAt2 V c n hn).s1 ∗ owns (c : Thread nD τ) scM2_2 fullShare (outsAt2 V c n hn).s2) ∗ restBut2 c)

theorem PhiS2_zero (c : Dev nD) (n : ℕ) (h : n ≤ cfg2.N) (hz : n = 0) :
    PhiS2 V c n h = Pipeline.scopedRest (Ix := Unit) (Name := ℕ) (U := UR sig nD τ) (Lvl := ℕ) (Val := Elt F) spec2 c := by
  subst hz; rfl
theorem PhiS2_succ (c : Dev nD) (n : ℕ) (hn : n < cfg2.N) :
    PhiS2 V c (n + 1) hn = iprop(iprop(owns (c : Thread nD τ) scM2_0 fullShare (outsAt2 V c n hn).s0 ∗ owns (c : Thread nD τ) scM2_1 fullShare (outsAt2 V c n hn).s1 ∗ owns (c : Thread nD τ) scM2_2 fullShare (outsAt2 V c n hn).s2) ∗ restBut2 c) := rfl
theorem PhiS2_pos (c : Dev nD) (n : ℕ) (h : n ≤ cfg2.N) (hz : n ≠ 0) :
    PhiS2 V c n h = iprop(iprop(owns (c : Thread nD τ) scM2_0 fullShare (outsAt2 V c (n - 1) (by omega)).s0 ∗ owns (c : Thread nD τ) scM2_1 fullShare (outsAt2 V c (n - 1) (by omega)).s1 ∗ owns (c : Thread nD τ) scM2_2 fullShare (outsAt2 V c (n - 1) (by omega)).s2) ∗ restBut2 c) := by
  cases n with
  | zero => exact absurd rfl hz
  | succ n => rfl

/-! ## The proof data -/

/-- The arrays as the region finds them; after the body each input's buffer at its block and each result's at `outsAt2`;
    the invariant `PhiS2`. The two windows that read the array of Xs (the row block and the column block) hold it at the left and the
    right half of the share; every other window holds its array whole. Nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).o5
    | ⟨6, _⟩ => (outsAt2 V c t.val t.isLt).o6
    | ⟨7, _⟩ => (outsAt2 V c t.val t.isLt).o7
  Φ t := PhiS2 V c t.val (Nat.le_of_lt_succ t.isLt)
  q w := match w with
    | ⟨0, _⟩ => fullShare.left
    | ⟨1, _⟩ => fullShare.right
    | _ => fullShare
  owed _ := 0

theorem A_eq2 (c : Dev nD) (w : Fin cfg2.W) : (dat2 V c).A w = V c (Pipeline.arrRef spec2 w) := by dsimp only [dat2]
theorem PhiS2_castSucc (c : Dev nD) (t : Fin cfg2.N) : (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).o5 := by dsimp only [dat2]
theorem after2_6 (c : Dev nD) (t : Fin cfg2.N) : (dat2 V c).after 6 t = (outsAt2 V c t.val t.isLt).o6 := by dsimp only [dat2]
theorem after2_7 (c : Dev nD) (t : Fin cfg2.N) : (dat2 V c).after 7 t = (outsAt2 V c t.val t.isLt).o7 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

/-- What the body is called with at point `t`: the invariant, the core's dues, the eight windows' current staging buffers. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- What it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 8000000 in
/-- The body at any point: the inputs' buffers hold their blocks; the point's remainder mod 8 says which case it is in; the
    invariant hands the body the scratch buffers at what the point before left (at anything before the first point) and takes
    them back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 8 = 0
  · have h1 : ¬t.val % 8 = 7 := by omega
    rw [Dat.leavesExact_idle (dat2 V c) 6 t (idleAt2_6 t (fun h => h1 ((hcond2_1 t).mp h))) (noFlush2_6 t (fun h => h1 ((hcond2_1 t).mp h)))]
    rw [Dat.leavesExact_idle (dat2 V c) 7 t (idleAt2_7 t (fun h => h1 ((hcond2_1 t).mp h))) (noFlush2_7 t (fun h => h1 ((hcond2_1 t).mp h)))]
    rw [outsAt2_A V c t h0 h1]
    unfold stA; (try dsimp only)
    by_cases hz : t.val = 0
    · rw [PhiS2_castSucc V c t, PhiS2_zero V c _ _ hz, scopedRest2_owns]
      iintro ⟨⟨⟨HS0, HS1, HS2⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t ((hcond2_0 t).mpr h0) (fun h => h1 ((hcond2_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      isplitl [HS2]; · iexact HS2
      iintro ⟨H0, H1, H2, H3, H4, ⟨%e5, H5⟩, H6, H7, ⟨%es0, HS0⟩, ⟨%es1, HS1⟩, ⟨%es2, HS2⟩⟩
      isplitl [HS0 HS1 HS2 Hrest]
      · isplitl [HS0 HS1 HS2]
        · isplitl [HS0]
          · unfold owns; iexists _; isplitr
            swap; · iexact HS0
            ipureintro; exact View.read_writes_of_cover _ _ _ _ _ (coverA_s0 V c t _ _)
          isplitl [HS1]
          · unfold owns; iexists _; isplitr
            swap; · iexact HS1
            ipureintro; exact View.read_writes_of_cover _ _ _ _ _ (coverA_s1 V c t _ _)
          unfold owns; iexists _; isplitr
          swap; · iexact HS2
          ipureintro; exact View.read_writes_of_cover _ _ _ _ _ (coverA_s2 V c t _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverA_5 V c t _ _)
      isplitl [H6]; · iexists _; iexact H6
      iexists _; iexact H7
    · rw [PhiS2_castSucc V c t, PhiS2_pos V c _ _ hz]
      iintro ⟨⟨⟨HS0, HS1, HS2⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t ((hcond2_0 t).mpr h0) (fun h => h1 ((hcond2_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexists _; iexact HS0
      isplitl [HS1]; · iexists _; iexact HS1
      isplitl [HS2]; · iexists _; iexact HS2
      iintro ⟨H0, H1, H2, H3, H4, ⟨%e5, H5⟩, H6, H7, ⟨%es0, HS0⟩, ⟨%es1, HS1⟩, ⟨%es2, HS2⟩⟩
      isplitl [HS0 HS1 HS2 Hrest]
      · isplitl [HS0 HS1 HS2]
        · isplitl [HS0]
          · unfold owns; iexists _; isplitr
            swap; · iexact HS0
            ipureintro; exact View.read_writes_of_cover _ _ _ _ _ (coverA_s0 V c t _ _)
          isplitl [HS1]
          · unfold owns; iexists _; isplitr
            swap; · iexact HS1
            ipureintro; exact View.read_writes_of_cover _ _ _ _ _ (coverA_s1 V c t _ _)
          unfold owns; iexists _; isplitr
          swap; · iexact HS2
          ipureintro; exact View.read_writes_of_cover _ _ _ _ _ (coverA_s2 V c t _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverA_5 V c t _ _)
      isplitl [H6]; · iexists _; iexact H6
      iexists _; iexact H7
  · have hz : t.val ≠ 0 := fun e => h0 (by rw [e])
    by_cases h1 : t.val % 8 = 7
    · rw [show (dat2 V c).leavesExact 6 t = owns (c : Thread nD τ) (ms2_6 t) fullShare ((dat2 V c).after 6 t) from by
        unfold Dat.leavesExact; rw [liveAt2_6 t ((hcond2_1 t).mpr h1)], after2_6]
      rw [show (dat2 V c).leavesExact 7 t = owns (c : Thread nD τ) (ms2_7 t) fullShare ((dat2 V c).after 7 t) from by
        unfold Dat.leavesExact; rw [liveAt2_7 t ((hcond2_1 t).mpr h1)], after2_7]
      rw [outsAt2_C V c t h0 h1]
      unfold stC; (try dsimp only)
      rw [PhiS2_castSucc V c t, PhiS2_pos V c _ _ hz]
      iintro ⟨⟨⟨HS0, HS1, HS2⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC V c t (fun h => h0 ((hcond2_0 t).mp h)) ((hcond2_1 t).mpr h1) _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      iintro ⟨H0, H1, H2, H3, H4, ⟨%e5, H5⟩, ⟨%e6, H6⟩, ⟨%e7, H7⟩, ⟨%es0, HS0⟩, ⟨%es1, HS1⟩, HS2⟩
      isplitl [HS0 HS1 HS2 Hrest]
      · isplitl [HS0 HS1 HS2]
        · isplitl [HS0]
          · unfold owns; iexists _; isplitr
            swap; · iexact HS0
            ipureintro; exact View.read_writes_of_cover _ _ _ _ _ (coverC_s0 V c t _ _ _)
          isplitl [HS1]
          · unfold owns; iexists _; isplitr
            swap; · iexact HS1
            ipureintro; exact View.read_writes_of_cover _ _ _ _ _ (coverC_s1 V c t _ _ _)
          iexact HS2
        iexact Hrest
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverC_5 V c t _ _ _)
      isplitl [H6]
      · unfold owns; iexists _; isplitr
        swap; · iexact H6
        ipureintro; exact View.read_writes_of_cover _ _ _ _ _ (coverC_6 V c t _ _ _)
      unfold owns; iexists _; isplitr
      swap; · iexact H7
      ipureintro; exact View.read_writes_of_cover _ _ _ _ _ (coverC_7 V c t _ _ _)
    · rw [Dat.leavesExact_idle (dat2 V c) 6 t (idleAt2_6 t (fun h => h1 ((hcond2_1 t).mp h))) (noFlush2_6 t (fun h => h1 ((hcond2_1 t).mp h)))]
      rw [Dat.leavesExact_idle (dat2 V c) 7 t (idleAt2_7 t (fun h => h1 ((hcond2_1 t).mp h))) (noFlush2_7 t (fun h => h1 ((hcond2_1 t).mp h)))]
      rw [outsAt2_B V c t h0 h1]
      unfold stB; (try dsimp only)
      rw [PhiS2_castSucc V c t, PhiS2_pos V c _ _ hz]
      iintro ⟨⟨⟨HS0, HS1, HS2⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t (fun h => h0 ((hcond2_0 t).mp h)) (fun h => h1 ((hcond2_1 t).mp h)) _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      isplitl [HS2]; · iexact HS2
      iintro ⟨H0, H1, H2, H3, H4, ⟨%e5, H5⟩, H6, H7, ⟨%es0, HS0⟩, ⟨%es1, HS1⟩, HS2⟩
      isplitl [HS0 HS1 HS2 Hrest]
      · isplitl [HS0 HS1 HS2]
        · isplitl [HS0]
          · unfold owns; iexists _; isplitr
            swap; · iexact HS0
            ipureintro; exact View.read_writes_of_cover _ _ _ _ _ (coverB_s0 V c t _ _ _)
          isplitl [HS1]
          · unfold owns; iexists _; isplitr
            swap; · iexact HS1
            ipureintro; exact View.read_writes_of_cover _ _ _ _ _ (coverB_s1 V c t _ _ _)
          iexact HS2
        iexact Hrest
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverB_5 V c t _ _ _)
      isplitl [H6]; · iexists _; iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The invariant before the first point is the scoped rest as the launch hands it over. -/
theorem hin2 (c : Dev nD) :
    (Pipeline.scopedRest (Ix := Unit) (Name := ℕ) (U := UR sig nD τ) (Lvl := ℕ) (Val := Elt F) spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back: what the scratch buffers hold is forgotten. -/
theorem hout2 (c : Dev nD) :
    (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), scopedRest2_owns]
  iintro ⟨⟨HS0, HS1, HS2⟩, Hrest⟩
  isplitl [HS0 HS1 HS2]
  · isplitl [HS0]; · iexists _; iexact HS0
    isplitl [HS1]; · iexists _; iexact HS1
    iexists _; iexact HS2
  iexact Hrest

end Cert.Kernel.Hand

end
-- ==== Proof.Bits.R2Arrays.lean ====
/-
  The attention region's arrays at its entry and exit. Two of its input windows — the row block and the column block of
  Xs — read ONE array, so the seven distinct buffers behind the eight windows' arrays are dealt to the windows with the
  buffer of Xs split in two halves of the share, and joined again when the region is left (an input array is never
  written, so both halves come back with the same contents).
-/
import proofs.«141314_j39779987096265_2_alg».proof.Proof.Bits.Region2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's arrays, one by one. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v1_0) ↦{fullShare} W main_v1_0) ∗ (((c : Thread nD τ).loc main_v1_1) ↦{fullShare} W main_v1_1) ∗ (((c : Thread nD τ).loc main_arg6) ↦{fullShare} W main_arg6) ∗ (((c : Thread nD τ).loc main_arg7) ↦{fullShare} W main_arg7) ∗ (((c : Thread nD τ).loc main_v2_0) ↦{fullShare} W main_v2_0) ∗ (((c : Thread nD τ).loc main_v2_1) ↦{fullShare} W main_v2_1) ∗ (((c : Thread nD τ).loc main_v2_2) ↦{fullShare} W main_v2_2)) := by
  unfold Pipeline.arrBufs
  exact bigSep_eq_bigSepL_of_eq [main_v1_0, main_v1_1, main_arg6, main_arg7, main_v2_0, main_v2_1, main_v2_2] (by decide) (by decide) _

/-- The windows' arrays, one by one, each at its share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v1_0) ↦{fullShare.left} G 0) ∗ (((c : Thread nD τ).loc main_v1_0) ↦{fullShare.right} G 1) ∗ (((c : Thread nD τ).loc main_v1_1) ↦{fullShare} G 2) ∗ (((c : Thread nD τ).loc main_arg6) ↦{fullShare} G 3) ∗ (((c : Thread nD τ).loc main_arg7) ↦{fullShare} G 4) ∗ (((c : Thread nD τ).loc main_v2_0) ↦{fullShare} G 5) ∗ (((c : Thread nD τ).loc main_v2_1) ↦{fullShare} G 6) ∗ (((c : Thread nD τ).loc main_v2_2) ↦{fullShare} G 7)) := by
  unfold Dat.arrays
  rw [bigSep_W2]
  rw [(arr_whole2 0).set_eq_univ, (arr_whole2 2).set_eq_univ, (arr_whole2 3).set_eq_univ, (arr_whole2 4).set_eq_univ, (arr_whole2 5).set_eq_univ, (arr_whole2 6).set_eq_univ, (arr_whole2 7).set_eq_univ]
  rfl

/-- ENTRY: the buffers at contents `W` make the windows' arrays at any contents `G` that reads them off `W`. -/
theorem arrays2_of_bufs (c : Dev nD) (W : (b : Ref sig .tc) → Buf (Elt F) ((c : Thread nD τ).loc b))
    (G : (w : Fin cfg2.W) → Buf (Elt F) ((cfg2.win w).arr.view.loc (c : Thread nD τ))) (hG : ∀ w, G w = W (Pipeline.arrRef spec2 w)) :
    (Pipeline.arrBufs (Ix := Unit) (Name := ℕ) (U := UR sig nD τ) (Lvl := ℕ) spec2 c W : sProp 𝕄) ⊢ (dat2 V c).arrays G := by
  rw [arrBufs2_eq, arrays2_eq, hG 0, hG 1, hG 2, hG 3, hG 4, hG 5, hG 6, hG 7]
  iintro ⟨H0, H2, H3, H4, H5, H6, H7⟩
  ihave H0' := (pointsTo_share (PosShare.mem_left_op_right fullShare)).1 $$ H0
  icases H0' with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  iexact H7

/-- EXIT: the windows' arrays at contents `G` that reads them off `W'` make the buffers at `W'`. -/
theorem bufs_of_arrays2 (c : Dev nD) (W' : (b : Ref sig .tc) → Buf (Elt F) ((c : Thread nD τ).loc b))
    (G : (w : Fin cfg2.W) → Buf (Elt F) ((cfg2.win w).arr.view.loc (c : Thread nD τ))) (hG : ∀ w, G w = W' (Pipeline.arrRef spec2 w)) :
    ((dat2 V c).arrays G : sProp 𝕄) ⊢ Pipeline.arrBufs (Ix := Unit) (Name := ℕ) (U := UR sig nD τ) (Lvl := ℕ) spec2 c W' := by
  rw [arrBufs2_eq, arrays2_eq, hG 0, hG 1, hG 2, hG 3, hG 4, hG 5, hG 6, hG 7]
  iintro ⟨Ha, Hb, H2, H3, H4, H5, H6, H7⟩
  isplitl [Ha Hb]
  · iapply (pointsTo_share (PosShare.mem_left_op_right fullShare)).2
    isplitl [Ha]; · iexact Ha
    iexact Hb
  isplitl [H2]; · iexact H2
  isplitl [H3]; · iexact H3
  isplitl [H4]; · iexact H4
  isplitl [H5]; · iexact H5
  isplitl [H6]; · iexact H6
  iexact H7

end Cert.Kernel.Hand

end
-- ==== Proof.Bits.Run.lean ====
/-
  The whole program's run: three regions in a row. Between two regions every unscoped buffer of a core is held at a
  named valuation — the launch memory, then each region's result arrays overwritten by what its write-backs leave — so
  that the end of the run says what every buffer holds: the eight arguments as launched, the three results at what the
  attention region's write-backs left. Each region is entered by splitting its arrays out of the unscoped buffers and
  left by putting them back at the next valuation.
-/
import proofs.«141314_j39779987096265_2_alg».proof.Proof.Bits.Region0
import proofs.«141314_j39779987096265_2_alg».proof.Proof.Bits.Region1
import proofs.«141314_j39779987096265_2_alg».proof.Proof.Bits.R2Arrays

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What every buffer holds between the regions -/

/-- At launch. -/
abbrev W0 : Dev nD → Valuation τ sig (Elt F) := fun c b => m (c, b)
abbrev V1 : (c : Dev nD) → (b : Ref sig .tc) → Buf (Elt F) ((c : Thread nD τ).loc b) := fun c b => W0 m c b
/-- After the first propagation layer: its two result arrays at what its write-backs leave. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- An input window's array is never written: it leaves the first layer as it entered. -/
theorem W2_in (c : Dev nD) (w : Fin cfg0.W) (hin : (cfg0.win w).isOut = false) :
    W2 m c (Proc.devRef .tc (Pipeline.arrRef spec0 w)) = W0 m c (Proc.devRef .tc (Pipeline.arrRef spec0 w)) :=
  (W2_arr m c w).trans (((dat0 (V1 m) c).arrAt_in w hin _).trans (A_eq0 (V1 m) c w))

/-- After the second propagation layer. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V3 : (c : Dev nD) → (b : Ref sig .tc) → Buf (Elt F) ((c : Thread nD τ).loc b) := fun c b => W4 m c b
theorem hF1 (c : Dev nD) (w : Fin cfg1.W) : (dat1 (V2 m) c).arrAt w cfg1.N = V3 m c (Pipeline.arrRef spec1 w) :=
  (W4_arr m c w).symm
theorem hrest1 (c : Dev nD) : ∀ b, b ∉ Finset.univ.image (Pipeline.arrRef spec1) → V3 m c b = V2 m c b :=
  fun b hb => W4_of_ne m c b fun w e => hb (Finset.mem_image.mpr ⟨w, Finset.mem_univ _, e⟩)

theorem W4_in (c : Dev nD) (w : Fin cfg1.W) (hin : (cfg1.win w).isOut = false) :
    W4 m c (Proc.devRef .tc (Pipeline.arrRef spec1 w)) = W2 m c (Proc.devRef .tc (Pipeline.arrRef spec1 w)) :=
  (W4_arr m c w).trans (((dat1 (V2 m) c).arrAt_in w hin _).trans (A_eq1 (V2 m) c w))

/-- After the attention region: its three result arrays at what its write-backs leave; its input arrays (two windows read
    one of them) are never written, so they stay. -/
def W6 (c : Dev nD) : Valuation τ sig (Elt F) :=
  Function.update (Function.update (Function.update (W4 m c) main_v2_0 ((dat2 (V3 m) c).arrAt 5 cfg2.N)) main_v2_1 ((dat2 (V3 m) c).arrAt 6 cfg2.N)) main_v2_2 ((dat2 (V3 m) c).arrAt 7 cfg2.N)
abbrev V4 : (c : Dev nD) → (b : Ref sig .tc) → Buf (Elt F) ((c : Thread nD τ).loc b) := fun c b => W6 m c b

theorem W6_of (c : Dev nD) (r : Ref sig .tc) (h : r ∉ ([main_v2_0, main_v2_1, main_v2_2] : List (Ref sig .tc))) : W6 m c r = W4 m c r := by
  simp only [W6, Function.update_of_ne (StableHlo.devRef_ne_of_ne (List.ne_of_not_mem_cons h) : (Proc.devRef .tc r : DevRef τ sig) ≠ Proc.devRef .tc main_v2_0), Function.update_of_ne (StableHlo.devRef_ne_of_ne (List.ne_of_not_mem_cons (List.not_mem_of_not_mem_cons h)) : (Proc.devRef .tc r : DevRef τ sig) ≠ Proc.devRef .tc main_v2_1), Function.update_of_ne (StableHlo.devRef_ne_of_ne (List.ne_of_not_mem_cons (List.not_mem_of_not_mem_cons (List.not_mem_of_not_mem_cons h))) : (Proc.devRef .tc r : DevRef τ sig) ≠ Proc.devRef .tc main_v2_2)]
theorem W6_v2_2 (c : Dev nD) : W6 m c main_v2_2 = (dat2 (V3 m) c).arrAt 7 cfg2.N := by
  unfold W6; exact Function.update_self _ _ _
theorem W6_v2_1 (c : Dev nD) : W6 m c main_v2_1 = (dat2 (V3 m) c).arrAt 6 cfg2.N := by
  unfold W6
  rw [Function.update_of_ne (StableHlo.devRef_ne_of_ne (by decide : main_v2_1 ≠ main_v2_2) : (Proc.devRef .tc main_v2_1 : DevRef τ sig) ≠ Proc.devRef .tc main_v2_2)]
  exact Function.update_self _ _ _
theorem W6_v2_0 (c : Dev nD) : W6 m c main_v2_0 = (dat2 (V3 m) c).arrAt 5 cfg2.N := by
  unfold W6
  rw [Function.update_of_ne (StableHlo.devRef_ne_of_ne (by decide : main_v2_0 ≠ main_v2_2) : (Proc.devRef .tc main_v2_0 : DevRef τ sig) ≠ Proc.devRef .tc main_v2_2),
    Function.update_of_ne (StableHlo.devRef_ne_of_ne (by decide : main_v2_0 ≠ main_v2_1) : (Proc.devRef .tc main_v2_0 : DevRef τ sig) ≠ Proc.devRef .tc main_v2_1)]
  exact Function.update_self _ _ _

/-- Each of the attention region's arrays ends at the last valuation: an input array as it was entered, a result at its
    write-backs. -/
theorem hF2 (c : Dev nD) : ∀ w : Fin cfg2.W, (dat2 (V3 m) c).arrAt w cfg2.N = V4 m c (Pipeline.arrRef spec2 w)
  | ⟨0, _⟩ => ((dat2 (V3 m) c).arrAt_in 0 rfl _).trans (W6_of m c main_v1_0 (by decide)).symm
  | ⟨1, _⟩ => ((dat2 (V3 m) c).arrAt_in 1 rfl _).trans (W6_of m c main_v1_0 (by decide)).symm
  | ⟨2, _⟩ => ((dat2 (V3 m) c).arrAt_in 2 rfl _).trans (W6_of m c main_v1_1 (by decide)).symm
  | ⟨3, _⟩ => ((dat2 (V3 m) c).arrAt_in 3 rfl _).trans (W6_of m c main_arg6 (by decide)).symm
  | ⟨4, _⟩ => ((dat2 (V3 m) c).arrAt_in 4 rfl _).trans (W6_of m c main_arg7 (by decide)).symm
  | ⟨5, _⟩ => (W6_v2_0 m c).symm
  | ⟨6, _⟩ => (W6_v2_1 m c).symm
  | ⟨7, _⟩ => (W6_v2_2 m c).symm
theorem hrest2 (c : Dev nD) : ∀ b, b ∉ Finset.univ.image (Pipeline.arrRef spec2) → V4 m c b = V3 m c b :=
  fun b hb => W6_of m c b fun hmem => hb (by
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    rcases List.mem_cons.mp hmem with rfl | hmem
    · exact Finset.mem_image.mpr ⟨7, Finset.mem_univ _, rfl⟩
    exact absurd hmem (List.not_mem_nil))

/-! ### No region writes an argument -/

theorem W6_main_arg0 (c : Dev nD) : W6 m c (Proc.devRef .tc main_arg0) = m ((c : Thread nD τ).loc main_arg0) :=
  (W6_of m c main_arg0 (by decide)).trans <| (W4_in m c 0 rfl).trans <| (W2_in m c 0 rfl).trans rfl
theorem W6_main_arg1 (c : Dev nD) : W6 m c (Proc.devRef .tc main_arg1) = m ((c : Thread nD τ).loc main_arg1) :=
  (W6_of m c main_arg1 (by decide)).trans <| (W4_of_ne m c main_arg1 (by decide)).trans <| (W2_in m c 1 rfl).trans rfl
theorem W6_main_arg2 (c : Dev nD) : W6 m c (Proc.devRef .tc main_arg2) = m ((c : Thread nD τ).loc main_arg2) :=
  (W6_of m c main_arg2 (by decide)).trans <| (W4_in m c 2 rfl).trans <| (W2_in m c 2 rfl).trans rfl
theorem W6_main_arg3 (c : Dev nD) : W6 m c (Proc.devRef .tc main_arg3) = m ((c : Thread nD τ).loc main_arg3) :=
  (W6_of m c main_arg3 (by decide)).trans <| (W4_of_ne m c main_arg3 (by decide)).trans <| (W2_in m c 3 rfl).trans rfl
theorem W6_main_arg4 (c : Dev nD) : W6 m c (Proc.devRef .tc main_arg4) = m ((c : Thread nD τ).loc main_arg4) :=
  (W6_of m c main_arg4 (by decide)).trans <| (W4_of_ne m c main_arg4 (by decide)).trans <| (W2_in m c 4 rfl).trans rfl
theorem W6_main_arg5 (c : Dev nD) : W6 m c (Proc.devRef .tc main_arg5) = m ((c : Thread nD τ).loc main_arg5) :=
  (W6_of m c main_arg5 (by decide)).trans <| (W4_in m c 4 rfl).trans <| (W2_of_ne m c main_arg5 (by decide)).trans rfl
theorem W6_main_arg6 (c : Dev nD) : W6 m c (Proc.devRef .tc main_arg6) = m ((c : Thread nD τ).loc main_arg6) :=
  (W6_of m c main_arg6 (by decide)).trans <| (W4_of_ne m c main_arg6 (by decide)).trans <| (W2_of_ne m c main_arg6 (by decide)).trans rfl
theorem W6_main_arg7 (c : Dev nD) : W6 m c (Proc.devRef .tc main_arg7) = m ((c : Thread nD τ).loc main_arg7) :=
  (W6_of m c main_arg7 (by decide)).trans <| (W4_of_ne m c main_arg7 (by decide)).trans <| (W2_of_ne m c main_arg7 (by decide)).trans rfl

/-! ## The proof data family and the thread state -/

abbrev adm : (p : Fin 3) → (pcfgs (F := F) p).Adm := fun p => (cfgs p).toPCfg_adm
/-- Every region's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: its arrays split out of the unscoped buffers and put back at the exit contents; the
    generator register into the region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers and put back at the exit contents; the
    generator register into the region's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state. Its scratch buffers ride in the region's invariant; the generator register
    bypasses the region; two of its windows share an array, which is split between them at entry and joined at exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W6 m c) ∗ R c)
  X _ := BI.emp
  Y _ := BI.emp
  Z c := iprop(Pipeline.unscopedRest (Ix := Unit) (Name := ℕ) (U := UR sig nD τ) (Lvl := ℕ) spec2 c (V3 m c) ∗ ∃ r, prngReg c r)
  hentry c := by
    rw [Pipeline.ownSems0_none]
    have hsplit : (StableHlo.held (c : Thread nD τ) (Pipeline.ucRefs τ sig) (W4 m c) : sProp 𝕄)
        ⊢ iprop((pdats m 2 c).arrays ((pdats m 2 c).arrAt · 0) ∗ Pipeline.unscopedRest (Ix := Unit) (Name := ℕ) (U := UR sig nD τ) (Lvl := ℕ) spec2 c (V3 m c)) := by
      rw [← Pipeline.unscopedBufs_held (Ix := Unit) (Name := ℕ) (U := UR sig nD τ) (Lvl := ℕ) c (W4 m c),
        Pipeline.unscopedBufs_split₀ cfgs 2 winFacts₀2.arr_unscoped c (V3 m c)]
      exact sep_mono (arrays2_of_bufs (V3 m) c (V3 m c) _ (fun _ => rfl)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = (dat2 (V3 m) c).Φ 0 from rfl]
    iintro ⟨-, -, Hr⟩
    iapply (hin2 (V3 m) c); iexact Hr
  hout c := by
    rw [Pipeline.ownSems0_none, show (pdats m 2 c).Φ (Fin.last _) = (dat2 (V3 m) c).Φ (Fin.last cfg2.N) from rfl]
    iintro H
    isplitr; · iempintro
    isplitr; · iempintro
    iapply (hout2 (V3 m) c); iexact H
  hexit c := by
    have hjoin : iprop((pdats m 2 c).arrays ((pdats m 2 c).arrAt · cfg2.N) ∗ Pipeline.unscopedRest (Ix := Unit) (Name := ℕ) (U := UR sig nD τ) (Lvl := ℕ) spec2 c (V3 m c))
        ⊢ (StableHlo.held (c : Thread nD τ) (Pipeline.ucRefs τ sig) (W6 m c) : sProp 𝕄) := by
      rw [← Pipeline.unscopedBufs_held (Ix := Unit) (Name := ℕ) (U := UR sig nD τ) (Lvl := ℕ) c (W6 m c),
        Pipeline.unscopedBufs_split₀ cfgs 2 winFacts₀2.arr_unscoped c (V4 m c)]
      refine sep_mono (bufs_of_arrays2 (V3 m) c (V4 m c) _ (hF2 m c)) (Entails.of_eq ?_)
      unfold Pipeline.unscopedRest
      exact bigSep_congr fun b hb => by rw [hrest2 m c b (Finset.mem_sdiff.mp hb).2]
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m), .region (reg2 m) ]

set_option backward.isDefEq.respectTransparency.types false in
/-- THE RUN: from any memory with zero counters every weakly fair execution of @main terminates, nothing faulting, and
    in every final state each unscoped buffer of each core holds what the last valuation says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) (reg2 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) (Pipeline.ucRefs τ sig) (W6 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME at any instance: the eight arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c)⟩)
    (run_all m ρ)

end Cert.Kernel.Hand

end
-- ==== Proof.Ideal.Region0.lean ====
/- Region 0 of the kernel: the first graph-convolution layer, on both graphs at once. At grid point `i` the body reads a
   block of 512 rows of each adjacency matrix (windows 0 and 2), the whole feature matrices (windows 1 and 3) and the
   whole weight matrix (window 4), and stores into each output window (5 and 6) the 512 rows
   `max ((A_rows · X) · W, 0)` of its graph. This module states, at any buffer contents `V` the region is entered with,
   what the body leaves in every window's staging buffer and proves the body's triple at every grid point. -/
import proofs.«141314_j39779987096265_2_alg».proof.Proof.Gen.KernelIdeal.Launch
import proofs.«141314_j39779987096265_2_alg».proof.Proof.Gen.KernelIdeal.Skeleton
import proofs.«141314_j39779987096265_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 512 or 4096 coordinates recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or not (an unfetched window's block index has not moved, so the block it kept is this point's), for any proof data
    whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether the pipeline fetched it there
    or not (an unfetched window's block index has not moved, so the block it kept is this point's), for any proof data
    whose array is `V`'s (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether the pipeline fetched it there
    or not (an unfetched window's block index has not moved, so the block it kept is this point's), for any proof data
    whose array is `V`'s (`hA`) and whose body leaves the block in place (`hafter`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether the pipeline fetched it there
    or not (an unfetched window's block index has not moved, so the block it kept is this point's), for any proof data
    whose array is `V`'s (`hA`) and whose body leaves the block in place (`hafter`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, whether the pipeline fetched it there
    or not (an unfetched window's block index has not moved, so the block it kept is this point's), for any proof data
    whose array is `V`'s (`hA`) and whose body leaves the block in place (`hafter`). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole staging buffer -/

abbrev r0_0 : Rect S256x128 := Rect.unit (s := S256x128) ![0, 0] S256x128.size inb_S256x128_S256x128_0_0
abbrev r0_1 : Rect S512x4096 := Rect.unit (s := S512x4096) ![0, 0] S512x4096.size inb_S512x4096_S512x4096_0_0
abbrev r0_2 : Rect S4096x256 := Rect.unit (s := S4096x256) ![0, 0] S4096x256.size inb_S4096x256_S4096x256_0_0
abbrev r0_3 : Rect S512x128 := Rect.unit (s := S512x128) ![0, 0] S512x128.size inb_S512x128_S512x128_0_0

/-! ## What the body leaves in each output window's buffer -/

/-- Window 5's staging buffer after the body: its one store, of the whole buffer, of the first graph's layer
    `max ((x0 · x1) · x4, 0)` — the weight block `x4`, the adjacency rows `x0` and the features `x1`. -/
def out0_5 (x4 : Vec F S256x128 .f32) (x0 : Vec F S512x4096 .f32) (x1 : Vec F S4096x256 .f32) : Vec F S512x128 .f32 :=
  View.canon [⟨r0_3, k0_pay1 (View.ld x4 r0_0) (View.ld x0 r0_1) (View.ld x1 r0_2)⟩]

/-- The store is of the whole buffer, so it covers it. -/
theorem cover0_5 (p0 : Vec F S512x128 .f32) (y : S512x128.Idx) :
    ∃ pc ∈ ([⟨r0_3, p0⟩] : List (View.Piece (Elt F) S512x128 .f32)), y ∈ pc.1.set :=
  View.cover_of_tiled [⟨r0_3, p0⟩] S512x128.size (by rfl) y

/-- Window 6's staging buffer after the body: its one store, of the whole buffer, of the second graph's layer
    `max ((x2 · x3) · x4, 0)`. -/
def out0_6 (x4 : Vec F S256x128 .f32) (x2 : Vec F S512x4096 .f32) (x3 : Vec F S4096x256 .f32) : Vec F S512x128 .f32 :=
  View.canon [⟨r0_3, k0_pay2 (View.ld x4 r0_0) (View.ld x2 r0_1) (View.ld x3 r0_2)⟩]

/-- The store is of the whole buffer, so it covers it. -/
theorem cover0_6 (p0 : Vec F S512x128 .f32) (y : S512x128.Idx) :
    ∃ pc ∈ ([⟨r0_3, p0⟩] : List (View.Piece (Elt F) S512x128 .f32)), y ∈ pc.1.set :=
  View.cover_of_tiled [⟨r0_3, p0⟩] S512x128.size (by rfl) y

/-! ## The body's triple -/

set_option maxHeartbeats 1000000 in
/-- The kernel body on whole staging memrefs, the five inputs' at read contents `x0 … x4` and the two outputs' at
    anything, runs to the continuation holding the inputs' as they were and the outputs' at `out0_5`, `out0_6` of the
    inputs'. The body reads each output buffer once before it stores over all of it; what it read is not used. -/
theorem sound_kernel0 (c : Dev nD) (E : Set ℕ) (i : grid0.Coords)
    (arg1 : Memref sig .tc .vmem S512x4096 .f32) (harg1 : arg1.IsWhole) (arg2 : Memref sig .tc .vmem S4096x256 .f32) (harg2 : arg2.IsWhole)
    (arg3 : Memref sig .tc .vmem S512x4096 .f32) (harg3 : arg3.IsWhole) (arg4 : Memref sig .tc .vmem S4096x256 .f32) (harg4 : arg4.IsWhole)
    (arg5 : Memref sig .tc .vmem S256x128 .f32) (harg5 : arg5.IsWhole)
    (arg6 : Memref sig .tc .vmem S512x128 .f32) (harg6 : arg6.IsWhole) (arg7 : Memref sig .tc .vmem S512x128 .f32) (harg7 : arg7.IsWhole)
    (x0 : Vec F S512x4096 .f32) (x1 : Vec F S4096x256 .f32) (x2 : Vec F S512x4096 .f32) (x3 : Vec F S4096x256 .f32) (x4 : Vec F S256x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x4 x0 x1) ∗ owns (c : Thread nD τ) arg7 fullShare (out0_6 x4 x2 x3)) -∗ K ⟨⟩))
      ⊢ wp frame (wpE (defs₀ (F := F)) Variants.none c none) E (cc0__gcn_dual_kernel i arg1 harg1 arg2 harg2 arg3 harg3 arg4 harg4 arg5 harg5 arg6 harg6 arg7 harg7) K := by
  simp only [cc0__gcn_dual_kernel_eq_skeleton]; unfold cc0__gcn_dual_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at point `t`
    each input's buffer still at its block and each output's at its layer of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 4 t) (iblk0 V c 0 t) (iblk0 V c 1 t)
    | ⟨6, _⟩ => out0_6 (iblk0 V c 4 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 4 t) (iblk0 V c 0 t) (iblk0 V c 1 t) := by dsimp only [dat0]
theorem after0_6 (c : Dev nD) (t : Fin cfg0.N) : (dat0 V c).after 6 t = out0_6 (iblk0 V c 4 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ideal.Region1.lean ====
/- Region 1 of the kernel: the second graph-convolution layer (its feature matrices are the first layer's two results), on both graphs at once. At grid point `i` the body reads a
   block of 512 rows of each adjacency matrix (windows 0 and 2), the whole feature matrices (windows 1 and 3) and the
   whole weight matrix (window 4), and stores into each output window (5 and 6) the 512 rows
   `max ((A_rows · X) · W, 0)` of its graph. This module states, at any buffer contents `V` the region is entered with,
   what the body leaves in every window's staging buffer and proves the body's triple at every grid point. -/
import proofs.«141314_j39779987096265_2_alg».proof.Proof.Gen.KernelIdeal.Launch
import proofs.«141314_j39779987096265_2_alg».proof.Proof.Gen.KernelIdeal.Skeleton
import proofs.«141314_j39779987096265_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 512 or 4096 coordinates recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there
    or not (an unfetched window's block index has not moved, so the block it kept is this point's), for any proof data
    whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether the pipeline fetched it there
    or not (an unfetched window's block index has not moved, so the block it kept is this point's), for any proof data
    whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether the pipeline fetched it there
    or not (an unfetched window's block index has not moved, so the block it kept is this point's), for any proof data
    whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether the pipeline fetched it there
    or not (an unfetched window's block index has not moved, so the block it kept is this point's), for any proof data
    whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether the pipeline fetched it there
    or not (an unfetched window's block index has not moved, so the block it kept is this point's), for any proof data
    whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store is of a whole staging buffer -/

abbrev r1_0 : Rect S128x128 := Rect.unit (s := S128x128) ![0, 0] S128x128.size inb_S128x128_S128x128_0_0
abbrev r1_1 : Rect S512x4096 := Rect.unit (s := S512x4096) ![0, 0] S512x4096.size inb_S512x4096_S512x4096_0_0
abbrev r1_2 : Rect S4096x128 := Rect.unit (s := S4096x128) ![0, 0] S4096x128.size inb_S4096x128_S4096x128_0_0
abbrev r1_3 : Rect S512x128 := Rect.unit (s := S512x128) ![0, 0] S512x128.size inb_S512x128_S512x128_0_0

/-! ## What the body leaves in each output window's buffer -/

/-- Window 5's staging buffer after the body: its one store, of the whole buffer, of the first graph's layer
    `max ((x0 · x1) · x4, 0)` — the weight block `x4`, the adjacency rows `x0` and the features `x1`. -/
def out1_5 (x4 : Vec F S128x128 .f32) (x0 : Vec F S512x4096 .f32) (x1 : Vec F S4096x128 .f32) : Vec F S512x128 .f32 :=
  View.canon [⟨r1_3, k1_pay1 (View.ld x4 r1_0) (View.ld x0 r1_1) (View.ld x1 r1_2)⟩]

/-- The store is of the whole buffer, so it covers it. -/
theorem cover1_5 (p0 : Vec F S512x128 .f32) (y : S512x128.Idx) :
    ∃ pc ∈ ([⟨r1_3, p0⟩] : List (View.Piece (Elt F) S512x128 .f32)), y ∈ pc.1.set :=
  View.cover_of_tiled [⟨r1_3, p0⟩] S512x128.size (by rfl) y

/-- Window 6's staging buffer after the body: its one store, of the whole buffer, of the second graph's layer
    `max ((x2 · x3) · x4, 0)`. -/
def out1_6 (x4 : Vec F S128x128 .f32) (x2 : Vec F S512x4096 .f32) (x3 : Vec F S4096x128 .f32) : Vec F S512x128 .f32 :=
  View.canon [⟨r1_3, k1_pay2 (View.ld x4 r1_0) (View.ld x2 r1_1) (View.ld x3 r1_2)⟩]

/-- The store is of the whole buffer, so it covers it. -/
theorem cover1_6 (p0 : Vec F S512x128 .f32) (y : S512x128.Idx) :
    ∃ pc ∈ ([⟨r1_3, p0⟩] : List (View.Piece (Elt F) S512x128 .f32)), y ∈ pc.1.set :=
  View.cover_of_tiled [⟨r1_3, p0⟩] S512x128.size (by rfl) y

/-! ## The body's triple -/

set_option maxHeartbeats 1000000 in
/-- The kernel body on whole staging memrefs, the five inputs' at read contents `x0 … x4` and the two outputs' at
    anything, runs to the continuation holding the inputs' as they were and the outputs' at `out1_5`, `out1_6` of the
    inputs'. The body reads each output buffer once before it stores over all of it; what it read is not used. -/
theorem sound_kernel1 (c : Dev nD) (E : Set ℕ) (i : grid1.Coords)
    (arg1 : Memref sig .tc .vmem S512x4096 .f32) (harg1 : arg1.IsWhole) (arg2 : Memref sig .tc .vmem S4096x128 .f32) (harg2 : arg2.IsWhole)
    (arg3 : Memref sig .tc .vmem S512x4096 .f32) (harg3 : arg3.IsWhole) (arg4 : Memref sig .tc .vmem S4096x128 .f32) (harg4 : arg4.IsWhole)
    (arg5 : Memref sig .tc .vmem S128x128 .f32) (harg5 : arg5.IsWhole)
    (arg6 : Memref sig .tc .vmem S512x128 .f32) (harg6 : arg6.IsWhole) (arg7 : Memref sig .tc .vmem S512x128 .f32) (harg7 : arg7.IsWhole)
    (x0 : Vec F S512x4096 .f32) (x1 : Vec F S4096x128 .f32) (x2 : Vec F S512x4096 .f32) (x3 : Vec F S4096x128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x4 x0 x1) ∗ owns (c : Thread nD τ) arg7 fullShare (out1_6 x4 x2 x3)) -∗ K ⟨⟩))
      ⊢ wp frame (wpE (defs₀ (F := F)) Variants.none c none) E (cc1__gcn_dual_kernel i arg1 harg1 arg2 harg2 arg3 harg3 arg4 harg4 arg5 harg5 arg6 harg6 arg7 harg7) K := by
  simp only [cc1__gcn_dual_kernel_eq_skeleton]; unfold cc1__gcn_dual_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer still at its block and each output's at its layer of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 4 t) (iblk1 V c 0 t) (iblk1 V c 1 t)
    | ⟨6, _⟩ => out1_6 (iblk1 V c 4 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 4 t) (iblk1 V c 0 t) (iblk1 V c 1 t) := by dsimp only [dat1]
theorem after1_6 (c : Dev nD) (t : Fin cfg1.N) : (dat1 V c).after 6 t = out1_6 (iblk1 V c 4 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.R2Defs.lean ====
/-
  The attention region (the third pallas_call, grid (4, 8): row block i of 1024 rows, column block j of 512): what its
  three case runs and its proof data are stated over. At each point the body first, when j = 0, zeroes the two
  accumulators and stores the query block Q = Xs_i · W3 in a third scratch buffer; then it stores the score tile
  exp(Q · Xt_jᵀ) into the first result's block and adds its products with Xs_j and Xt_j to the accumulators; and, when
  j = 7, stores the accumulators' products with W4 into the other two results' blocks. So a point is in one of three
  cases: A (j = 0), B (0 < j < 7), C (j = 7); the last two results' windows are idle off case C.
-/
import proofs.«141314_j39779987096265_2_alg».proof.Proof.Gen.KernelIdeal.Launch
import proofs.«141314_j39779987096265_2_alg».proof.Proof.Gen.KernelIdeal.Skeleton
import proofs.«141314_j39779987096265_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "j = 0", as the body computes it from the second grid coordinate. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- "j = 7" (the last column block). -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Off the last column block the last two results' windows are idle and not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_6 : ∀ t : Fin cfg2.N, cond2_1 (grid2.coords t) → cfg2.idle 6 (grid2.coords t) = false := by decide +kernel
theorem liveAt2_7 : ∀ t : Fin cfg2.N, cond2_1 (grid2.coords t) → cfg2.idle 7 (grid2.coords t) = false := by decide +kernel

/-! ## The memrefs the body is called with -/

abbrev VO2_5 : View sig .tc .vmem S1024x512 .f32 := (Memref.whole cc2_stg5_0 : Memref sig .tc .vmem S1024x512 .f32).view
abbrev VO2_6 : View sig .tc .vmem S1024x128 .f32 := (Memref.whole cc2_stg6_0 : Memref sig .tc .vmem S1024x128 .f32).view
abbrev VO2_7 : View sig .tc .vmem S1024x128 .f32 := (Memref.whole cc2_stg7_0 : Memref sig .tc .vmem S1024x128 .f32).view
abbrev ms2_0 (t : Fin cfg2.N) : Memref sig .tc .vmem S1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x128 .f32 := win2_7.stage (cfg2.slots t 7)
abbrev hs2_7 (t : Fin cfg2.N) : (ms2_7 t).IsWhole := hstage2_7 ((cfg2.slots t 7).cast nbuf2_7)
/-- The three scratch operands: the two accumulators and the query block. -/
abbrev scM2_0 : Memref sig .tc .vmem S1024x128 .f32 := Memref.whole cc2_scratch0
abbrev scM2_1 : Memref sig .tc .vmem S1024x128 .f32 := Memref.whole cc2_scratch1
abbrev scM2_2 : Memref sig .tc .vmem S1024x128 .f32 := Memref.whole cc2_scratch2
abbrev VS2_0 : View sig .tc .vmem S1024x128 .f32 := scM2_0.view
abbrev VS2_1 : View sig .tc .vmem S1024x128 .f32 := scM2_1.view
abbrev VS2_2 : View sig .tc .vmem S1024x128 .f32 := scM2_2.view

/-! ## The windows' blocks, at the contents `V` the region is entered with -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Cert.KernelIdeal.Hand

end
-- ==== Proof.Ideal.R2RunA.lean ====
/-
  The attention body run on whole staging memrefs in case A — the first column block (j = 0): the accumulators are zeroed and the query block stored before the tile is computed, so the three scratch buffers come at anything. What each buffer the body stores into ends with is
  a list of pieces (last store first) that the symbolic run finds; the inputs' buffers, and a buffer the case does not store
  into, are handed back as they came.
-/
import proofs.«141314_j39779987096265_2_alg».proof.Proof.Ideal.R2Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (hc0 : cond2_0 i) (hc1 : ¬cond2_1 i)
    (x0 : Vec F S1024x128 .f32) (x1 : Vec F S512x128 .f32) (x2 : Vec F S512x128 .f32) (x3 : Vec F S128x128 .f32) (x4 : Vec F S128x128 .f32) :
    Σ' (L5 : List (View.Piece (Elt F) S1024x512 .f32)) (LS0 : List (View.Piece (Elt F) S1024x128 .f32)) (LS1 : List (View.Piece (Elt F) S1024x128 .f32)), { LS2 : List (View.Piece (Elt F) S1024x128 .f32) //
      ∀ (xi6 : Vec F S1024x128 .f32) (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12) K } := by
  refine ⟨?_, ?_, ?_, ?_, fun xi6 xi7 E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    isplitl [HS1]
    · iexists _; iexact HS1
    iexists _; iexact HS2

end Cert.KernelIdeal.Hand

end
-- ==== Proof.Ideal.R2RunB.lean ====
/-
  The attention body run on whole staging memrefs in case B — a middle column block (0 < j < 7): the scratch buffers come at what the point before left; the query block is only read. What each buffer the body stores into ends with is
  a list of pieces (last store first) that the symbolic run finds; the inputs' buffers, and a buffer the case does not store
  into, are handed back as they came.
-/
import proofs.«141314_j39779987096265_2_alg».proof.Proof.Ideal.R2Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (hc0 : ¬cond2_0 i) (hc1 : ¬cond2_1 i)
    (x0 : Vec F S1024x128 .f32) (x1 : Vec F S512x128 .f32) (x2 : Vec F S512x128 .f32) (x3 : Vec F S128x128 .f32) (x4 : Vec F S128x128 .f32) (xs0 : Vec F S1024x128 .f32) (xs1 : Vec F S1024x128 .f32) (xs2 : Vec F S1024x128 .f32) :
    Σ' (L5 : List (View.Piece (Elt F) S1024x512 .f32)) (LS0 : List (View.Piece (Elt F) S1024x128 .f32)), { LS1 : List (View.Piece (Elt F) S1024x128 .f32) //
      ∀ (xi6 : Vec F S1024x128 .f32) (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ owns (c : Thread nD τ) arg12 fullShare xs2) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12) K } := by
  refine ⟨?_, ?_, ?_, fun xi6 xi7 E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    isplitl [HS1]
    · iexists _; iexact HS1
    iexists _; isplitr; · ipureintro; exact harg12.read_unread _
    iexact HS2

end Cert.KernelIdeal.Hand

end
-- ==== Proof.Ideal.R2RunC.lean ====
/-
  The attention body run on whole staging memrefs in case C — the last column block (j = 7): as in the middle, and the accumulators' products with W4 are stored into the last two results' blocks. What each buffer the body stores into ends with is
  a list of pieces (last store first) that the symbolic run finds; the inputs' buffers, and a buffer the case does not store
  into, are handed back as they came.
-/
import proofs.«141314_j39779987096265_2_alg».proof.Proof.Ideal.R2Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S1024x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (hc0 : ¬cond2_0 i) (hc1 : cond2_1 i)
    (x0 : Vec F S1024x128 .f32) (x1 : Vec F S512x128 .f32) (x2 : Vec F S512x128 .f32) (x3 : Vec F S128x128 .f32) (x4 : Vec F S128x128 .f32) (xs0 : Vec F S1024x128 .f32) (xs1 : Vec F S1024x128 .f32) (xs2 : Vec F S1024x128 .f32) :
    Σ' (L5 : List (View.Piece (Elt F) S1024x512 .f32)) (L6 : List (View.Piece (Elt F) S1024x128 .f32)) (L7 : List (View.Piece (Elt F) S1024x128 .f32)) (LS0 : List (View.Piece (Elt F) S1024x128 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ owns (c : Thread nD τ) arg12 fullShare xs2) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    isplitl [H7]
    · iexists _; iexact H7
    isplitl [HS0]
    · iexists _; iexact HS0
    isplitl [HS1]
    · iexists _; iexact HS1
    iexists _; isplitr; · ipureintro; exact harg12.read_unread _
    iexact HS2

end Cert.KernelIdeal.Hand

end
-- ==== Proof.Ideal.Region2.lean ====
/-
  The attention region's proof data and body obligation. After point t = 8 i + j the first result's staging buffer holds
  the score tile of row block i and column block j; the two accumulators hold the sums over the column blocks 0..j of
  the tile's products with the blocks of Xs and Xt; the query buffer holds Xs_i · W3 (stored at j = 0, kept until the next
  row block); at j = 7 the last two results' buffers hold the accumulators' products with W4. The invariant between two
  points says exactly what the three scratch buffers hold, so that the next point's body finds it.
-/
import proofs.«141314_j39779987096265_2_alg».proof.Proof.Ideal.R2RunA
import proofs.«141314_j39779987096265_2_alg».proof.Proof.Ideal.R2RunB
import proofs.«141314_j39779987096265_2_alg».proof.Proof.Ideal.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's buffer holds its block at every point, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What the buffers hold after a point, case by case -/

/-- The three results' staging buffers (`o5`: the score tile; `o6`, `o7`: the two projections) and the three scratch
    buffers (`s0`, `s1`: the accumulators; `s2`: the query block) after a point's body. -/
structure St2 (F : FTy → Type) where
  o5 : Vec F S1024x512 .f32
  o6 : Vec F S1024x128 .f32
  o7 : Vec F S1024x128 .f32
  s0 : Vec F S1024x128 .f32
  s1 : Vec F S1024x128 .f32
  s2 : Vec F S1024x128 .f32

abbrev runA (c : Dev nD) (t : Fin cfg2.N) (hc0 : cond2_0 (grid2.coords t)) (hc1 : ¬cond2_1 (grid2.coords t)) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) hc0 hc1 (iblk2 V c 0 t) (iblk2 V c 1 t) (iblk2 V c 2 t) (iblk2 V c 3 t) (iblk2 V c 4 t)
abbrev runB (c : Dev nD) (t : Fin cfg2.N) (hc0 : ¬cond2_0 (grid2.coords t)) (hc1 : ¬cond2_1 (grid2.coords t)) (p : St2 F) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) hc0 hc1 (iblk2 V c 0 t) (iblk2 V c 1 t) (iblk2 V c 2 t) (iblk2 V c 3 t) (iblk2 V c 4 t) p.s0 p.s1 p.s2
abbrev runC (c : Dev nD) (t : Fin cfg2.N) (hc0 : ¬cond2_0 (grid2.coords t)) (hc1 : cond2_1 (grid2.coords t)) (p : St2 F) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) hc0 hc1 (iblk2 V c 0 t) (iblk2 V c 1 t) (iblk2 V c 2 t) (iblk2 V c 3 t) (iblk2 V c 4 t) p.s0 p.s1 p.s2

/-- Case A (j = 0): the tile and all three scratch buffers are stored; the projections' buffers are not (placeholders). -/
def stA (c : Dev nD) (t : Fin cfg2.N) (hc0 : cond2_0 (grid2.coords t)) (hc1 : ¬cond2_1 (grid2.coords t)) : St2 F where
  o5 := VO2_5.read (Elt F) (VO2_5.writes (Elt F) VO2_5.junk (runA V c t hc0 hc1).1)
  o6 := VO2_6.read (Elt F) VO2_6.junk
  o7 := VO2_7.read (Elt F) VO2_7.junk
  s0 := VS2_0.read (Elt F) (VS2_0.writes (Elt F) VS2_0.junk (runA V c t hc0 hc1).2.1)
  s1 := VS2_1.read (Elt F) (VS2_1.writes (Elt F) VS2_1.junk (runA V c t hc0 hc1).2.2.1)
  s2 := VS2_2.read (Elt F) (VS2_2.writes (Elt F) VS2_2.junk (runA V c t hc0 hc1).2.2.2.1)

/-- Case B (0 < j < 7): the tile and the accumulators are stored over what the point before left; the query block is kept. -/
def stB (c : Dev nD) (t : Fin cfg2.N) (hc0 : ¬cond2_0 (grid2.coords t)) (hc1 : ¬cond2_1 (grid2.coords t)) (p : St2 F) : St2 F where
  o5 := VO2_5.read (Elt F) (VO2_5.writes (Elt F) VO2_5.junk (runB V c t hc0 hc1 p).1)
  o6 := VO2_6.read (Elt F) VO2_6.junk
  o7 := VO2_7.read (Elt F) VO2_7.junk
  s0 := VS2_0.read (Elt F) (VS2_0.writes (Elt F) VS2_0.junk (runB V c t hc0 hc1 p).2.1)
  s1 := VS2_1.read (Elt F) (VS2_1.writes (Elt F) VS2_1.junk (runB V c t hc0 hc1 p).2.2.1)
  s2 := p.s2

/-- Case C (j = 7): as case B, and the two projections are stored. -/
def stC (c : Dev nD) (t : Fin cfg2.N) (hc0 : ¬cond2_0 (grid2.coords t)) (hc1 : cond2_1 (grid2.coords t)) (p : St2 F) : St2 F where
  o5 := VO2_5.read (Elt F) (VO2_5.writes (Elt F) VO2_5.junk (runC V c t hc0 hc1 p).1)
  o6 := VO2_6.read (Elt F) (VO2_6.writes (Elt F) VO2_6.junk (runC V c t hc0 hc1 p).2.1)
  o7 := VO2_7.read (Elt F) (VO2_7.writes (Elt F) VO2_7.junk (runC V c t hc0 hc1 p).2.2.1)
  s0 := VS2_0.read (Elt F) (VS2_0.writes (Elt F) VS2_0.junk (runC V c t hc0 hc1 p).2.2.2.1)
  s1 := VS2_1.read (Elt F) (VS2_1.writes (Elt F) VS2_1.junk (runC V c t hc0 hc1 p).2.2.2.2.1)
  s2 := p.s2

/-! ## The pieces each case stores cover the buffer they are stored into -/

theorem coverA_5 (c : Dev nD) (t : Fin cfg2.N) (hc0 hc1) (y : S1024x512.Idx) : ∃ pc ∈ (runA (F := F) V c t hc0 hc1).1, y ∈ pc.1.set :=
  View.cover_of_tiledL (runA (F := F) V c t hc0 hc1).1 S1024x512.size (by sl_kernel_rfl) y
theorem coverA_s0 (c : Dev nD) (t : Fin cfg2.N) (hc0 hc1) (y : S1024x128.Idx) : ∃ pc ∈ (runA (F := F) V c t hc0 hc1).2.1, y ∈ pc.1.set :=
  View.cover_of_tiledL (runA (F := F) V c t hc0 hc1).2.1 S1024x128.size (by sl_kernel_rfl) y
theorem coverA_s1 (c : Dev nD) (t : Fin cfg2.N) (hc0 hc1) (y : S1024x128.Idx) : ∃ pc ∈ (runA (F := F) V c t hc0 hc1).2.2.1, y ∈ pc.1.set :=
  View.cover_of_tiledL (runA (F := F) V c t hc0 hc1).2.2.1 S1024x128.size (by sl_kernel_rfl) y
theorem coverA_s2 (c : Dev nD) (t : Fin cfg2.N) (hc0 hc1) (y : S1024x128.Idx) : ∃ pc ∈ (runA (F := F) V c t hc0 hc1).2.2.2.1, y ∈ pc.1.set :=
  View.cover_of_tiledL (runA (F := F) V c t hc0 hc1).2.2.2.1 S1024x128.size (by sl_kernel_rfl) y
theorem coverB_5 (c : Dev nD) (t : Fin cfg2.N) (hc0 hc1) (p : St2 F) (y : S1024x512.Idx) : ∃ pc ∈ (runB (F := F) V c t hc0 hc1 p).1, y ∈ pc.1.set :=
  View.cover_of_tiledL (runB (F := F) V c t hc0 hc1 p).1 S1024x512.size (by sl_kernel_rfl) y
theorem coverB_s0 (c : Dev nD) (t : Fin cfg2.N) (hc0 hc1) (p : St2 F) (y : S1024x128.Idx) : ∃ pc ∈ (runB (F := F) V c t hc0 hc1 p).2.1, y ∈ pc.1.set :=
  View.cover_of_tiledL (runB (F := F) V c t hc0 hc1 p).2.1 S1024x128.size (by sl_kernel_rfl) y
theorem coverB_s1 (c : Dev nD) (t : Fin cfg2.N) (hc0 hc1) (p : St2 F) (y : S1024x128.Idx) : ∃ pc ∈ (runB (F := F) V c t hc0 hc1 p).2.2.1, y ∈ pc.1.set :=
  View.cover_of_tiledL (runB (F := F) V c t hc0 hc1 p).2.2.1 S1024x128.size (by sl_kernel_rfl) y
theorem coverC_5 (c : Dev nD) (t : Fin cfg2.N) (hc0 hc1) (p : St2 F) (y : S1024x512.Idx) : ∃ pc ∈ (runC (F := F) V c t hc0 hc1 p).1, y ∈ pc.1.set :=
  View.cover_of_tiledL (runC (F := F) V c t hc0 hc1 p).1 S1024x512.size (by sl_kernel_rfl) y
theorem coverC_6 (c : Dev nD) (t : Fin cfg2.N) (hc0 hc1) (p : St2 F) (y : S1024x128.Idx) : ∃ pc ∈ (runC (F := F) V c t hc0 hc1 p).2.1, y ∈ pc.1.set :=
  View.cover_of_tiledL (runC (F := F) V c t hc0 hc1 p).2.1 S1024x128.size (by sl_kernel_rfl) y
theorem coverC_7 (c : Dev nD) (t : Fin cfg2.N) (hc0 hc1) (p : St2 F) (y : S1024x128.Idx) : ∃ pc ∈ (runC (F := F) V c t hc0 hc1 p).2.2.1, y ∈ pc.1.set :=
  View.cover_of_tiledL (runC (F := F) V c t hc0 hc1 p).2.2.1 S1024x128.size (by sl_kernel_rfl) y
theorem coverC_s0 (c : Dev nD) (t : Fin cfg2.N) (hc0 hc1) (p : St2 F) (y : S1024x128.Idx) : ∃ pc ∈ (runC (F := F) V c t hc0 hc1 p).2.2.2.1, y ∈ pc.1.set :=
  View.cover_of_tiledL (runC (F := F) V c t hc0 hc1 p).2.2.2.1 S1024x128.size (by sl_kernel_rfl) y
theorem coverC_s1 (c : Dev nD) (t : Fin cfg2.N) (hc0 hc1) (p : St2 F) (y : S1024x128.Idx) : ∃ pc ∈ (runC (F := F) V c t hc0 hc1 p).2.2.2.2.1, y ∈ pc.1.set :=
  View.cover_of_tiledL (runC (F := F) V c t hc0 hc1 p).2.2.2.2.1 S1024x128.size (by sl_kernel_rfl) y

/-! ## Point by point -/

/-- What the buffers hold after the body at position `n`: the case the position is in (its remainder mod 8), cases B
    and C over what position `n - 1` left in the scratch buffers. -/
def outsAt2 (c : Dev nD) : (n : ℕ) → n < cfg2.N → St2 F
  | 0, hn => stA V c ⟨0, hn⟩ ((hcond2_0 ⟨0, hn⟩).mpr (Nat.zero_mod _)) (fun h => (fun h => by (try dsimp only at h); omega) ((hcond2_1 ⟨0, hn⟩).mp h))
  | n + 1, hn =>
    if h0 : (n + 1) % 8 = 0 then
      if h1 : (n + 1) % 8 = 7 then
        False.elim (by omega)
      else
        stA V c ⟨n + 1, hn⟩ ((hcond2_0 ⟨n + 1, hn⟩).mpr h0) (fun h => h1 ((hcond2_1 ⟨n + 1, hn⟩).mp h))
    else
      if h1 : (n + 1) % 8 = 7 then
        stC V c ⟨n + 1, hn⟩ (fun h => h0 ((hcond2_0 ⟨n + 1, hn⟩).mp h)) ((hcond2_1 ⟨n + 1, hn⟩).mpr h1) (outsAt2 c n (Nat.lt_of_succ_lt hn))
      else
        stB V c ⟨n + 1, hn⟩ (fun h => h0 ((hcond2_0 ⟨n + 1, hn⟩).mp h)) (fun h => h1 ((hcond2_1 ⟨n + 1, hn⟩).mp h)) (outsAt2 c n (Nat.lt_of_succ_lt hn))

theorem outsAt2_A (c : Dev nD) (t : Fin cfg2.N) (h0 : t.val % 8 = 0) (h1 : ¬t.val % 8 = 7) :
    outsAt2 V c t.val t.isLt = stA V c t ((hcond2_0 t).mpr h0) (fun h => h1 ((hcond2_1 t).mp h)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = stB V c t (fun h => h0 ((hcond2_0 t).mp h)) (fun h => h1 ((hcond2_1 t).mp h))
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = stC V c t (fun h => h0 ((hcond2_0 t).mp h)) ((hcond2_1 t).mpr h1)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between two points -/

/-- The scoped buffers no window stages, other than the region's own three scratch buffers. -/
abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- Before the first point the three scratch buffers hold anything. -/
theorem scopedRest2_owns (c : Dev nD) :
    (Pipeline.scopedRest (Ix := Unit) (Name := ℕ) (U := UR sig nD τ) (Lvl := ℕ) (Val := Elt F) spec2 c : sProp 𝕄)
      = iprop(iprop((∃ d, owns (c : Thread nD τ) scM2_0 fullShare d) ∗ (∃ d, owns (c : Thread nD τ) scM2_1 fullShare d) ∗ (∃ d, owns (c : Thread nD τ) scM2_2 fullShare d)) ∗ restBut2 c) := by
  rw [scopedRest2_split]; simp only [scM2_0, scM2_1, scM2_2, owns_whole]; try rfl

/-- Before position `n`: at the start every scoped buffer the pipeline does not stage at anything; afterwards the three
    scratch buffers at what position `n - 1` left in them. -/
def PhiS2 (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(iprop(owns (c : Thread nD τ) scM2_0 fullShare (outsAt2 V c n hn).s0 ∗ owns (c : Thread nD τ) scM2_1 fullShare (outsAt2 V c n hn).s1 ∗ owns (c : Thread nD τ) scM2_2 fullShare (outsAt2 V c n hn).s2) ∗ restBut2 c)

theorem PhiS2_zero (c : Dev nD) (n : ℕ) (h : n ≤ cfg2.N) (hz : n = 0) :
    PhiS2 V c n h = Pipeline.scopedRest (Ix := Unit) (Name := ℕ) (U := UR sig nD τ) (Lvl := ℕ) (Val := Elt F) spec2 c := by
  subst hz; rfl
theorem PhiS2_succ (c : Dev nD) (n : ℕ) (hn : n < cfg2.N) :
    PhiS2 V c (n + 1) hn = iprop(iprop(owns (c : Thread nD τ) scM2_0 fullShare (outsAt2 V c n hn).s0 ∗ owns (c : Thread nD τ) scM2_1 fullShare (outsAt2 V c n hn).s1 ∗ owns (c : Thread nD τ) scM2_2 fullShare (outsAt2 V c n hn).s2) ∗ restBut2 c) := rfl
theorem PhiS2_pos (c : Dev nD) (n : ℕ) (h : n ≤ cfg2.N) (hz : n ≠ 0) :
    PhiS2 V c n h = iprop(iprop(owns (c : Thread nD τ) scM2_0 fullShare (outsAt2 V c (n - 1) (by omega)).s0 ∗ owns (c : Thread nD τ) scM2_1 fullShare (outsAt2 V c (n - 1) (by omega)).s1 ∗ owns (c : Thread nD τ) scM2_2 fullShare (outsAt2 V c (n - 1) (by omega)).s2) ∗ restBut2 c) := by
  cases n with
  | zero => exact absurd rfl hz
  | succ n => rfl

/-! ## The proof data -/

/-- The arrays as the region finds them; after the body each input's buffer at its block and each result's at `outsAt2`;
    the invariant `PhiS2`. The two windows that read the array of Xs (the row block and the column block) hold it at the left and the
    right half of the share; every other window holds its array whole. Nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).o5
    | ⟨6, _⟩ => (outsAt2 V c t.val t.isLt).o6
    | ⟨7, _⟩ => (outsAt2 V c t.val t.isLt).o7
  Φ t := PhiS2 V c t.val (Nat.le_of_lt_succ t.isLt)
  q w := match w with
    | ⟨0, _⟩ => fullShare.left
    | ⟨1, _⟩ => fullShare.right
    | _ => fullShare
  owed _ := 0

theorem A_eq2 (c : Dev nD) (w : Fin cfg2.W) : (dat2 V c).A w = V c (Pipeline.arrRef spec2 w) := by dsimp only [dat2]
theorem PhiS2_castSucc (c : Dev nD) (t : Fin cfg2.N) : (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).o5 := by dsimp only [dat2]
theorem after2_6 (c : Dev nD) (t : Fin cfg2.N) : (dat2 V c).after 6 t = (outsAt2 V c t.val t.isLt).o6 := by dsimp only [dat2]
theorem after2_7 (c : Dev nD) (t : Fin cfg2.N) : (dat2 V c).after 7 t = (outsAt2 V c t.val t.isLt).o7 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

/-- What the body is called with at point `t`: the invariant, the core's dues, the eight windows' current staging buffers. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- What it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 8000000 in
/-- The body at any point: the inputs' buffers hold their blocks; the point's remainder mod 8 says which case it is in; the
    invariant hands the body the scratch buffers at what the point before left (at anything before the first point) and takes
    them back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 8 = 0
  · have h1 : ¬t.val % 8 = 7 := by omega
    rw [Dat.leavesExact_idle (dat2 V c) 6 t (idleAt2_6 t (fun h => h1 ((hcond2_1 t).mp h))) (noFlush2_6 t (fun h => h1 ((hcond2_1 t).mp h)))]
    rw [Dat.leavesExact_idle (dat2 V c) 7 t (idleAt2_7 t (fun h => h1 ((hcond2_1 t).mp h))) (noFlush2_7 t (fun h => h1 ((hcond2_1 t).mp h)))]
    rw [outsAt2_A V c t h0 h1]
    unfold stA; (try dsimp only)
    by_cases hz : t.val = 0
    · rw [PhiS2_castSucc V c t, PhiS2_zero V c _ _ hz, scopedRest2_owns]
      iintro ⟨⟨⟨HS0, HS1, HS2⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t ((hcond2_0 t).mpr h0) (fun h => h1 ((hcond2_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      isplitl [HS2]; · iexact HS2
      iintro ⟨H0, H1, H2, H3, H4, ⟨%e5, H5⟩, H6, H7, ⟨%es0, HS0⟩, ⟨%es1, HS1⟩, ⟨%es2, HS2⟩⟩
      isplitl [HS0 HS1 HS2 Hrest]
      · isplitl [HS0 HS1 HS2]
        · isplitl [HS0]
          · unfold owns; iexists _; isplitr
            swap; · iexact HS0
            ipureintro; exact View.read_writes_of_cover _ _ _ _ _ (coverA_s0 V c t _ _)
          isplitl [HS1]
          · unfold owns; iexists _; isplitr
            swap; · iexact HS1
            ipureintro; exact View.read_writes_of_cover _ _ _ _ _ (coverA_s1 V c t _ _)
          unfold owns; iexists _; isplitr
          swap; · iexact HS2
          ipureintro; exact View.read_writes_of_cover _ _ _ _ _ (coverA_s2 V c t _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverA_5 V c t _ _)
      isplitl [H6]; · iexists _; iexact H6
      iexists _; iexact H7
    · rw [PhiS2_castSucc V c t, PhiS2_pos V c _ _ hz]
      iintro ⟨⟨⟨HS0, HS1, HS2⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t ((hcond2_0 t).mpr h0) (fun h => h1 ((hcond2_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexists _; iexact HS0
      isplitl [HS1]; · iexists _; iexact HS1
      isplitl [HS2]; · iexists _; iexact HS2
      iintro ⟨H0, H1, H2, H3, H4, ⟨%e5, H5⟩, H6, H7, ⟨%es0, HS0⟩, ⟨%es1, HS1⟩, ⟨%es2, HS2⟩⟩
      isplitl [HS0 HS1 HS2 Hrest]
      · isplitl [HS0 HS1 HS2]
        · isplitl [HS0]
          · unfold owns; iexists _; isplitr
            swap; · iexact HS0
            ipureintro; exact View.read_writes_of_cover _ _ _ _ _ (coverA_s0 V c t _ _)
          isplitl [HS1]
          · unfold owns; iexists _; isplitr
            swap; · iexact HS1
            ipureintro; exact View.read_writes_of_cover _ _ _ _ _ (coverA_s1 V c t _ _)
          unfold owns; iexists _; isplitr
          swap; · iexact HS2
          ipureintro; exact View.read_writes_of_cover _ _ _ _ _ (coverA_s2 V c t _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverA_5 V c t _ _)
      isplitl [H6]; · iexists _; iexact H6
      iexists _; iexact H7
  · have hz : t.val ≠ 0 := fun e => h0 (by rw [e])
    by_cases h1 : t.val % 8 = 7
    · rw [show (dat2 V c).leavesExact 6 t = owns (c : Thread nD τ) (ms2_6 t) fullShare ((dat2 V c).after 6 t) from by
        unfold Dat.leavesExact; rw [liveAt2_6 t ((hcond2_1 t).mpr h1)], after2_6]
      rw [show (dat2 V c).leavesExact 7 t = owns (c : Thread nD τ) (ms2_7 t) fullShare ((dat2 V c).after 7 t) from by
        unfold Dat.leavesExact; rw [liveAt2_7 t ((hcond2_1 t).mpr h1)], after2_7]
      rw [outsAt2_C V c t h0 h1]
      unfold stC; (try dsimp only)
      rw [PhiS2_castSucc V c t, PhiS2_pos V c _ _ hz]
      iintro ⟨⟨⟨HS0, HS1, HS2⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC V c t (fun h => h0 ((hcond2_0 t).mp h)) ((hcond2_1 t).mpr h1) _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      iintro ⟨H0, H1, H2, H3, H4, ⟨%e5, H5⟩, ⟨%e6, H6⟩, ⟨%e7, H7⟩, ⟨%es0, HS0⟩, ⟨%es1, HS1⟩, HS2⟩
      isplitl [HS0 HS1 HS2 Hrest]
      · isplitl [HS0 HS1 HS2]
        · isplitl [HS0]
          · unfold owns; iexists _; isplitr
            swap; · iexact HS0
            ipureintro; exact View.read_writes_of_cover _ _ _ _ _ (coverC_s0 V c t _ _ _)
          isplitl [HS1]
          · unfold owns; iexists _; isplitr
            swap; · iexact HS1
            ipureintro; exact View.read_writes_of_cover _ _ _ _ _ (coverC_s1 V c t _ _ _)
          iexact HS2
        iexact Hrest
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverC_5 V c t _ _ _)
      isplitl [H6]
      · unfold owns; iexists _; isplitr
        swap; · iexact H6
        ipureintro; exact View.read_writes_of_cover _ _ _ _ _ (coverC_6 V c t _ _ _)
      unfold owns; iexists _; isplitr
      swap; · iexact H7
      ipureintro; exact View.read_writes_of_cover _ _ _ _ _ (coverC_7 V c t _ _ _)
    · rw [Dat.leavesExact_idle (dat2 V c) 6 t (idleAt2_6 t (fun h => h1 ((hcond2_1 t).mp h))) (noFlush2_6 t (fun h => h1 ((hcond2_1 t).mp h)))]
      rw [Dat.leavesExact_idle (dat2 V c) 7 t (idleAt2_7 t (fun h => h1 ((hcond2_1 t).mp h))) (noFlush2_7 t (fun h => h1 ((hcond2_1 t).mp h)))]
      rw [outsAt2_B V c t h0 h1]
      unfold stB; (try dsimp only)
      rw [PhiS2_castSucc V c t, PhiS2_pos V c _ _ hz]
      iintro ⟨⟨⟨HS0, HS1, HS2⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t (fun h => h0 ((hcond2_0 t).mp h)) (fun h => h1 ((hcond2_1 t).mp h)) _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      isplitl [HS2]; · iexact HS2
      iintro ⟨H0, H1, H2, H3, H4, ⟨%e5, H5⟩, H6, H7, ⟨%es0, HS0⟩, ⟨%es1, HS1⟩, HS2⟩
      isplitl [HS0 HS1 HS2 Hrest]
      · isplitl [HS0 HS1 HS2]
        · isplitl [HS0]
          · unfold owns; iexists _; isplitr
            swap; · iexact HS0
            ipureintro; exact View.read_writes_of_cover _ _ _ _ _ (coverB_s0 V c t _ _ _)
          isplitl [HS1]
          · unfold owns; iexists _; isplitr
            swap; · iexact HS1
            ipureintro; exact View.read_writes_of_cover _ _ _ _ _ (coverB_s1 V c t _ _ _)
          iexact HS2
        iexact Hrest
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverB_5 V c t _ _ _)
      isplitl [H6]; · iexists _; iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The invariant before the first point is the scoped rest as the launch hands it over. -/
theorem hin2 (c : Dev nD) :
    (Pipeline.scopedRest (Ix := Unit) (Name := ℕ) (U := UR sig nD τ) (Lvl := ℕ) (Val := Elt F) spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back: what the scratch buffers hold is forgotten. -/
theorem hout2 (c : Dev nD) :
    (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), scopedRest2_owns]
  iintro ⟨⟨HS0, HS1, HS2⟩, Hrest⟩
  isplitl [HS0 HS1 HS2]
  · isplitl [HS0]; · iexists _; iexact HS0
    isplitl [HS1]; · iexists _; iexact HS1
    iexists _; iexact HS2
  iexact Hrest

end Cert.KernelIdeal.Hand

end
-- ==== Proof.Ideal.R2Arrays.lean ====
/-
  The attention region's arrays at its entry and exit. Two of its input windows — the row block and the column block of
  Xs — read ONE array, so the seven distinct buffers behind the eight windows' arrays are dealt to the windows with the
  buffer of Xs split in two halves of the share, and joined again when the region is left (an input array is never
  written, so both halves come back with the same contents).
-/
import proofs.«141314_j39779987096265_2_alg».proof.Proof.Ideal.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's arrays, one by one. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v1_0) ↦{fullShare} W main_v1_0) ∗ (((c : Thread nD τ).loc main_v1_1) ↦{fullShare} W main_v1_1) ∗ (((c : Thread nD τ).loc main_arg6) ↦{fullShare} W main_arg6) ∗ (((c : Thread nD τ).loc main_arg7) ↦{fullShare} W main_arg7) ∗ (((c : Thread nD τ).loc main_v2_0) ↦{fullShare} W main_v2_0) ∗ (((c : Thread nD τ).loc main_v2_1) ↦{fullShare} W main_v2_1) ∗ (((c : Thread nD τ).loc main_v2_2) ↦{fullShare} W main_v2_2)) := by
  unfold Pipeline.arrBufs
  exact bigSep_eq_bigSepL_of_eq [main_v1_0, main_v1_1, main_arg6, main_arg7, main_v2_0, main_v2_1, main_v2_2] (by decide) (by decide) _

/-- The windows' arrays, one by one, each at its share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v1_0) ↦{fullShare.left} G 0) ∗ (((c : Thread nD τ).loc main_v1_0) ↦{fullShare.right} G 1) ∗ (((c : Thread nD τ).loc main_v1_1) ↦{fullShare} G 2) ∗ (((c : Thread nD τ).loc main_arg6) ↦{fullShare} G 3) ∗ (((c : Thread nD τ).loc main_arg7) ↦{fullShare} G 4) ∗ (((c : Thread nD τ).loc main_v2_0) ↦{fullShare} G 5) ∗ (((c : Thread nD τ).loc main_v2_1) ↦{fullShare} G 6) ∗ (((c : Thread nD τ).loc main_v2_2) ↦{fullShare} G 7)) := by
  unfold Dat.arrays
  rw [bigSep_W2]
  rw [(arr_whole2 0).set_eq_univ, (arr_whole2 2).set_eq_univ, (arr_whole2 3).set_eq_univ, (arr_whole2 4).set_eq_univ, (arr_whole2 5).set_eq_univ, (arr_whole2 6).set_eq_univ, (arr_whole2 7).set_eq_univ]
  rfl

/-- ENTRY: the buffers at contents `W` make the windows' arrays at any contents `G` that reads them off `W`. -/
theorem arrays2_of_bufs (c : Dev nD) (W : (b : Ref sig .tc) → Buf (Elt F) ((c : Thread nD τ).loc b))
    (G : (w : Fin cfg2.W) → Buf (Elt F) ((cfg2.win w).arr.view.loc (c : Thread nD τ))) (hG : ∀ w, G w = W (Pipeline.arrRef spec2 w)) :
    (Pipeline.arrBufs (Ix := Unit) (Name := ℕ) (U := UR sig nD τ) (Lvl := ℕ) spec2 c W : sProp 𝕄) ⊢ (dat2 V c).arrays G := by
  rw [arrBufs2_eq, arrays2_eq, hG 0, hG 1, hG 2, hG 3, hG 4, hG 5, hG 6, hG 7]
  iintro ⟨H0, H2, H3, H4, H5, H6, H7⟩
  ihave H0' := (pointsTo_share (PosShare.mem_left_op_right fullShare)).1 $$ H0
  icases H0' with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  iexact H7

/-- EXIT: the windows' arrays at contents `G` that reads them off `W'` make the buffers at `W'`. -/
theorem bufs_of_arrays2 (c : Dev nD) (W' : (b : Ref sig .tc) → Buf (Elt F) ((c : Thread nD τ).loc b))
    (G : (w : Fin cfg2.W) → Buf (Elt F) ((cfg2.win w).arr.view.loc (c : Thread nD τ))) (hG : ∀ w, G w = W' (Pipeline.arrRef spec2 w)) :
    ((dat2 V c).arrays G : sProp 𝕄) ⊢ Pipeline.arrBufs (Ix := Unit) (Name := ℕ) (U := UR sig nD τ) (Lvl := ℕ) spec2 c W' := by
  rw [arrBufs2_eq, arrays2_eq, hG 0, hG 1, hG 2, hG 3, hG 4, hG 5, hG 6, hG 7]
  iintro ⟨Ha, Hb, H2, H3, H4, H5, H6, H7⟩
  isplitl [Ha Hb]
  · iapply (pointsTo_share (PosShare.mem_left_op_right fullShare)).2
    isplitl [Ha]; · iexact Ha
    iexact Hb
  isplitl [H2]; · iexact H2
  isplitl [H3]; · iexact H3
  isplitl [H4]; · iexact H4
  isplitl [H5]; · iexact H5
  isplitl [H6]; · iexact H6
  iexact H7

end Cert.KernelIdeal.Hand

end
-- ==== Proof.Ideal.Run.lean ====
/-
  The whole program's run: three regions in a row. Between two regions every unscoped buffer of a core is held at a
  named valuation — the launch memory, then each region's result arrays overwritten by what its write-backs leave — so
  that the end of the run says what every buffer holds: the eight arguments as launched, the three results at what the
  attention region's write-backs left. Each region is entered by splitting its arrays out of the unscoped buffers and
  left by putting them back at the next valuation.
-/
import proofs.«141314_j39779987096265_2_alg».proof.Proof.Ideal.Region0
import proofs.«141314_j39779987096265_2_alg».proof.Proof.Ideal.Region1
import proofs.«141314_j39779987096265_2_alg».proof.Proof.Ideal.R2Arrays

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What every buffer holds between the regions -/

/-- At launch. -/
abbrev W0 : Dev nD → Valuation τ sig (Elt F) := fun c b => m (c, b)
abbrev V1 : (c : Dev nD) → (b : Ref sig .tc) → Buf (Elt F) ((c : Thread nD τ).loc b) := fun c b => W0 m c b
/-- After the first propagation layer: its two result arrays at what its write-backs leave. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- An input window's array is never written: it leaves the first layer as it entered. -/
theorem W2_in (c : Dev nD) (w : Fin cfg0.W) (hin : (cfg0.win w).isOut = false) :
    W2 m c (Proc.devRef .tc (Pipeline.arrRef spec0 w)) = W0 m c (Proc.devRef .tc (Pipeline.arrRef spec0 w)) :=
  (W2_arr m c w).trans (((dat0 (V1 m) c).arrAt_in w hin _).trans (A_eq0 (V1 m) c w))

/-- After the second propagation layer. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V3 : (c : Dev nD) → (b : Ref sig .tc) → Buf (Elt F) ((c : Thread nD τ).loc b) := fun c b => W4 m c b
theorem hF1 (c : Dev nD) (w : Fin cfg1.W) : (dat1 (V2 m) c).arrAt w cfg1.N = V3 m c (Pipeline.arrRef spec1 w) :=
  (W4_arr m c w).symm
theorem hrest1 (c : Dev nD) : ∀ b, b ∉ Finset.univ.image (Pipeline.arrRef spec1) → V3 m c b = V2 m c b :=
  fun b hb => W4_of_ne m c b fun w e => hb (Finset.mem_image.mpr ⟨w, Finset.mem_univ _, e⟩)

theorem W4_in (c : Dev nD) (w : Fin cfg1.W) (hin : (cfg1.win w).isOut = false) :
    W4 m c (Proc.devRef .tc (Pipeline.arrRef spec1 w)) = W2 m c (Proc.devRef .tc (Pipeline.arrRef spec1 w)) :=
  (W4_arr m c w).trans (((dat1 (V2 m) c).arrAt_in w hin _).trans (A_eq1 (V2 m) c w))

/-- After the attention region: its three result arrays at what its write-backs leave; its input arrays (two windows read
    one of them) are never written, so they stay. -/
def W6 (c : Dev nD) : Valuation τ sig (Elt F) :=
  Function.update (Function.update (Function.update (W4 m c) main_v2_0 ((dat2 (V3 m) c).arrAt 5 cfg2.N)) main_v2_1 ((dat2 (V3 m) c).arrAt 6 cfg2.N)) main_v2_2 ((dat2 (V3 m) c).arrAt 7 cfg2.N)
abbrev V4 : (c : Dev nD) → (b : Ref sig .tc) → Buf (Elt F) ((c : Thread nD τ).loc b) := fun c b => W6 m c b

theorem W6_of (c : Dev nD) (r : Ref sig .tc) (h : r ∉ ([main_v2_0, main_v2_1, main_v2_2] : List (Ref sig .tc))) : W6 m c r = W4 m c r := by
  simp only [W6, Function.update_of_ne (StableHlo.devRef_ne_of_ne (List.ne_of_not_mem_cons h) : (Proc.devRef .tc r : DevRef τ sig) ≠ Proc.devRef .tc main_v2_0), Function.update_of_ne (StableHlo.devRef_ne_of_ne (List.ne_of_not_mem_cons (List.not_mem_of_not_mem_cons h)) : (Proc.devRef .tc r : DevRef τ sig) ≠ Proc.devRef .tc main_v2_1), Function.update_of_ne (StableHlo.devRef_ne_of_ne (List.ne_of_not_mem_cons (List.not_mem_of_not_mem_cons (List.not_mem_of_not_mem_cons h))) : (Proc.devRef .tc r : DevRef τ sig) ≠ Proc.devRef .tc main_v2_2)]
theorem W6_v2_2 (c : Dev nD) : W6 m c main_v2_2 = (dat2 (V3 m) c).arrAt 7 cfg2.N := by
  unfold W6; exact Function.update_self _ _ _
theorem W6_v2_1 (c : Dev nD) : W6 m c main_v2_1 = (dat2 (V3 m) c).arrAt 6 cfg2.N := by
  unfold W6
  rw [Function.update_of_ne (StableHlo.devRef_ne_of_ne (by decide : main_v2_1 ≠ main_v2_2) : (Proc.devRef .tc main_v2_1 : DevRef τ sig) ≠ Proc.devRef .tc main_v2_2)]
  exact Function.update_self _ _ _
theorem W6_v2_0 (c : Dev nD) : W6 m c main_v2_0 = (dat2 (V3 m) c).arrAt 5 cfg2.N := by
  unfold W6
  rw [Function.update_of_ne (StableHlo.devRef_ne_of_ne (by decide : main_v2_0 ≠ main_v2_2) : (Proc.devRef .tc main_v2_0 : DevRef τ sig) ≠ Proc.devRef .tc main_v2_2),
    Function.update_of_ne (StableHlo.devRef_ne_of_ne (by decide : main_v2_0 ≠ main_v2_1) : (Proc.devRef .tc main_v2_0 : DevRef τ sig) ≠ Proc.devRef .tc main_v2_1)]
  exact Function.update_self _ _ _

/-- Each of the attention region's arrays ends at the last valuation: an input array as it was entered, a result at its
    write-backs. -/
theorem hF2 (c : Dev nD) : ∀ w : Fin cfg2.W, (dat2 (V3 m) c).arrAt w cfg2.N = V4 m c (Pipeline.arrRef spec2 w)
  | ⟨0, _⟩ => ((dat2 (V3 m) c).arrAt_in 0 rfl _).trans (W6_of m c main_v1_0 (by decide)).symm
  | ⟨1, _⟩ => ((dat2 (V3 m) c).arrAt_in 1 rfl _).trans (W6_of m c main_v1_0 (by decide)).symm
  | ⟨2, _⟩ => ((dat2 (V3 m) c).arrAt_in 2 rfl _).trans (W6_of m c main_v1_1 (by decide)).symm
  | ⟨3, _⟩ => ((dat2 (V3 m) c).arrAt_in 3 rfl _).trans (W6_of m c main_arg6 (by decide)).symm
  | ⟨4, _⟩ => ((dat2 (V3 m) c).arrAt_in 4 rfl _).trans (W6_of m c main_arg7 (by decide)).symm
  | ⟨5, _⟩ => (W6_v2_0 m c).symm
  | ⟨6, _⟩ => (W6_v2_1 m c).symm
  | ⟨7, _⟩ => (W6_v2_2 m c).symm
theorem hrest2 (c : Dev nD) : ∀ b, b ∉ Finset.univ.image (Pipeline.arrRef spec2) → V4 m c b = V3 m c b :=
  fun b hb => W6_of m c b fun hmem => hb (by
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    rcases List.mem_cons.mp hmem with rfl | hmem
    · exact Finset.mem_image.mpr ⟨7, Finset.mem_univ _, rfl⟩
    exact absurd hmem (List.not_mem_nil))

/-! ### No region writes an argument -/

theorem W6_main_arg0 (c : Dev nD) : W6 m c (Proc.devRef .tc main_arg0) = m ((c : Thread nD τ).loc main_arg0) :=
  (W6_of m c main_arg0 (by decide)).trans <| (W4_in m c 0 rfl).trans <| (W2_in m c 0 rfl).trans rfl
theorem W6_main_arg1 (c : Dev nD) : W6 m c (Proc.devRef .tc main_arg1) = m ((c : Thread nD τ).loc main_arg1) :=
  (W6_of m c main_arg1 (by decide)).trans <| (W4_of_ne m c main_arg1 (by decide)).trans <| (W2_in m c 1 rfl).trans rfl
theorem W6_main_arg2 (c : Dev nD) : W6 m c (Proc.devRef .tc main_arg2) = m ((c : Thread nD τ).loc main_arg2) :=
  (W6_of m c main_arg2 (by decide)).trans <| (W4_in m c 2 rfl).trans <| (W2_in m c 2 rfl).trans rfl
theorem W6_main_arg3 (c : Dev nD) : W6 m c (Proc.devRef .tc main_arg3) = m ((c : Thread nD τ).loc main_arg3) :=
  (W6_of m c main_arg3 (by decide)).trans <| (W4_of_ne m c main_arg3 (by decide)).trans <| (W2_in m c 3 rfl).trans rfl
theorem W6_main_arg4 (c : Dev nD) : W6 m c (Proc.devRef .tc main_arg4) = m ((c : Thread nD τ).loc main_arg4) :=
  (W6_of m c main_arg4 (by decide)).trans <| (W4_of_ne m c main_arg4 (by decide)).trans <| (W2_in m c 4 rfl).trans rfl
theorem W6_main_arg5 (c : Dev nD) : W6 m c (Proc.devRef .tc main_arg5) = m ((c : Thread nD τ).loc main_arg5) :=
  (W6_of m c main_arg5 (by decide)).trans <| (W4_in m c 4 rfl).trans <| (W2_of_ne m c main_arg5 (by decide)).trans rfl
theorem W6_main_arg6 (c : Dev nD) : W6 m c (Proc.devRef .tc main_arg6) = m ((c : Thread nD τ).loc main_arg6) :=
  (W6_of m c main_arg6 (by decide)).trans <| (W4_of_ne m c main_arg6 (by decide)).trans <| (W2_of_ne m c main_arg6 (by decide)).trans rfl
theorem W6_main_arg7 (c : Dev nD) : W6 m c (Proc.devRef .tc main_arg7) = m ((c : Thread nD τ).loc main_arg7) :=
  (W6_of m c main_arg7 (by decide)).trans <| (W4_of_ne m c main_arg7 (by decide)).trans <| (W2_of_ne m c main_arg7 (by decide)).trans rfl

/-! ## The proof data family and the thread state -/

abbrev adm : (p : Fin 3) → (pcfgs (F := F) p).Adm := fun p => (cfgs p).toPCfg_adm
/-- Every region's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: its arrays split out of the unscoped buffers and put back at the exit contents; the
    generator register into the region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers and put back at the exit contents; the
    generator register into the region's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state. Its scratch buffers ride in the region's invariant; the generator register
    bypasses the region; two of its windows share an array, which is split between them at entry and joined at exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W6 m c) ∗ R c)
  X _ := BI.emp
  Y _ := BI.emp
  Z c := iprop(Pipeline.unscopedRest (Ix := Unit) (Name := ℕ) (U := UR sig nD τ) (Lvl := ℕ) spec2 c (V3 m c) ∗ ∃ r, prngReg c r)
  hentry c := by
    rw [Pipeline.ownSems0_none]
    have hsplit : (StableHlo.held (c : Thread nD τ) (Pipeline.ucRefs τ sig) (W4 m c) : sProp 𝕄)
        ⊢ iprop((pdats m 2 c).arrays ((pdats m 2 c).arrAt · 0) ∗ Pipeline.unscopedRest (Ix := Unit) (Name := ℕ) (U := UR sig nD τ) (Lvl := ℕ) spec2 c (V3 m c)) := by
      rw [← Pipeline.unscopedBufs_held (Ix := Unit) (Name := ℕ) (U := UR sig nD τ) (Lvl := ℕ) c (W4 m c),
        Pipeline.unscopedBufs_split₀ cfgs 2 winFacts₀2.arr_unscoped c (V3 m c)]
      exact sep_mono (arrays2_of_bufs (V3 m) c (V3 m c) _ (fun _ => rfl)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = (dat2 (V3 m) c).Φ 0 from rfl]
    iintro ⟨-, -, Hr⟩
    iapply (hin2 (V3 m) c); iexact Hr
  hout c := by
    rw [Pipeline.ownSems0_none, show (pdats m 2 c).Φ (Fin.last _) = (dat2 (V3 m) c).Φ (Fin.last cfg2.N) from rfl]
    iintro H
    isplitr; · iempintro
    isplitr; · iempintro
    iapply (hout2 (V3 m) c); iexact H
  hexit c := by
    have hjoin : iprop((pdats m 2 c).arrays ((pdats m 2 c).arrAt · cfg2.N) ∗ Pipeline.unscopedRest (Ix := Unit) (Name := ℕ) (U := UR sig nD τ) (Lvl := ℕ) spec2 c (V3 m c))
        ⊢ (StableHlo.held (c : Thread nD τ) (Pipeline.ucRefs τ sig) (W6 m c) : sProp 𝕄) := by
      rw [← Pipeline.unscopedBufs_held (Ix := Unit) (Name := ℕ) (U := UR sig nD τ) (Lvl := ℕ) c (W6 m c),
        Pipeline.unscopedBufs_split₀ cfgs 2 winFacts₀2.arr_unscoped c (V4 m c)]
      refine sep_mono (bufs_of_arrays2 (V3 m) c (V4 m c) _ (hF2 m c)) (Entails.of_eq ?_)
      unfold Pipeline.unscopedRest
      exact bigSep_congr fun b hb => by rw [hrest2 m c b (Finset.mem_sdiff.mp hb).2]
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m), .region (reg2 m) ]

set_option backward.isDefEq.respectTransparency.types false in
/-- THE RUN: from any memory with zero counters every weakly fair execution of @main terminates, nothing faulting, and
    in every final state each unscoped buffer of each core holds what the last valuation says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) (reg2 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) (Pipeline.ucRefs τ sig) (W6 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME at any instance: the eight arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c)⟩)
    (run_all m ρ)

end Cert.KernelIdeal.Hand

end
-- ==== Proof.Spec.lean ====
/-
  The result of the two-graph propagation with exponential cross scores, as pure functions on extended reals.

  A matrix with `a` rows and `b` columns is a function from the rank-2 indices of extents `a`, `b` to the
  extended reals; the entry in row `p` and column `q` is read at `ix2 p q`.

  * `mm l r` is the matrix product: entry (p, q) is the sum over k of l(p, k) · r(k, q).
  * `mmT l r` is the product with the right factor transposed: entry (p, q) is the sum over k of l(p, k) · r(q, k).
  * `relu x` is the entrywise maximum with 0.
  * One propagation layer of a graph with adjacency `A`, features `X` and weights `W` is `layer A X W = relu ((A · X) · W)`.

  With adjacencies A_s, A_t (4096 × 4096), features X_s, X_t (4096 × 256) and weights W1 (256 × 128), W2, W3, W4 (128 × 128):

      Xs1 = layer A_s X_s W1        Xs2 = layer A_s Xs1 W2
      Xt1 = layer A_t X_t W1        Xt2 = layer A_t Xt1 W2
      S(p, q) = exp (∑ d, (Xs2 · W3)(p, d) · Xt2(q, d))
      outS = (S · Xs2) · W4         outT = (S · Xt2) · W4

  Sums and products are those of the extended reals; no finiteness is assumed anywhere in this file.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An `a` × `b` matrix of extended reals: a function of the rank-2 indices of extents `a` and `b`. -/
abbrev Mat (a b : Nat) : Type := (⟨2, ![a, b]⟩ : Shape).Idx → EReal

/-- The matrix product: entry (p, q) is the sum over the inner index k of l(p, k) · r(k, q). -/
def mm {a k b : Nat} (l : Mat a k) (r : Mat k b) : Mat a b :=
  fun j => ∑ t : Fin k, l (ix2 (j 0) t) * r (ix2 t (j 1))

/-- The product at the entry in row `p`, column `q`. -/
theorem mm_apply {a k b : Nat} (l : Mat a k) (r : Mat k b) (p : Fin a) (q : Fin b) :
    mm l r (ix2 p q) = ∑ t : Fin k, l (ix2 p t) * r (ix2 t q) := rfl

/-- The product with the right factor transposed: entry (p, q) is the sum over k of l(p, k) · r(q, k). -/
def mmT {a k b : Nat} (l : Mat a k) (r : Mat b k) : Mat a b :=
  fun j => ∑ t : Fin k, l (ix2 (j 0) t) * r (ix2 (j 1) t)

/-- The transposed product at the entry in row `p`, column `q`. -/
theorem mmT_apply {a k b : Nat} (l : Mat a k) (r : Mat b k) (p : Fin a) (q : Fin b) :
    mmT l r (ix2 p q) = ∑ t : Fin k, l (ix2 p t) * r (ix2 q t) := rfl

/-- The entrywise maximum with 0. -/
def relu {a b : Nat} (x : Mat a b) : Mat a b := fun j => max (x j) 0

theorem relu_apply {a b : Nat} (x : Mat a b) (j : (⟨2, ![a, b]⟩ : Shape).Idx) : relu x j = max (x j) 0 := rfl

/-- The single-precision word of +0.0 denotes the extended real 0. -/
theorem max_zeroWord (y : EReal) : max y (Ideal.ofBits .f32 0x00000000#32) = max y 0 := by
  rw [Ideal.ofBits_zero_f32]

/-- So an entrywise maximum against that word is `relu`. -/
theorem relu_zeroWord {a b : Nat} (x : Mat a b) (j : (⟨2, ![a, b]⟩ : Shape).Idx) :
    max (x j) (Ideal.ofBits .f32 0x00000000#32) = relu x j := max_zeroWord (x j)

/-- The entrywise exponential (of the extended reals: 0 at −∞, +∞ at +∞). -/
def expm {a b : Nat} (x : Mat a b) : Mat a b := fun j => Ideal.exp (x j)

theorem expm_apply {a b : Nat} (x : Mat a b) (j : (⟨2, ![a, b]⟩ : Shape).Idx) : expm x j = Ideal.exp (x j) := rfl

/-- One propagation layer: `relu ((A · X) · W)`. -/
def layer {n d h : Nat} (A : Mat n n) (X : Mat n d) (W : Mat d h) : Mat n h := relu (mm (mm A X) W)

/-- The source graph after one layer. -/
def Xs1 (A_s : Mat 4096 4096) (X_s : Mat 4096 256) (W1 : Mat 256 128) : Mat 4096 128 := layer A_s X_s W1

/-- The source graph after two layers. -/
def Xs2 (A_s : Mat 4096 4096) (X_s : Mat 4096 256) (W1 : Mat 256 128) (W2 : Mat 128 128) : Mat 4096 128 :=
  layer A_s (Xs1 A_s X_s W1) W2

/-- The target graph after one layer. -/
def Xt1 (A_t : Mat 4096 4096) (X_t : Mat 4096 256) (W1 : Mat 256 128) : Mat 4096 128 := layer A_t X_t W1

/-- The target graph after two layers. -/
def Xt2 (A_t : Mat 4096 4096) (X_t : Mat 4096 256) (W1 : Mat 256 128) (W2 : Mat 128 128) : Mat 4096 128 :=
  layer A_t (Xt1 A_t X_t W1) W2

/-- The cross scores of two feature matrices under the weights `W3`:
    entry (p, q) is exp (∑ d, (Ys · W3)(p, d) · Yt(q, d)). -/
def scores (Ys Yt : Mat 4096 128) (W3 : Mat 128 128) : Mat 4096 4096 := expm (mmT (mm Ys W3) Yt)

/-- A score matrix applied to features, then the output weights: `(Sc · Y) · W4`. -/
def attend (Sc : Mat 4096 4096) (Y : Mat 4096 128) (W4 : Mat 128 128) : Mat 4096 128 := mm (mm Sc Y) W4

/-- The cross scores of the two graphs. -/
def S (A_s : Mat 4096 4096) (X_s : Mat 4096 256) (A_t : Mat 4096 4096) (X_t : Mat 4096 256)
    (W1 : Mat 256 128) (W2 W3 : Mat 128 128) : Mat 4096 4096 :=
  scores (Xs2 A_s X_s W1 W2) (Xt2 A_t X_t W1 W2) W3

/-- The source-side output `(S · Xs2) · W4`. -/
def outS (A_s : Mat 4096 4096) (X_s : Mat 4096 256) (A_t : Mat 4096 4096) (X_t : Mat 4096 256)
    (W1 : Mat 256 128) (W2 W3 W4 : Mat 128 128) : Mat 4096 128 :=
  attend (S A_s X_s A_t X_t W1 W2 W3) (Xs2 A_s X_s W1 W2) W4

/-- The target-side output `(S · Xt2) · W4`. -/
def outT (A_s : Mat 4096 4096) (X_s : Mat 4096 256) (A_t : Mat 4096 4096) (X_t : Mat 4096 256)
    (W1 : Mat 256 128) (W2 W3 W4 : Mat 128 128) : Mat 4096 128 :=
  attend (S A_s X_s A_t X_t W1 W2 W3) (Xt2 A_t X_t W1 W2) W4

/-- The scores at an entry, written out. -/
theorem scores_apply (Ys Yt : Mat 4096 128) (W3 : Mat 128 128) (p q : Fin 4096) :
    scores Ys Yt W3 (ix2 p q)
      = Ideal.exp (∑ d : Fin 128, (∑ e : Fin 128, Ys (ix2 p e) * W3 (ix2 e d)) * Yt (ix2 q d)) := rfl

end Cert.Spec

end
-- ==== Proof.RefSpec.lean ====
/-
  The reference program, one operation at a time, is the specification.

  Every `dot_general` of the reference contracts the second axis of its left operand with the first axis of its
  right operand, so at the ideal values it is the matrix product `Spec.mm` of its two operands; the one that
  follows the transposition of the target features is the product with the right factor transposed,
  `Spec.mmT`. Every call of the rectifier is a maximum against the broadcast word of +0.0, which denotes 0:
  `Spec.relu`. The exponential is entrywise. Composing these stage equalities in program order gives the
  propagated features of both graphs, the score matrix and the two outputs as the functions of `Spec`.
-/
import proofs.«141314_j39779987096265_2_alg».proof.Defs
import proofs.«141314_j39779987096265_2_alg».proof.Proof.Spec
import proofs.«141314_j39779987096265_2_alg».proof.Proof.Gen.ReferenceIdeal
import proofs.«141314_j39779987096265_2_alg».proof.Proof.Gen.ReferenceIdeal.Read
import proofs.«141314_j39779987096265_2_alg».proof.Proof.Gen.Pre_finite_inputs

noncomputable section

open scoped BigOperators

namespace Cert.RefSpec

open Cert.ReferenceIdeal Cert.ReferenceIdeal.Gen Cert.ReferenceIdeal.Read
open Idealize.ShloMosaic Idealize.ShloMosaic.TcCoe Idealize.SL.Sem Idealize.ShloMosaic.ValueIdx

/-- Two rank-2 indices with the same coordinates are equal. -/
local macro "idx2" : term =>
  `(funext fun a => Fin.ext (by match a with | ⟨0, _⟩ => rfl | ⟨1, _⟩ => rfl))

/-! ## The stages, each as one operation of the specification on the stages before it -/

section stages

variable (x0 : (⟨S4096x4096, .f32⟩ : BufTy).Contents (Elt Ideal)) (x1 : (⟨S4096x256, .f32⟩ : BufTy).Contents (Elt Ideal))
  (x2 : (⟨S4096x4096, .f32⟩ : BufTy).Contents (Elt Ideal)) (x3 : (⟨S4096x256, .f32⟩ : BufTy).Contents (Elt Ideal))
  (x4 : (⟨S256x128, .f32⟩ : BufTy).Contents (Elt Ideal)) (x5 x6 x7 : (⟨S128x128, .f32⟩ : BufTy).Contents (Elt Ideal))

/-- A_s · X_s. -/
theorem v0_eq : val_main_v0 (F := Ideal) x0 x1 = Spec.mm x0 x1 := by
  funext i
  obtain ⟨p, q, rfl⟩ : ∃ (p : Fin 4096) (q : Fin 256), i = ix2 p q := ⟨i 0, i 1, eq_ix2 i⟩
  rw [val_main_v0_apply, Spec.mm_apply]
  refine Finset.sum_congr rfl fun k _ => ?_
  rw [show lidx_main_v0 (ix2 p q) k = ix2 p k from idx2, show ridx_main_v0 (ix2 p q) k = ix2 k q from idx2]

/-- (A_s · X_s) · W1. -/
theorem v1_eq : val_main_v1 (F := Ideal) x0 x1 x4 = Spec.mm (val_main_v0 (F := Ideal) x0 x1) x4 := by
  funext i
  obtain ⟨p, q, rfl⟩ : ∃ (p : Fin 4096) (q : Fin 128), i = ix2 p q := ⟨i 0, i 1, eq_ix2 i⟩
  rw [val_main_v1_apply, Spec.mm_apply]
  refine Finset.sum_congr rfl fun k _ => ?_
  rw [show lidx_main_v1 (ix2 p q) k = ix2 p k from idx2, show ridx_main_v1 (ix2 p q) k = ix2 k q from idx2]

/-- The rectifier of the source graph's first layer. -/
theorem v2_eq : val_main_v2 (F := Ideal) x0 x1 x4 = Spec.relu (val_main_v1 (F := Ideal) x0 x1 x4) := by
  funext i
  rw [val_main_v2_apply, val_main_call0_v0_apply, val_main_call0_cst_apply, Ideal.maximumf_def, Ideal.ofBits_def,
    Spec.max_zeroWord]
  rfl

/-- A_s · Xs1. -/
theorem v3_eq : val_main_v3 (F := Ideal) x0 x1 x4 = Spec.mm x0 (val_main_v2 (F := Ideal) x0 x1 x4) := by
  funext i
  obtain ⟨p, q, rfl⟩ : ∃ (p : Fin 4096) (q : Fin 128), i = ix2 p q := ⟨i 0, i 1, eq_ix2 i⟩
  rw [val_main_v3_apply, Spec.mm_apply]
  refine Finset.sum_congr rfl fun k _ => ?_
  rw [show lidx_main_v3 (ix2 p q) k = ix2 p k from idx2, show ridx_main_v3 (ix2 p q) k = ix2 k q from idx2]

/-- (A_s · Xs1) · W2. -/
theorem v4_eq : val_main_v4 (F := Ideal) x0 x1 x4 x5 = Spec.mm (val_main_v3 (F := Ideal) x0 x1 x4) x5 := by
  funext i
  obtain ⟨p, q, rfl⟩ : ∃ (p : Fin 4096) (q : Fin 128), i = ix2 p q := ⟨i 0, i 1, eq_ix2 i⟩
  rw [val_main_v4_apply, Spec.mm_apply]
  refine Finset.sum_congr rfl fun k _ => ?_
  rw [show lidx_main_v4 (ix2 p q) k = ix2 p k from idx2, show ridx_main_v4 (ix2 p q) k = ix2 k q from idx2]

/-- The rectifier of the source graph's second layer. -/
theorem v5_eq : val_main_v5 (F := Ideal) x0 x1 x4 x5 = Spec.relu (val_main_v4 (F := Ideal) x0 x1 x4 x5) := by
  funext i
  rw [val_main_v5_apply, val_main_call1_v0_apply, val_main_call1_cst_apply, Ideal.maximumf_def, Ideal.ofBits_def,
    Spec.max_zeroWord]
  rfl

/-- A_t · X_t. -/
theorem v6_eq : val_main_v6 (F := Ideal) x2 x3 = Spec.mm x2 x3 := by
  funext i
  obtain ⟨p, q, rfl⟩ : ∃ (p : Fin 4096) (q : Fin 256), i = ix2 p q := ⟨i 0, i 1, eq_ix2 i⟩
  rw [val_main_v6_apply, Spec.mm_apply]
  refine Finset.sum_congr rfl fun k _ => ?_
  rw [show lidx_main_v6 (ix2 p q) k = ix2 p k from idx2, show ridx_main_v6 (ix2 p q) k = ix2 k q from idx2]

/-- (A_t · X_t) · W1. -/
theorem v7_eq : val_main_v7 (F := Ideal) x2 x3 x4 = Spec.mm (val_main_v6 (F := Ideal) x2 x3) x4 := by
  funext i
  obtain ⟨p, q, rfl⟩ : ∃ (p : Fin 4096) (q : Fin 128), i = ix2 p q := ⟨i 0, i 1, eq_ix2 i⟩
  rw [val_main_v7_apply, Spec.mm_apply]
  refine Finset.sum_congr rfl fun k _ => ?_
  rw [show lidx_main_v7 (ix2 p q) k = ix2 p k from idx2, show ridx_main_v7 (ix2 p q) k = ix2 k q from idx2]

/-- The rectifier of the target graph's first layer. -/
theorem v8_eq : val_main_v8 (F := Ideal) x2 x3 x4 = Spec.relu (val_main_v7 (F := Ideal) x2 x3 x4) := by
  funext i
  rw [val_main_v8_apply, val_main_call2_v0_apply, val_main_call2_cst_apply, Ideal.maximumf_def, Ideal.ofBits_def,
    Spec.max_zeroWord]
  rfl

/-- A_t · Xt1. -/
theorem v9_eq : val_main_v9 (F := Ideal) x2 x3 x4 = Spec.mm x2 (val_main_v8 (F := Ideal) x2 x3 x4) := by
  funext i
  obtain ⟨p, q, rfl⟩ : ∃ (p : Fin 4096) (q : Fin 128), i = ix2 p q := ⟨i 0, i 1, eq_ix2 i⟩
  rw [val_main_v9_apply, Spec.mm_apply]
  refine Finset.sum_congr rfl fun k _ => ?_
  rw [show lidx_main_v9 (ix2 p q) k = ix2 p k from idx2, show ridx_main_v9 (ix2 p q) k = ix2 k q from idx2]

/-- (A_t · Xt1) · W2. -/
theorem v10_eq : val_main_v10 (F := Ideal) x2 x3 x4 x5 = Spec.mm (val_main_v9 (F := Ideal) x2 x3 x4) x5 := by
  funext i
  obtain ⟨p, q, rfl⟩ : ∃ (p : Fin 4096) (q : Fin 128), i = ix2 p q := ⟨i 0, i 1, eq_ix2 i⟩
  rw [val_main_v10_apply, Spec.mm_apply]
  refine Finset.sum_congr rfl fun k _ => ?_
  rw [show lidx_main_v10 (ix2 p q) k = ix2 p k from idx2, show ridx_main_v10 (ix2 p q) k = ix2 k q from idx2]

/-- The rectifier of the target graph's second layer. -/
theorem v11_eq : val_main_v11 (F := Ideal) x2 x3 x4 x5 = Spec.relu (val_main_v10 (F := Ideal) x2 x3 x4 x5) := by
  funext i
  rw [val_main_v11_apply, val_main_call3_v0_apply, val_main_call3_cst_apply, Ideal.maximumf_def, Ideal.ofBits_def,
    Spec.max_zeroWord]
  rfl

/-- Xs2 · W3. -/
theorem v12_eq : val_main_v12 (F := Ideal) x0 x1 x4 x5 x6 = Spec.mm (val_main_v5 (F := Ideal) x0 x1 x4 x5) x6 := by
  funext i
  obtain ⟨p, q, rfl⟩ : ∃ (p : Fin 4096) (q : Fin 128), i = ix2 p q := ⟨i 0, i 1, eq_ix2 i⟩
  rw [val_main_v12_apply, Spec.mm_apply]
  refine Finset.sum_congr rfl fun k _ => ?_
  rw [show lidx_main_v12 (ix2 p q) k = ix2 p k from idx2, show ridx_main_v12 (ix2 p q) k = ix2 k q from idx2]

/-- (Xs2 · W3) times the transposed target features: the transposition reads Xt2 at the swapped index, so
    entry (p, q) sums (Xs2 · W3)(p, k) · Xt2(q, k). -/
theorem v14_eq : val_main_v14 (F := Ideal) x0 x1 x2 x3 x4 x5 x6
    = Spec.mmT (val_main_v12 (F := Ideal) x0 x1 x4 x5 x6) (val_main_v11 (F := Ideal) x2 x3 x4 x5) := by
  funext i
  obtain ⟨p, q, rfl⟩ : ∃ (p : Fin 4096) (q : Fin 4096), i = ix2 p q := ⟨i 0, i 1, eq_ix2 i⟩
  rw [val_main_v14_apply, Spec.mmT_apply]
  refine Finset.sum_congr rfl fun k _ => ?_
  rw [val_main_v13_apply, show lidx_main_v14 (ix2 p q) k = ix2 p k from idx2,
    show idx_main_v13 (ridx_main_v14 (ix2 p q) k) = ix2 q k from idx2]

/-- The entrywise exponential. -/
theorem v15_eq : val_main_v15 (F := Ideal) x0 x1 x2 x3 x4 x5 x6
    = Spec.expm (val_main_v14 (F := Ideal) x0 x1 x2 x3 x4 x5 x6) := by
  funext i
  rw [val_main_v15_apply, Ideal.hostUnary_exp_def]
  rfl

/-- S · Xs2. -/
theorem v16_eq : val_main_v16 (F := Ideal) x0 x1 x2 x3 x4 x5 x6
    = Spec.mm (val_main_v15 (F := Ideal) x0 x1 x2 x3 x4 x5 x6) (val_main_v5 (F := Ideal) x0 x1 x4 x5) := by
  funext i
  obtain ⟨p, q, rfl⟩ : ∃ (p : Fin 4096) (q : Fin 128), i = ix2 p q := ⟨i 0, i 1, eq_ix2 i⟩
  rw [val_main_v16_apply, Spec.mm_apply]
  refine Finset.sum_congr rfl fun k _ => ?_
  rw [show lidx_main_v16 (ix2 p q) k = ix2 p k from idx2, show ridx_main_v16 (ix2 p q) k = ix2 k q from idx2]

/-- (S · Xs2) · W4. -/
theorem v17_eq : val_main_v17 (F := Ideal) x0 x1 x2 x3 x4 x5 x6 x7
    = Spec.mm (val_main_v16 (F := Ideal) x0 x1 x2 x3 x4 x5 x6) x7 := by
  funext i
  obtain ⟨p, q, rfl⟩ : ∃ (p : Fin 4096) (q : Fin 128), i = ix2 p q := ⟨i 0, i 1, eq_ix2 i⟩
  rw [val_main_v17_apply, Spec.mm_apply]
  refine Finset.sum_congr rfl fun k _ => ?_
  rw [show lidx_main_v17 (ix2 p q) k = ix2 p k from idx2, show ridx_main_v17 (ix2 p q) k = ix2 k q from idx2]

/-- S · Xt2. -/
theorem v18_eq : val_main_v18 (F := Ideal) x0 x1 x2 x3 x4 x5 x6
    = Spec.mm (val_main_v15 (F := Ideal) x0 x1 x2 x3 x4 x5 x6) (val_main_v11 (F := Ideal) x2 x3 x4 x5) := by
  funext i
  obtain ⟨p, q, rfl⟩ : ∃ (p : Fin 4096) (q : Fin 128), i = ix2 p q := ⟨i 0, i 1, eq_ix2 i⟩
  rw [val_main_v18_apply, Spec.mm_apply]
  refine Finset.sum_congr rfl fun k _ => ?_
  rw [show lidx_main_v18 (ix2 p q) k = ix2 p k from idx2, show ridx_main_v18 (ix2 p q) k = ix2 k q from idx2]

/-- (S · Xt2) · W4. -/
theorem v19_eq : val_main_v19 (F := Ideal) x0 x1 x2 x3 x4 x5 x6 x7
    = Spec.mm (val_main_v18 (F := Ideal) x0 x1 x2 x3 x4 x5 x6) x7 := by
  funext i
  obtain ⟨p, q, rfl⟩ : ∃ (p : Fin 4096) (q : Fin 128), i = ix2 p q := ⟨i 0, i 1, eq_ix2 i⟩
  rw [val_main_v19_apply, Spec.mm_apply]
  refine Finset.sum_congr rfl fun k _ => ?_
  rw [show lidx_main_v19 (ix2 p q) k = ix2 p k from idx2, show ridx_main_v19 (ix2 p q) k = ix2 k q from idx2]

/-! ## The propagated features, the scores and the outputs -/

/-- The source graph after one layer. -/
theorem ref_Xs1 : val_main_v2 (F := Ideal) x0 x1 x4 = Spec.Xs1 x0 x1 x4 := by
  rw [v2_eq, v1_eq, v0_eq]; rfl

/-- The source graph after two layers. -/
theorem ref_Xs2 : val_main_v5 (F := Ideal) x0 x1 x4 x5 = Spec.Xs2 x0 x1 x4 x5 := by
  rw [v5_eq, v4_eq, v3_eq, ref_Xs1]; rfl

/-- The target graph after one layer. -/
theorem ref_Xt1 : val_main_v8 (F := Ideal) x2 x3 x4 = Spec.Xt1 x2 x3 x4 := by
  rw [v8_eq, v7_eq, v6_eq]; rfl

/-- The target graph after two layers. -/
theorem ref_Xt2 : val_main_v11 (F := Ideal) x2 x3 x4 x5 = Spec.Xt2 x2 x3 x4 x5 := by
  rw [v11_eq, v10_eq, v9_eq, ref_Xt1]; rfl

/-- The score matrix. -/
theorem ref_S : val_main_v15 (F := Ideal) x0 x1 x2 x3 x4 x5 x6 = Spec.S x0 x1 x2 x3 x4 x5 x6 := by
  rw [v15_eq, v14_eq, v12_eq, ref_Xs2, ref_Xt2]; rfl

/-- The source-side output. -/
theorem ref_outS : val_main_v17 (F := Ideal) x0 x1 x2 x3 x4 x5 x6 x7 = Spec.outS x0 x1 x2 x3 x4 x5 x6 x7 := by
  rw [v17_eq, v16_eq, ref_S, ref_Xs2]; rfl

/-- The target-side output. -/
theorem ref_outT : val_main_v19 (F := Ideal) x0 x1 x2 x3 x4 x5 x6 x7 = Spec.outT x0 x1 x2 x3 x4 x5 x6 x7 := by
  rw [v19_eq, v18_eq, ref_S, ref_Xt2]; rfl

end stages

/-! ## The reference's run, with its results named by the specification -/

/-- Every weakly fair execution of the reference terminates with its three results at the specification's
    functions of the argument arrays, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17)
          = Spec.outS (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_v19)
          = Spec.outT (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_v15)
          = Spec.S (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c).1.trans ((val_main_v17_eq _ _ _ _ _ _ _ _).trans (ref_outS _ _ _ _ _ _ _ _)),
       (h c).2.1.trans ((val_main_v19_eq _ _ _ _ _ _ _ _).trans (ref_outT _ _ _ _ _ _ _ _)),
       (h c).2.2.1.trans ((val_main_v15_eq _ _ _ _ _ _ _).trans (ref_S _ _ _ _ _ _ _)),
       (h c).2.2.2⟩)
    (Cert.ReferenceIdeal.Value.run (F := Ideal) m ρ)

/-- The reference terminates without a fault and leaves its arguments unchanged: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

end Cert.RefSpec

end
-- ==== Proof.Value0.lean ====
/- The value side of region 0 (the first graph-convolution layer) at the extended reals. There a change of float format is
   the identity and a product on the matrix unit into a zero accumulator is the exact sum of products, so the body's
   store into output window 5 at grid point `t` is, entry `(p, q)` of the block,
   `max (∑ k, (∑ l, A (512·t + p, l) · X (l, k)) · W (k, q)) 0` of the arrays the region is entered with. The eight
   blocks of 512 rows tile the 4096 rows of the result, so after the region the result array is that function at every
   entry; window 6 is the same with the second graph's arrays, and no input array is written. -/
import proofs.«141314_j39779987096265_2_alg».proof.Proof.Ideal.Region0
import proofs.«141314_j39779987096265_2_alg».proof.Proof.Spec
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx (ix2 eq_ix2)

/-! ## The two matrix products of the body, read at an entry -/

/-- The matrix unit's product into a zero accumulator, [512,4096] × [4096,256], read at entry `(p, q)`: the sum over the
    contracted axis of the products of row `p` of the left factor and column `q` of the right one. -/
theorem lhs0_0a (i : S512x256.Idx) (κ : dot_S512x4096_S4096x256_S512x256_1_0_0_1_n_n.contr.Idx) : (dot_S512x4096_S4096x256_S512x256_1_0_0_1_n_n.lhsIdx i κ 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem rhs1_0a (i : S512x256.Idx) (κ : dot_S512x4096_S4096x256_S512x256_1_0_0_1_n_n.contr.Idx) : (dot_S512x4096_S4096x256_S512x256_1_0_0_1_n_n.rhsIdx i κ 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl
theorem mm_0a {φ₁ φ₂ : FTy} (prec : Option ContractPrecision) (l : FVec Ideal S512x4096 φ₁) (r : FVec Ideal S4096x256 φ₂) (p : Fin 512) (q : Fin 256) :
    FloatOps.matmul dot_S512x4096_S4096x256_S512x256_1_0_0_1_n_n prec l r (constant S512x256 .f32 0x00000000#32) (ix2 p q) = ∑ k : Fin 4096, l (ix2 p k) * r (ix2 k q) := by
  rw [Ideal.matmul_constant_zero_apply, ← Equiv.sum_comp (ValueIdx.contrEquiv1 dot_S512x4096_S4096x256_S512x256_1_0_0_1_n_n 4096 rfl rfl).symm]
  refine Finset.sum_congr rfl fun k _ => ?_
  have hk := ValueIdx.contrEquiv1_symm_val dot_S512x4096_S4096x256_S512x256_1_0_0_1_n_n 4096 rfl rfl k
  have el : dot_S512x4096_S4096x256_S512x256_1_0_0_1_n_n.lhsIdx (ix2 p q) ((ValueIdx.contrEquiv1 dot_S512x4096_S4096x256_S512x256_1_0_0_1_n_n 4096 rfl rfl).symm k) = ix2 p k := funext fun a => Fin.ext (by
    match a with
    | ⟨0, _⟩ => exact lhs0_0a _ _
    | ⟨1, _⟩ => exact (dot_S512x4096_S4096x256_S512x256_1_0_0_1_n_n.lhsIdx_val_of_single rfl _ _).trans hk)
  have er : dot_S512x4096_S4096x256_S512x256_1_0_0_1_n_n.rhsIdx (ix2 p q) ((ValueIdx.contrEquiv1 dot_S512x4096_S4096x256_S512x256_1_0_0_1_n_n 4096 rfl rfl).symm k) = ix2 k q := funext fun a => Fin.ext (by
    match a with
    | ⟨0, _⟩ => exact (dot_S512x4096_S4096x256_S512x256_1_0_0_1_n_n.rhsIdx_val_of_single rfl _ _).trans hk
    | ⟨1, _⟩ => exact rhs1_0a _ _)
  rw [el, er]

/-- The matrix unit's product into a zero accumulator, [512,256] × [256,128], read at entry `(p, q)`: the sum over the
    contracted axis of the products of row `p` of the left factor and column `q` of the right one. -/
theorem lhs0_0b (i : S512x128.Idx) (κ : dot_S512x256_S256x128_S512x128_1_0_0_1_n_n.contr.Idx) : (dot_S512x256_S256x128_S512x128_1_0_0_1_n_n.lhsIdx i κ 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl
theorem rhs1_0b (i : S512x128.Idx) (κ : dot_S512x256_S256x128_S512x128_1_0_0_1_n_n.contr.Idx) : (dot_S512x256_S256x128_S512x128_1_0_0_1_n_n.rhsIdx i κ 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl
theorem mm_0b {φ₁ φ₂ : FTy} (prec : Option ContractPrecision) (l : FVec Ideal S512x256 φ₁) (r : FVec Ideal S256x128 φ₂) (p : Fin 512) (q : Fin 128) :
    FloatOps.matmul dot_S512x256_S256x128_S512x128_1_0_0_1_n_n prec l r (constant S512x128 .f32 0x00000000#32) (ix2 p q) = ∑ k : Fin 256, l (ix2 p k) * r (ix2 k q) := by
  rw [Ideal.matmul_constant_zero_apply, ← Equiv.sum_comp (ValueIdx.contrEquiv1 dot_S512x256_S256x128_S512x128_1_0_0_1_n_n 256 rfl rfl).symm]
  refine Finset.sum_congr rfl fun k _ => ?_
  have hk := ValueIdx.contrEquiv1_symm_val dot_S512x256_S256x128_S512x128_1_0_0_1_n_n 256 rfl rfl k
  have el : dot_S512x256_S256x128_S512x128_1_0_0_1_n_n.lhsIdx (ix2 p q) ((ValueIdx.contrEquiv1 dot_S512x256_S256x128_S512x128_1_0_0_1_n_n 256 rfl rfl).symm k) = ix2 p k := funext fun a => Fin.ext (by
    match a with
    | ⟨0, _⟩ => exact lhs0_0b _ _
    | ⟨1, _⟩ => exact (dot_S512x256_S256x128_S512x128_1_0_0_1_n_n.lhsIdx_val_of_single rfl _ _).trans hk)
  have er : dot_S512x256_S256x128_S512x128_1_0_0_1_n_n.rhsIdx (ix2 p q) ((ValueIdx.contrEquiv1 dot_S512x256_S256x128_S512x128_1_0_0_1_n_n 256 rfl rfl).symm k) = ix2 k q := funext fun a => Fin.ext (by
    match a with
    | ⟨0, _⟩ => exact (dot_S512x256_S256x128_S512x128_1_0_0_1_n_n.rhsIdx_val_of_single rfl _ _).trans hk
    | ⟨1, _⟩ => exact rhs1_0b _ _)
  rw [el, er]

/-! ## The body's stored values at an entry -/

/-- One entry of the layer: `max (∑ k, (∑ l, a l · X (l, k)) · W (k, q)) 0` for a row `a` of the adjacency matrix. -/
def entry0 (a : Fin 4096 → EReal) (X : S4096x256.Idx → EReal) (W : S256x128.Idx → EReal) (q : Fin 128) : EReal :=
  max (∑ k : Fin 256, (∑ l : Fin 4096, a l * X (ix2 l k)) * W (ix2 k q)) 0

/-- The value stored into window 5, at entry `(p, q)` of the block. -/
theorem pay0_1_apply (x4 : Vec Ideal S256x128 .f32) (x0 : Vec Ideal S512x4096 .f32) (x1 : Vec Ideal S4096x256 .f32) (p : Fin 512) (q : Fin 128) :
    k0_pay1 (F := Ideal) x4 x0 x1 (ix2 p q) = entry0 (fun l => x0 (ix2 p l)) x1 x4 q := by
  unfold k0_pay1 entry0
  refine (ValueIdx.maximumf_apply _ _ (ix2 p q)).trans ?_
  refine congrArg₂ max ?_ Ideal.ofBits_zero_f32
  refine (mm_0b (some .fp32) _ x4 p q).trans (Finset.sum_congr rfl fun k _ => ?_)
  refine congrArg (· * x4 (ix2 k q)) ?_
  exact (mm_0a none _ _ p k).trans (Finset.sum_congr rfl fun l _ => rfl)

/-- The value stored into window 6, at entry `(p, q)` of the block. -/
theorem pay0_2_apply (x4 : Vec Ideal S256x128 .f32) (x2 : Vec Ideal S512x4096 .f32) (x3 : Vec Ideal S4096x256 .f32) (p : Fin 512) (q : Fin 128) :
    k0_pay2 (F := Ideal) x4 x2 x3 (ix2 p q) = entry0 (fun l => x2 (ix2 p l)) x3 x4 q := by
  unfold k0_pay2 entry0
  refine (ValueIdx.maximumf_apply _ _ (ix2 p q)).trans ?_
  refine congrArg₂ max ?_ Ideal.ofBits_zero_f32
  refine (mm_0b (some .fp32) _ x4 p q).trans (Finset.sum_congr rfl fun k _ => ?_)
  refine congrArg (· * x4 (ix2 k q)) ?_
  exact (mm_0a none _ _ p k).trans (Finset.sum_congr rfl fun l _ => rfl)

theorem hz0 : (![0, 0] : Fin 2 → Nat) = fun _ => 0 := funext fun a => by fin_cases a <;> rfl

/-- The one store of a whole buffer leaves its value there, and every load is of a whole buffer. -/
theorem out0_5_eq {F : FTy → Type} [FloatOps F] (x4 : Vec F S256x128 .f32) (x0 : Vec F S512x4096 .f32) (x1 : Vec F S4096x256 .f32) :
    out0_5 x4 x0 x1 = k0_pay1 x4 x0 x1 := by
  unfold out0_5
  rw [View.canon_unit_zero hz0]
  simp only [View.ld_unit_zero (S := S256x128) hz0, View.ld_unit_zero (S := S512x4096) hz0, View.ld_unit_zero (S := S4096x256) hz0]
theorem out0_6_eq {F : FTy → Type} [FloatOps F] (x4 : Vec F S256x128 .f32) (x2 : Vec F S512x4096 .f32) (x3 : Vec F S4096x256 .f32) :
    out0_6 x4 x2 x3 = k0_pay2 x4 x2 x3 := by
  unfold out0_6
  rw [View.canon_unit_zero hz0]
  simp only [View.ld_unit_zero (S := S256x128) hz0, View.ld_unit_zero (S := S512x4096) hz0, View.ld_unit_zero (S := S4096x256) hz0]

/-! ## The layer as one function of whole arrays -/

/-- The layer of a whole graph: entry `(r, q)` is `max (∑ k, (∑ l, A (r, l) · X (l, k)) · W (k, q)) 0`. -/
def layer0 (A : S4096x4096.Idx → EReal) (X : S4096x256.Idx → EReal) (W : S256x128.Idx → EReal) : S4096x128.Idx → EReal :=
  fun i => entry0 (fun l => A (ix2 ⟨(i 0).val, (i 0).isLt⟩ l)) X W ⟨(i 1).val, (i 1).isLt⟩

theorem layer0_apply (A : S4096x4096.Idx → EReal) (X : S4096x256.Idx → EReal) (W : S256x128.Idx → EReal) (r : Fin 4096) (q : Fin 128) :
    layer0 A X W (ix2 r q) = max (∑ k : Fin 256, (∑ l : Fin 4096, A (ix2 r l) * X (ix2 l k)) * W (ix2 k q)) 0 := rfl

/-- It is the specification's layer `relu ((A · X) · W)`: the same sums, entry by entry. -/
theorem layer0_eq (A : Cert.Spec.Mat 4096 4096) (X : Cert.Spec.Mat 4096 256) (W : Cert.Spec.Mat 256 128) :
    layer0 A X W = Cert.Spec.layer A X W := rfl

/-- A block's stored value is the layer's where the block's rows, the whole feature matrix and the whole weight
    matrix are read off the arrays. -/
theorem block0_eq (pay : Vec Ideal S256x128 .f32 → Vec Ideal S512x4096 .f32 → Vec Ideal S4096x256 .f32 → FVec Ideal S512x128 .f32)
    (hpay : ∀ x4 x0 x1 p q, pay x4 x0 x1 (ix2 p q) = entry0 (fun l => x0 (ix2 p l)) x1 x4 q)
    (x4 : Vec Ideal S256x128 .f32) (x0 : Vec Ideal S512x4096 .f32) (x1 : Vec Ideal S4096x256 .f32)
    (A : S4096x4096.Idx → EReal) (X : S4096x256.Idx → EReal) (W : S256x128.Idx → EReal)
    (p : Fin 512) (q : Fin 128) (i : S4096x128.Idx) (hq : (i 1).val = q.val)
    (h0 : ∀ l : Fin 4096, x0 (ix2 p l) = A (ix2 ⟨(i 0).val, (i 0).isLt⟩ l))
    (h1 : ∀ j, x1 j = X j) (h4 : ∀ j, x4 j = W j) :
    pay x4 x0 x1 (ix2 p q) = layer0 A X W i := by
  rw [hpay]
  unfold layer0
  obtain rfl : x1 = X := funext h1
  obtain rfl : x4 = W := funext h4
  have hq' : (⟨(i 1).val, (i 1).isLt⟩ : Fin 128) = q := Fin.ext hq
  rw [hq']
  exact congrArg (fun a => entry0 a x1 x4 q) (funext h0)

/-! ## From blocks to the arrays -/

variable (V : (c : Dev nD) → (b : Ref sig .tc) → Buf (Elt Ideal) ((c : Thread nD τ).loc b))

/-- The printed index maps, decided over the grid's 8 points: the adjacency windows and the two output windows are at
    block row `t`, block column 0; the whole-array windows at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point `t` writes back to output window 5's array is block `t` of the layer of the arrays as the region finds them. -/
theorem flushed0_5_eq (c : Dev nD) (t : Fin cfg0.N) :
    (dat0 V c).flushed 5 t = ((cfg0.win 5).blk t).view.read (Elt Ideal)
      (layer0 (V c main_arg0) (V c main_arg1) (V c main_arg4)) := by
  show (cfg0.win 5).cut (grid0.coords t) ((dat0 V c).after 5 t) = _
  rw [after0_5, out0_5_eq]
  obtain ⟨e00, e01, e10, e11, e20, e21, e30, e31, e40, e41, e50, e51, e60, e61⟩ := idx_facts0 t
  funext j
  obtain ⟨p, q, rfl⟩ : ∃ (p : Fin 512) (q : Fin 128), j = ix2 p q := ⟨j 0, j 1, eq_ix2 j⟩
  show k0_pay1 (F := Ideal) (iblk0 V c 4 t) (iblk0 V c 0 t) (iblk0 V c 1 t) (ix2 p q)
    = layer0 (V c main_arg0) (V c main_arg1) (V c main_arg4) (((cfg0.win 5).blk t).view.emb (ix2 p q))
  refine block0_eq (k0_pay1 (F := Ideal)) pay0_1_apply _ _ _ _ _ _ p q _ ?_ (fun l => ?_) (fun j => ?_) (fun j => ?_)
  · show win0_5.index t (1 : Fin 2) * 128 + 1 * q.val = q.val
    omega
  · show V c main_arg0 (((cfg0.win 0).blk t).view.emb (ix2 p l)) = V c main_arg0 _
    refine congrArg (V c main_arg0) (funext fun a => Fin.ext ?_)
    match a with
    | ⟨0, _⟩ => show win0_0.index t (0 : Fin 2) * 512 + 1 * p.val = win0_5.index t (0 : Fin 2) * 512 + 1 * p.val; omega
    | ⟨1, _⟩ => show win0_0.index t (1 : Fin 2) * 4096 + 1 * l.val = l.val; omega
  · show V c main_arg1 (((cfg0.win 1).blk t).view.emb j) = V c main_arg1 j
    refine congrArg (V c main_arg1) (funext fun a => Fin.ext ?_)
    match a with
    | ⟨0, _⟩ => show win0_1.index t (0 : Fin 2) * 4096 + 1 * (j 0).val = (j 0).val; omega
    | ⟨1, _⟩ => show win0_1.index t (1 : Fin 2) * 256 + 1 * (j 1).val = (j 1).val; omega
  · show V c main_arg4 (((cfg0.win 4).blk t).view.emb j) = V c main_arg4 j
    refine congrArg (V c main_arg4) (funext fun a => Fin.ext ?_)
    match a with
    | ⟨0, _⟩ => show win0_4.index t (0 : Fin 2) * 256 + 1 * (j 0).val = (j 0).val; omega
    | ⟨1, _⟩ => show win0_4.index t (1 : Fin 2) * 128 + 1 * (j 1).val = (j 1).val; omega

/-- An entry of the result array is in point `t`'s block iff each coordinate is in the block's range on its axis. -/
theorem mem_blk0_5 (t : Fin cfg0.N) (i : S4096x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v0_0).slice (win0_5.rect t)).set ↔ _
  rw [View.set_slice_whole, Rect.mem_set_unit]
  exact Iff.rfl

/-- Row `r` of the result lies in the block of point `r / 512`, which is written back. -/
theorem covered0_5 (i : S4096x128.Idx) :
    ∃ t : Fin cfg0.N, (cfg0.win 5).flush t = true ∧ i ∈ ((cfg0.win 5).blk t).view.set := by
  have hi0 : (i 0).val < 4096 := (i 0).isLt
  have hi1 : (i 1).val < 128 := (i 1).isLt
  have hN : grid0.N = 8 := N_0
  have ht : (i 0).val / 512 < grid0.N := by rw [hN]; omega
  obtain ⟨e00, e01, e10, e11, e20, e21, e30, e31, e40, e41, e50, e51, e60, e61⟩ := idx_facts0 ⟨(i 0).val / 512, ht⟩
  refine ⟨⟨(i 0).val / 512, ht⟩, flush0_5 _, ?_⟩
  rw [mem_blk0_5]
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    rw [e50]; show (i 0).val / 512 * 512 ≤ (i 0).val ∧ (i 0).val < (i 0).val / 512 * 512 + 512; omega
  | ⟨1, _⟩ =>
    show win0_5.index ⟨(i 0).val / 512, ht⟩ (1 : Fin 2) * 128 ≤ (i 1).val ∧ (i 1).val < win0_5.index ⟨(i 0).val / 512, ht⟩ (1 : Fin 2) * 128 + 128
    rw [e51]; omega

/-- After the region, output window 5's array is the specification's layer of the first graph's arrays as the region finds them. -/
theorem arrAt0_5 (c : Dev nD) :
    (dat0 V c).arrAt 5 cfg0.N = Cert.Spec.layer (n := 4096) (d := 256) (h := 128) (V c main_arg0) (V c main_arg1) (V c main_arg4) :=
  ((dat0 V c).arrAt_eq_of_cover 5 _ (fun t _ => flushed0_5_eq V c t) (covered0_5)).trans (layer0_eq _ _ _)

/-- What point `t` writes back to output window 6's array is block `t` of the layer of the arrays as the region finds them. -/
theorem flushed0_6_eq (c : Dev nD) (t : Fin cfg0.N) :
    (dat0 V c).flushed 6 t = ((cfg0.win 6).blk t).view.read (Elt Ideal)
      (layer0 (V c main_arg2) (V c main_arg3) (V c main_arg4)) := by
  show (cfg0.win 6).cut (grid0.coords t) ((dat0 V c).after 6 t) = _
  rw [after0_6, out0_6_eq]
  obtain ⟨e00, e01, e10, e11, e20, e21, e30, e31, e40, e41, e50, e51, e60, e61⟩ := idx_facts0 t
  funext j
  obtain ⟨p, q, rfl⟩ : ∃ (p : Fin 512) (q : Fin 128), j = ix2 p q := ⟨j 0, j 1, eq_ix2 j⟩
  show k0_pay2 (F := Ideal) (iblk0 V c 4 t) (iblk0 V c 2 t) (iblk0 V c 3 t) (ix2 p q)
    = layer0 (V c main_arg2) (V c main_arg3) (V c main_arg4) (((cfg0.win 6).blk t).view.emb (ix2 p q))
  refine block0_eq (k0_pay2 (F := Ideal)) pay0_2_apply _ _ _ _ _ _ p q _ ?_ (fun l => ?_) (fun j => ?_) (fun j => ?_)
  · show win0_6.index t (1 : Fin 2) * 128 + 1 * q.val = q.val
    omega
  · show V c main_arg2 (((cfg0.win 2).blk t).view.emb (ix2 p l)) = V c main_arg2 _
    refine congrArg (V c main_arg2) (funext fun a => Fin.ext ?_)
    match a with
    | ⟨0, _⟩ => show win0_2.index t (0 : Fin 2) * 512 + 1 * p.val = win0_6.index t (0 : Fin 2) * 512 + 1 * p.val; omega
    | ⟨1, _⟩ => show win0_2.index t (1 : Fin 2) * 4096 + 1 * l.val = l.val; omega
  · show V c main_arg3 (((cfg0.win 3).blk t).view.emb j) = V c main_arg3 j
    refine congrArg (V c main_arg3) (funext fun a => Fin.ext ?_)
    match a with
    | ⟨0, _⟩ => show win0_3.index t (0 : Fin 2) * 4096 + 1 * (j 0).val = (j 0).val; omega
    | ⟨1, _⟩ => show win0_3.index t (1 : Fin 2) * 256 + 1 * (j 1).val = (j 1).val; omega
  · show V c main_arg4 (((cfg0.win 4).blk t).view.emb j) = V c main_arg4 j
    refine congrArg (V c main_arg4) (funext fun a => Fin.ext ?_)
    match a with
    | ⟨0, _⟩ => show win0_4.index t (0 : Fin 2) * 256 + 1 * (j 0).val = (j 0).val; omega
    | ⟨1, _⟩ => show win0_4.index t (1 : Fin 2) * 128 + 1 * (j 1).val = (j 1).val; omega

/-- An entry of the result array is in point `t`'s block iff each coordinate is in the block's range on its axis. -/
theorem mem_blk0_6 (t : Fin cfg0.N) (i : S4096x128.Idx) :
    i ∈ ((cfg0.win 6).blk t).view.set ↔ ∀ a : Fin 2, win0_6.index t a * S512x128.size a ≤ (i a).val ∧ (i a).val < win0_6.index t a * S512x128.size a + S512x128.size a := by
  show i ∈ ((View.whole main_v0_1).slice (win0_6.rect t)).set ↔ _
  rw [View.set_slice_whole, Rect.mem_set_unit]
  exact Iff.rfl

/-- Row `r` of the result lies in the block of point `r / 512`, which is written back. -/
theorem covered0_6 (i : S4096x128.Idx) :
    ∃ t : Fin cfg0.N, (cfg0.win 6).flush t = true ∧ i ∈ ((cfg0.win 6).blk t).view.set := by
  have hi0 : (i 0).val < 4096 := (i 0).isLt
  have hi1 : (i 1).val < 128 := (i 1).isLt
  have hN : grid0.N = 8 := N_0
  have ht : (i 0).val / 512 < grid0.N := by rw [hN]; omega
  obtain ⟨e00, e01, e10, e11, e20, e21, e30, e31, e40, e41, e50, e51, e60, e61⟩ := idx_facts0 ⟨(i 0).val / 512, ht⟩
  refine ⟨⟨(i 0).val / 512, ht⟩, flush0_6 _, ?_⟩
  rw [mem_blk0_6]
  intro a
  match a with
  | ⟨0, _⟩ =>
    show win0_6.index ⟨(i 0).val / 512, ht⟩ (0 : Fin 2) * 512 ≤ (i 0).val ∧ (i 0).val < win0_6.index ⟨(i 0).val / 512, ht⟩ (0 : Fin 2) * 512 + 512
    rw [e60]; show (i 0).val / 512 * 512 ≤ (i 0).val ∧ (i 0).val < (i 0).val / 512 * 512 + 512; omega
  | ⟨1, _⟩ =>
    show win0_6.index ⟨(i 0).val / 512, ht⟩ (1 : Fin 2) * 128 ≤ (i 1).val ∧ (i 1).val < win0_6.index ⟨(i 0).val / 512, ht⟩ (1 : Fin 2) * 128 + 128
    rw [e61]; omega

/-- After the region, output window 6's array is the specification's layer of the second graph's arrays as the region finds them. -/
theorem arrAt0_6 (c : Dev nD) :
    (dat0 V c).arrAt 6 cfg0.N = Cert.Spec.layer (n := 4096) (d := 256) (h := 128) (V c main_arg2) (V c main_arg3) (V c main_arg4) :=
  ((dat0 V c).arrAt_eq_of_cover 6 _ (fun t _ => flushed0_6_eq V c t) (covered0_6)).trans (layer0_eq _ _ _)

/-- An input window's array ends as the region finds it: it is staged and never written back. -/
theorem arrAt0_in (c : Dev nD) (w : Fin cfg0.W) (hin : (cfg0.win w).isOut = false) :
    (dat0 V c).arrAt w cfg0.N = V c (Pipeline.arrRef spec0 w) :=
  ((dat0 V c).arrAt_in w hin _).trans (A_eq0 V c w)

end Cert.KernelIdeal.HandValue

end
-- ==== Proof.Value1.lean ====
/- The value side of region 1 (the second graph-convolution layer) at the extended reals. There a change of float format and
   a shape cast to the same shape are the identity and a product on the matrix unit into a zero accumulator is the exact sum of products, so the body's
   store into output window 5 at grid point `t` is, entry `(p, q)` of the block,
   `max (∑ k, (∑ l, A (512·t + p, l) · X (l, k)) · W (k, q)) 0` of the arrays the region is entered with. The eight
   blocks of 512 rows tile the 4096 rows of the result, so after the region the result array is that function at every
   entry; window 6 is the same with the second graph's arrays, and no input array is written. -/
import proofs.«141314_j39779987096265_2_alg».proof.Proof.Ideal.Region1
import proofs.«141314_j39779987096265_2_alg».proof.Proof.Spec
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx (ix2 eq_ix2)

/-! ## The two matrix products of the body, read at an entry -/

/-- The matrix unit's product into a zero accumulator, [512,4096] × [4096,128], read at entry `(p, q)`: the sum over the
    contracted axis of the products of row `p` of the left factor and column `q` of the right one. -/
theorem lhs0_1a (i : S512x128.Idx) (κ : dot_S512x4096_S4096x128_S512x128_1_0_0_1_n_n.contr.Idx) : (dot_S512x4096_S4096x128_S512x128_1_0_0_1_n_n.lhsIdx i κ 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem rhs1_1a (i : S512x128.Idx) (κ : dot_S512x4096_S4096x128_S512x128_1_0_0_1_n_n.contr.Idx) : (dot_S512x4096_S4096x128_S512x128_1_0_0_1_n_n.rhsIdx i κ 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl
theorem mm_1a {φ₁ φ₂ : FTy} (prec : Option ContractPrecision) (l : FVec Ideal S512x4096 φ₁) (r : FVec Ideal S4096x128 φ₂) (p : Fin 512) (q : Fin 128) :
    FloatOps.matmul dot_S512x4096_S4096x128_S512x128_1_0_0_1_n_n prec l r (constant S512x128 .f32 0x00000000#32) (ix2 p q) = ∑ k : Fin 4096, l (ix2 p k) * r (ix2 k q) := by
  rw [Ideal.matmul_constant_zero_apply, ← Equiv.sum_comp (ValueIdx.contrEquiv1 dot_S512x4096_S4096x128_S512x128_1_0_0_1_n_n 4096 rfl rfl).symm]
  refine Finset.sum_congr rfl fun k _ => ?_
  have hk := ValueIdx.contrEquiv1_symm_val dot_S512x4096_S4096x128_S512x128_1_0_0_1_n_n 4096 rfl rfl k
  have el : dot_S512x4096_S4096x128_S512x128_1_0_0_1_n_n.lhsIdx (ix2 p q) ((ValueIdx.contrEquiv1 dot_S512x4096_S4096x128_S512x128_1_0_0_1_n_n 4096 rfl rfl).symm k) = ix2 p k := funext fun a => Fin.ext (by
    match a with
    | ⟨0, _⟩ => exact lhs0_1a _ _
    | ⟨1, _⟩ => exact (dot_S512x4096_S4096x128_S512x128_1_0_0_1_n_n.lhsIdx_val_of_single rfl _ _).trans hk)
  have er : dot_S512x4096_S4096x128_S512x128_1_0_0_1_n_n.rhsIdx (ix2 p q) ((ValueIdx.contrEquiv1 dot_S512x4096_S4096x128_S512x128_1_0_0_1_n_n 4096 rfl rfl).symm k) = ix2 k q := funext fun a => Fin.ext (by
    match a with
    | ⟨0, _⟩ => exact (dot_S512x4096_S4096x128_S512x128_1_0_0_1_n_n.rhsIdx_val_of_single rfl _ _).trans hk
    | ⟨1, _⟩ => exact rhs1_1a _ _)
  rw [el, er]

/-- The matrix unit's product into a zero accumulator, [512,128] × [128,128], read at entry `(p, q)`: the sum over the
    contracted axis of the products of row `p` of the left factor and column `q` of the right one. -/
theorem lhs0_1b (i : S512x128.Idx) (κ : dot_S512x128_S128x128_S512x128_1_0_0_1_n_n.contr.Idx) : (dot_S512x128_S128x128_S512x128_1_0_0_1_n_n.lhsIdx i κ 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem rhs1_1b (i : S512x128.Idx) (κ : dot_S512x128_S128x128_S512x128_1_0_0_1_n_n.contr.Idx) : (dot_S512x128_S128x128_S512x128_1_0_0_1_n_n.rhsIdx i κ 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl
theorem mm_1b {φ₁ φ₂ : FTy} (prec : Option ContractPrecision) (l : FVec Ideal S512x128 φ₁) (r : FVec Ideal S128x128 φ₂) (p : Fin 512) (q : Fin 128) :
    FloatOps.matmul dot_S512x128_S128x128_S512x128_1_0_0_1_n_n prec l r (constant S512x128 .f32 0x00000000#32) (ix2 p q) = ∑ k : Fin 128, l (ix2 p k) * r (ix2 k q) := by
  rw [Ideal.matmul_constant_zero_apply, ← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 p q) ((ValueIdx.contrEquiv1 dot_S512x128_S128x128_S512x128_1_0_0_1_n_n 128 rfl rfl).symm k) = ix2 p k := funext fun a => Fin.ext (by
    match a with
    | ⟨0, _⟩ => exact lhs0_1b _ _
    | ⟨1, _⟩ => exact (dot_S512x128_S128x128_S512x128_1_0_0_1_n_n.lhsIdx_val_of_single rfl _ _).trans hk)
  have er : dot_S512x128_S128x128_S512x128_1_0_0_1_n_n.rhsIdx (ix2 p q) ((ValueIdx.contrEquiv1 dot_S512x128_S128x128_S512x128_1_0_0_1_n_n 128 rfl rfl).symm k) = ix2 k q := funext fun a => Fin.ext (by
    match a with
    | ⟨0, _⟩ => exact (dot_S512x128_S128x128_S512x128_1_0_0_1_n_n.rhsIdx_val_of_single rfl _ _).trans hk
    | ⟨1, _⟩ => exact rhs1_1b _ _)
  rw [el, er]

/-! ## The body's stored values at an entry -/

/-- One entry of the layer: `max (∑ k, (∑ l, a l · X (l, k)) · W (k, q)) 0` for a row `a` of the adjacency matrix. -/
def entry1 (a : Fin 4096 → EReal) (X : S4096x128.Idx → EReal) (W : S128x128.Idx → EReal) (q : Fin 128) : EReal :=
  max (∑ k : Fin 128, (∑ l : Fin 4096, a l * X (ix2 l k)) * W (ix2 k q)) 0

/-- The value stored into window 5, at entry `(p, q)` of the block. -/
theorem pay1_1_apply (x4 : Vec Ideal S128x128 .f32) (x0 : Vec Ideal S512x4096 .f32) (x1 : Vec Ideal S4096x128 .f32) (p : Fin 512) (q : Fin 128) :
    k1_pay1 (F := Ideal) x4 x0 x1 (ix2 p q) = entry1 (fun l => x0 (ix2 p l)) x1 x4 q := by
  unfold k1_pay1 entry1
  refine (ValueIdx.maximumf_apply _ _ (ix2 p q)).trans ?_
  refine congrArg₂ max ?_ Ideal.ofBits_zero_f32
  refine (mm_1b (some .fp32) _ x4 p q).trans (Finset.sum_congr rfl fun k _ => ?_)
  refine congrArg (· * x4 (ix2 k q)) ?_
  exact (mm_1a none _ _ p k).trans (Finset.sum_congr rfl fun l _ => congrArg (x0 (ix2 p l) * ·) (congrFun (shapeCast_self x1 _) (ix2 l k)))

/-- The value stored into window 6, at entry `(p, q)` of the block. -/
theorem pay1_2_apply (x4 : Vec Ideal S128x128 .f32) (x2 : Vec Ideal S512x4096 .f32) (x3 : Vec Ideal S4096x128 .f32) (p : Fin 512) (q : Fin 128) :
    k1_pay2 (F := Ideal) x4 x2 x3 (ix2 p q) = entry1 (fun l => x2 (ix2 p l)) x3 x4 q := by
  unfold k1_pay2 entry1
  refine (ValueIdx.maximumf_apply _ _ (ix2 p q)).trans ?_
  refine congrArg₂ max ?_ Ideal.ofBits_zero_f32
  refine (mm_1b (some .fp32) _ x4 p q).trans (Finset.sum_congr rfl fun k _ => ?_)
  refine congrArg (· * x4 (ix2 k q)) ?_
  exact (mm_1a none _ _ p k).trans (Finset.sum_congr rfl fun l _ => congrArg (x2 (ix2 p l) * ·) (congrFun (shapeCast_self x3 _) (ix2 l k)))

theorem hz1 : (![0, 0] : Fin 2 → Nat) = fun _ => 0 := funext fun a => by fin_cases a <;> rfl

/-- The one store of a whole buffer leaves its value there, and every load is of a whole buffer. -/
theorem out1_5_eq {F : FTy → Type} [FloatOps F] (x4 : Vec F S128x128 .f32) (x0 : Vec F S512x4096 .f32) (x1 : Vec F S4096x128 .f32) :
    out1_5 x4 x0 x1 = k1_pay1 x4 x0 x1 := by
  unfold out1_5
  rw [View.canon_unit_zero hz1]
  simp only [View.ld_unit_zero (S := S128x128) hz1, View.ld_unit_zero (S := S512x4096) hz1, View.ld_unit_zero (S := S4096x128) hz1]
theorem out1_6_eq {F : FTy → Type} [FloatOps F] (x4 : Vec F S128x128 .f32) (x2 : Vec F S512x4096 .f32) (x3 : Vec F S4096x128 .f32) :
    out1_6 x4 x2 x3 = k1_pay2 x4 x2 x3 := by
  unfold out1_6
  rw [View.canon_unit_zero hz1]
  simp only [View.ld_unit_zero (S := S128x128) hz1, View.ld_unit_zero (S := S512x4096) hz1, View.ld_unit_zero (S := S4096x128) hz1]

/-! ## The layer as one function of whole arrays -/

/-- The layer of a whole graph: entry `(r, q)` is `max (∑ k, (∑ l, A (r, l) · X (l, k)) · W (k, q)) 0`. -/
def layer1 (A : S4096x4096.Idx → EReal) (X : S4096x128.Idx → EReal) (W : S128x128.Idx → EReal) : S4096x128.Idx → EReal :=
  fun i => entry1 (fun l => A (ix2 ⟨(i 0).val, (i 0).isLt⟩ l)) X W ⟨(i 1).val, (i 1).isLt⟩

theorem layer1_apply (A : S4096x4096.Idx → EReal) (X : S4096x128.Idx → EReal) (W : S128x128.Idx → EReal) (r : Fin 4096) (q : Fin 128) :
    layer1 A X W (ix2 r q) = max (∑ k : Fin 128, (∑ l : Fin 4096, A (ix2 r l) * X (ix2 l k)) * W (ix2 k q)) 0 := rfl

/-- It is the specification's layer `relu ((A · X) · W)`: the same sums, entry by entry. -/
theorem layer1_eq (A : Cert.Spec.Mat 4096 4096) (X : Cert.Spec.Mat 4096 128) (W : Cert.Spec.Mat 128 128) :
    layer1 A X W = Cert.Spec.layer A X W := rfl

/-- A block's stored value is the layer's where the block's rows, the whole feature matrix and the whole weight
    matrix are read off the arrays. -/
theorem block1_eq (pay : Vec Ideal S128x128 .f32 → Vec Ideal S512x4096 .f32 → Vec Ideal S4096x128 .f32 → FVec Ideal S512x128 .f32)
    (hpay : ∀ x4 x0 x1 p q, pay x4 x0 x1 (ix2 p q) = entry1 (fun l => x0 (ix2 p l)) x1 x4 q)
    (x4 : Vec Ideal S128x128 .f32) (x0 : Vec Ideal S512x4096 .f32) (x1 : Vec Ideal S4096x128 .f32)
    (A : S4096x4096.Idx → EReal) (X : S4096x128.Idx → EReal) (W : S128x128.Idx → EReal)
    (p : Fin 512) (q : Fin 128) (i : S4096x128.Idx) (hq : (i 1).val = q.val)
    (h0 : ∀ l : Fin 4096, x0 (ix2 p l) = A (ix2 ⟨(i 0).val, (i 0).isLt⟩ l))
    (h1 : ∀ j, x1 j = X j) (h4 : ∀ j, x4 j = W j) :
    pay x4 x0 x1 (ix2 p q) = layer1 A X W i := by
  rw [hpay]
  unfold layer1
  obtain rfl : x1 = X := funext h1
  obtain rfl : x4 = W := funext h4
  have hq' : (⟨(i 1).val, (i 1).isLt⟩ : Fin 128) = q := Fin.ext hq
  rw [hq']
  exact congrArg (fun a => entry1 a x1 x4 q) (funext h0)

/-! ## From blocks to the arrays -/

variable (V : (c : Dev nD) → (b : Ref sig .tc) → Buf (Elt Ideal) ((c : Thread nD τ).loc b))

/-- The printed index maps, decided over the grid's 8 points: the adjacency windows and the two output windows are at
    block row `t`, block column 0; the whole-array windows at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- What point `t` writes back to output window 5's array is block `t` of the layer of the arrays as the region finds them. -/
theorem flushed1_5_eq (c : Dev nD) (t : Fin cfg1.N) :
    (dat1 V c).flushed 5 t = ((cfg1.win 5).blk t).view.read (Elt Ideal)
      (layer1 (V c main_arg0) (V c main_v0_0) (V c main_arg5)) := by
  show (cfg1.win 5).cut (grid1.coords t) ((dat1 V c).after 5 t) = _
  rw [after1_5, out1_5_eq]
  obtain ⟨e00, e01, e10, e11, e20, e21, e30, e31, e40, e41, e50, e51, e60, e61⟩ := idx_facts1 t
  funext j
  obtain ⟨p, q, rfl⟩ : ∃ (p : Fin 512) (q : Fin 128), j = ix2 p q := ⟨j 0, j 1, eq_ix2 j⟩
  show k1_pay1 (F := Ideal) (iblk1 V c 4 t) (iblk1 V c 0 t) (iblk1 V c 1 t) (ix2 p q)
    = layer1 (V c main_arg0) (V c main_v0_0) (V c main_arg5) (((cfg1.win 5).blk t).view.emb (ix2 p q))
  refine block1_eq (k1_pay1 (F := Ideal)) pay1_1_apply _ _ _ _ _ _ p q _ ?_ (fun l => ?_) (fun j => ?_) (fun j => ?_)
  · show win1_5.index t (1 : Fin 2) * 128 + 1 * q.val = q.val
    omega
  · show V c main_arg0 (((cfg1.win 0).blk t).view.emb (ix2 p l)) = V c main_arg0 _
    refine congrArg (V c main_arg0) (funext fun a => Fin.ext ?_)
    match a with
    | ⟨0, _⟩ => show win1_0.index t (0 : Fin 2) * 512 + 1 * p.val = win1_5.index t (0 : Fin 2) * 512 + 1 * p.val; omega
    | ⟨1, _⟩ => show win1_0.index t (1 : Fin 2) * 4096 + 1 * l.val = l.val; omega
  · show V c main_v0_0 (((cfg1.win 1).blk t).view.emb j) = V c main_v0_0 j
    refine congrArg (V c main_v0_0) (funext fun a => Fin.ext ?_)
    match a with
    | ⟨0, _⟩ => show win1_1.index t (0 : Fin 2) * 4096 + 1 * (j 0).val = (j 0).val; omega
    | ⟨1, _⟩ => show win1_1.index t (1 : Fin 2) * 128 + 1 * (j 1).val = (j 1).val; omega
  · show V c main_arg5 (((cfg1.win 4).blk t).view.emb j) = V c main_arg5 j
    refine congrArg (V c main_arg5) (funext fun a => Fin.ext ?_)
    match a with
    | ⟨0, _⟩ => show win1_4.index t (0 : Fin 2) * 128 + 1 * (j 0).val = (j 0).val; omega
    | ⟨1, _⟩ => show win1_4.index t (1 : Fin 2) * 128 + 1 * (j 1).val = (j 1).val; omega

/-- An entry of the result array is in point `t`'s block iff each coordinate is in the block's range on its axis. -/
theorem mem_blk1_5 (t : Fin cfg1.N) (i : S4096x128.Idx) :
    i ∈ ((cfg1.win 5).blk t).view.set ↔ ∀ a : Fin 2, win1_5.index t a * S512x128.size a ≤ (i a).val ∧ (i a).val < win1_5.index t a * S512x128.size a + S512x128.size a := by
  show i ∈ ((View.whole main_v1_0).slice (win1_5.rect t)).set ↔ _
  rw [View.set_slice_whole, Rect.mem_set_unit]
  exact Iff.rfl

/-- Row `r` of the result lies in the block of point `r / 512`, which is written back. -/
theorem covered1_5 (i : S4096x128.Idx) :
    ∃ t : Fin cfg1.N, (cfg1.win 5).flush t = true ∧ i ∈ ((cfg1.win 5).blk t).view.set := by
  have hi0 : (i 0).val < 4096 := (i 0).isLt
  have hi1 : (i 1).val < 128 := (i 1).isLt
  have hN : grid1.N = 8 := N_1
  have ht : (i 0).val / 512 < grid1.N := by rw [hN]; omega
  obtain ⟨e00, e01, e10, e11, e20, e21, e30, e31, e40, e41, e50, e51, e60, e61⟩ := idx_facts1 ⟨(i 0).val / 512, ht⟩
  refine ⟨⟨(i 0).val / 512, ht⟩, flush1_5 _, ?_⟩
  rw [mem_blk1_5]
  intro a
  match a with
  | ⟨0, _⟩ =>
    show win1_5.index ⟨(i 0).val / 512, ht⟩ (0 : Fin 2) * 512 ≤ (i 0).val ∧ (i 0).val < win1_5.index ⟨(i 0).val / 512, ht⟩ (0 : Fin 2) * 512 + 512
    rw [e50]; show (i 0).val / 512 * 512 ≤ (i 0).val ∧ (i 0).val < (i 0).val / 512 * 512 + 512; omega
  | ⟨1, _⟩ =>
    show win1_5.index ⟨(i 0).val / 512, ht⟩ (1 : Fin 2) * 128 ≤ (i 1).val ∧ (i 1).val < win1_5.index ⟨(i 0).val / 512, ht⟩ (1 : Fin 2) * 128 + 128
    rw [e51]; omega

/-- After the region, output window 5's array is the specification's layer of the first graph's arrays as the region finds them. -/
theorem arrAt1_5 (c : Dev nD) :
    (dat1 V c).arrAt 5 cfg1.N = Cert.Spec.layer (n := 4096) (d := 128) (h := 128) (V c main_arg0) (V c main_v0_0) (V c main_arg5) :=
  ((dat1 V c).arrAt_eq_of_cover 5 _ (fun t _ => flushed1_5_eq V c t) (covered1_5)).trans (layer1_eq _ _ _)

/-- What point `t` writes back to output window 6's array is block `t` of the layer of the arrays as the region finds them. -/
theorem flushed1_6_eq (c : Dev nD) (t : Fin cfg1.N) :
    (dat1 V c).flushed 6 t = ((cfg1.win 6).blk t).view.read (Elt Ideal)
      (layer1 (V c main_arg2) (V c main_v0_1) (V c main_arg5)) := by
  show (cfg1.win 6).cut (grid1.coords t) ((dat1 V c).after 6 t) = _
  rw [after1_6, out1_6_eq]
  obtain ⟨e00, e01, e10, e11, e20, e21, e30, e31, e40, e41, e50, e51, e60, e61⟩ := idx_facts1 t
  funext j
  obtain ⟨p, q, rfl⟩ : ∃ (p : Fin 512) (q : Fin 128), j = ix2 p q := ⟨j 0, j 1, eq_ix2 j⟩
  show k1_pay2 (F := Ideal) (iblk1 V c 4 t) (iblk1 V c 2 t) (iblk1 V c 3 t) (ix2 p q)
    = layer1 (V c main_arg2) (V c main_v0_1) (V c main_arg5) (((cfg1.win 6).blk t).view.emb (ix2 p q))
  refine block1_eq (k1_pay2 (F := Ideal)) pay1_2_apply _ _ _ _ _ _ p q _ ?_ (fun l => ?_) (fun j => ?_) (fun j => ?_)
  · show win1_6.index t (1 : Fin 2) * 128 + 1 * q.val = q.val
    omega
  · show V c main_arg2 (((cfg1.win 2).blk t).view.emb (ix2 p l)) = V c main_arg2 _
    refine congrArg (V c main_arg2) (funext fun a => Fin.ext ?_)
    match a with
    | ⟨0, _⟩ => show win1_2.index t (0 : Fin 2) * 512 + 1 * p.val = win1_6.index t (0 : Fin 2) * 512 + 1 * p.val; omega
    | ⟨1, _⟩ => show win1_2.index t (1 : Fin 2) * 4096 + 1 * l.val = l.val; omega
  · show V c main_v0_1 (((cfg1.win 3).blk t).view.emb j) = V c main_v0_1 j
    refine congrArg (V c main_v0_1) (funext fun a => Fin.ext ?_)
    match a with
    | ⟨0, _⟩ => show win1_3.index t (0 : Fin 2) * 4096 + 1 * (j 0).val = (j 0).val; omega
    | ⟨1, _⟩ => show win1_3.index t (1 : Fin 2) * 128 + 1 * (j 1).val = (j 1).val; omega
  · show V c main_arg5 (((cfg1.win 4).blk t).view.emb j) = V c main_arg5 j
    refine congrArg (V c main_arg5) (funext fun a => Fin.ext ?_)
    match a with
    | ⟨0, _⟩ => show win1_4.index t (0 : Fin 2) * 128 + 1 * (j 0).val = (j 0).val; omega
    | ⟨1, _⟩ => show win1_4.index t (1 : Fin 2) * 128 + 1 * (j 1).val = (j 1).val; omega

/-- An entry of the result array is in point `t`'s block iff each coordinate is in the block's range on its axis. -/
theorem mem_blk1_6 (t : Fin cfg1.N) (i : S4096x128.Idx) :
    i ∈ ((cfg1.win 6).blk t).view.set ↔ ∀ a : Fin 2, win1_6.index t a * S512x128.size a ≤ (i a).val ∧ (i a).val < win1_6.index t a * S512x128.size a + S512x128.size a := by
  show i ∈ ((View.whole main_v1_1).slice (win1_6.rect t)).set ↔ _
  rw [View.set_slice_whole, Rect.mem_set_unit]
  exact Iff.rfl

/-- Row `r` of the result lies in the block of point `r / 512`, which is written back. -/
theorem covered1_6 (i : S4096x128.Idx) :
    ∃ t : Fin cfg1.N, (cfg1.win 6).flush t = true ∧ i ∈ ((cfg1.win 6).blk t).view.set := by
  have hi0 : (i 0).val < 4096 := (i 0).isLt
  have hi1 : (i 1).val < 128 := (i 1).isLt
  have hN : grid1.N = 8 := N_1
  have ht : (i 0).val / 512 < grid1.N := by rw [hN]; omega
  obtain ⟨e00, e01, e10, e11, e20, e21, e30, e31, e40, e41, e50, e51, e60, e61⟩ := idx_facts1 ⟨(i 0).val / 512, ht⟩
  refine ⟨⟨(i 0).val / 512, ht⟩, flush1_6 _, ?_⟩
  rw [mem_blk1_6]
  intro a
  match a with
  | ⟨0, _⟩ =>
    show win1_6.index ⟨(i 0).val / 512, ht⟩ (0 : Fin 2) * 512 ≤ (i 0).val ∧ (i 0).val < win1_6.index ⟨(i 0).val / 512, ht⟩ (0 : Fin 2) * 512 + 512
    rw [e60]; show (i 0).val / 512 * 512 ≤ (i 0).val ∧ (i 0).val < (i 0).val / 512 * 512 + 512; omega
  | ⟨1, _⟩ =>
    show win1_6.index ⟨(i 0).val / 512, ht⟩ (1 : Fin 2) * 128 ≤ (i 1).val ∧ (i 1).val < win1_6.index ⟨(i 0).val / 512, ht⟩ (1 : Fin 2) * 128 + 128
    rw [e61]; omega

/-- After the region, output window 6's array is the specification's layer of the second graph's arrays as the region finds them. -/
theorem arrAt1_6 (c : Dev nD) :
    (dat1 V c).arrAt 6 cfg1.N = Cert.Spec.layer (n := 4096) (d := 128) (h := 128) (V c main_arg2) (V c main_v0_1) (V c main_arg5) :=
  ((dat1 V c).arrAt_eq_of_cover 6 _ (fun t _ => flushed1_6_eq V c t) (covered1_6)).trans (layer1_eq _ _ _)

/-- An input window's array ends as the region finds it: it is staged and never written back. -/
theorem arrAt1_in (c : Dev nD) (w : Fin cfg1.W) (hin : (cfg1.win w).isOut = false) :
    (dat1 V c).arrAt w cfg1.N = V c (Pipeline.arrRef spec1 w) :=
  ((dat1 V c).arrAt_in w hin _).trans (A_eq1 V c w)

end Cert.KernelIdeal.HandValue

end
-- ==== Proof.Value2Pay.lean ====
/- The attention body's stored values at an entry, at the extended reals. There a shape cast to the same shape is the
   identity, a transpose swaps the two coordinates, a product on the matrix unit into a zero accumulator is the exact
   sum of products and `math.exp` is the exponential. So the body stores: zeros into the two accumulators at the first
   column block; the projected queries `x0 · W3`; the scores `exp (Q · x2ᵀ)` of the current block of target rows; each
   accumulator plus the scores times the current block of rows; and, at the last column block, an accumulator times `W4`. -/
import proofs.«141314_j39779987096265_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.TcCoe Idealize.SL.Sem
open Idealize.ShloMosaic.ValueIdx (ix2 eq_ix2)

/-! ## The three matrix products of the body, read at an entry -/

/-- The matrix unit's product into a zero accumulator, [1024,128] × [128,128], read at entry `(p, q)`: the sum over the
    contracted axis of the products of row `p` of the left factor and column `q` of the right one. -/
theorem lhs0_2c (i : S1024x128.Idx) (κ : dot_S1024x128_S128x128_S1024x128_1_0_0_1_n_n.contr.Idx) : (dot_S1024x128_S128x128_S1024x128_1_0_0_1_n_n.lhsIdx i κ 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem rhs1_2c (i : S1024x128.Idx) (κ : dot_S1024x128_S128x128_S1024x128_1_0_0_1_n_n.contr.Idx) : (dot_S1024x128_S128x128_S1024x128_1_0_0_1_n_n.rhsIdx i κ 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl
theorem mm_2c {φ₁ φ₂ : FTy} (prec : Option ContractPrecision) (l : FVec Ideal S1024x128 φ₁) (r : FVec Ideal S128x128 φ₂) (p : Fin 1024) (q : Fin 128) :
    FloatOps.matmul dot_S1024x128_S128x128_S1024x128_1_0_0_1_n_n prec l r (constant S1024x128 .f32 0x00000000#32) (ix2 p q) = ∑ k : Fin 128, l (ix2 p k) * r (ix2 k q) := by
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 p q) ((ValueIdx.contrEquiv1 dot_S1024x128_S128x128_S1024x128_1_0_0_1_n_n 128 rfl rfl).symm k) = ix2 p k := funext fun a => Fin.ext (by
    match a with
    | ⟨0, _⟩ => exact lhs0_2c _ _
    | ⟨1, _⟩ => exact (dot_S1024x128_S128x128_S1024x128_1_0_0_1_n_n.lhsIdx_val_of_single rfl _ _).trans hk)
  have er : dot_S1024x128_S128x128_S1024x128_1_0_0_1_n_n.rhsIdx (ix2 p q) ((ValueIdx.contrEquiv1 dot_S1024x128_S128x128_S1024x128_1_0_0_1_n_n 128 rfl rfl).symm k) = ix2 k q := funext fun a => Fin.ext (by
    match a with
    | ⟨0, _⟩ => exact (dot_S1024x128_S128x128_S1024x128_1_0_0_1_n_n.rhsIdx_val_of_single rfl _ _).trans hk
    | ⟨1, _⟩ => exact rhs1_2c _ _)
  rw [el, er]

/-- The matrix unit's product into a zero accumulator, [1024,128] × [128,512], read at entry `(p, q)`: the sum over the
    contracted axis of the products of row `p` of the left factor and column `q` of the right one. -/
theorem lhs0_2d (i : S1024x512.Idx) (κ : dot_S1024x128_S128x512_S1024x512_1_0_0_1_n_n.contr.Idx) : (dot_S1024x128_S128x512_S1024x512_1_0_0_1_n_n.lhsIdx i κ 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem rhs1_2d (i : S1024x512.Idx) (κ : dot_S1024x128_S128x512_S1024x512_1_0_0_1_n_n.contr.Idx) : (dot_S1024x128_S128x512_S1024x512_1_0_0_1_n_n.rhsIdx i κ 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl
theorem mm_2d {φ₁ φ₂ : FTy} (prec : Option ContractPrecision) (l : FVec Ideal S1024x128 φ₁) (r : FVec Ideal S128x512 φ₂) (p : Fin 1024) (q : Fin 512) :
    FloatOps.matmul dot_S1024x128_S128x512_S1024x512_1_0_0_1_n_n prec l r (constant S1024x512 .f32 0x00000000#32) (ix2 p q) = ∑ k : Fin 128, l (ix2 p k) * r (ix2 k q) := by
  rw [Ideal.matmul_constant_zero_apply, ← Equiv.sum_comp (ValueIdx.contrEquiv1 dot_S1024x128_S128x512_S1024x512_1_0_0_1_n_n 128 rfl rfl).symm]
  refine Finset.sum_congr rfl fun k _ => ?_
  have hk := ValueIdx.contrEquiv1_symm_val dot_S1024x128_S128x512_S1024x512_1_0_0_1_n_n 128 rfl rfl k
  have el : dot_S1024x128_S128x512_S1024x512_1_0_0_1_n_n.lhsIdx (ix2 p q) ((ValueIdx.contrEquiv1 dot_S1024x128_S128x512_S1024x512_1_0_0_1_n_n 128 rfl rfl).symm k) = ix2 p k := funext fun a => Fin.ext (by
    match a with
    | ⟨0, _⟩ => exact lhs0_2d _ _
    | ⟨1, _⟩ => exact (dot_S1024x128_S128x512_S1024x512_1_0_0_1_n_n.lhsIdx_val_of_single rfl _ _).trans hk)
  have er : dot_S1024x128_S128x512_S1024x512_1_0_0_1_n_n.rhsIdx (ix2 p q) ((ValueIdx.contrEquiv1 dot_S1024x128_S128x512_S1024x512_1_0_0_1_n_n 128 rfl rfl).symm k) = ix2 k q := funext fun a => Fin.ext (by
    match a with
    | ⟨0, _⟩ => exact (dot_S1024x128_S128x512_S1024x512_1_0_0_1_n_n.rhsIdx_val_of_single rfl _ _).trans hk
    | ⟨1, _⟩ => exact rhs1_2d _ _)
  rw [el, er]

/-- The matrix unit's product into a zero accumulator, [1024,512] × [512,128], read at entry `(p, q)`: the sum over the
    contracted axis of the products of row `p` of the left factor and column `q` of the right one. -/
theorem lhs0_2e (i : S1024x128.Idx) (κ : dot_S1024x512_S512x128_S1024x128_1_0_0_1_n_n.contr.Idx) : (dot_S1024x512_S512x128_S1024x128_1_0_0_1_n_n.lhsIdx i κ 0).val = (i 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem rhs1_2e (i : S1024x128.Idx) (κ : dot_S1024x512_S512x128_S1024x128_1_0_0_1_n_n.contr.Idx) : (dot_S1024x512_S512x128_S1024x128_1_0_0_1_n_n.rhsIdx i κ 1).val = (i 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl
theorem mm_2e {φ₁ φ₂ : FTy} (prec : Option ContractPrecision) (l : FVec Ideal S1024x512 φ₁) (r : FVec Ideal S512x128 φ₂) (p : Fin 1024) (q : Fin 128) :
    FloatOps.matmul dot_S1024x512_S512x128_S1024x128_1_0_0_1_n_n prec l r (constant S1024x128 .f32 0x00000000#32) (ix2 p q) = ∑ k : Fin 512, l (ix2 p k) * r (ix2 k q) := by
  rw [Ideal.matmul_constant_zero_apply, ← Equiv.sum_comp (ValueIdx.contrEquiv1 dot_S1024x512_S512x128_S1024x128_1_0_0_1_n_n 512 rfl rfl).symm]
  refine Finset.sum_congr rfl fun k _ => ?_
  have hk := ValueIdx.contrEquiv1_symm_val dot_S1024x512_S512x128_S1024x128_1_0_0_1_n_n 512 rfl rfl k
  have el : dot_S1024x512_S512x128_S1024x128_1_0_0_1_n_n.lhsIdx (ix2 p q) ((ValueIdx.contrEquiv1 dot_S1024x512_S512x128_S1024x128_1_0_0_1_n_n 512 rfl rfl).symm k) = ix2 p k := funext fun a => Fin.ext (by
    match a with
    | ⟨0, _⟩ => exact lhs0_2e _ _
    | ⟨1, _⟩ => exact (dot_S1024x512_S512x128_S1024x128_1_0_0_1_n_n.lhsIdx_val_of_single rfl _ _).trans hk)
  have er : dot_S1024x512_S512x128_S1024x128_1_0_0_1_n_n.rhsIdx (ix2 p q) ((ValueIdx.contrEquiv1 dot_S1024x512_S512x128_S1024x128_1_0_0_1_n_n 512 rfl rfl).symm k) = ix2 k q := funext fun a => Fin.ext (by
    match a with
    | ⟨0, _⟩ => exact (dot_S1024x512_S512x128_S1024x128_1_0_0_1_n_n.rhsIdx_val_of_single rfl _ _).trans hk
    | ⟨1, _⟩ => exact rhs1_2e _ _)
  rw [el, er]

/-! ## The stored values -/

/-- The exponential of a vector at an entry is the exponential of the entry. -/
theorem exp_apply2 {s : Shape} {φ : FTy} (x : FVec Ideal s φ) (i : s.Idx) : exp x i = Ideal.exp (x i) := rfl

/-- The first accumulator is reset to zero. -/
theorem pay2_1_apply (p : Fin 1024) (d : Fin 128) : k2_pay1 (F := Ideal) (ix2 p d) = 0 := by
  unfold k2_pay1
  exact (congrFun (shapeCast_self _ _) (ix2 p d)).trans Ideal.ofBits_zero_f32

/-- The second accumulator is reset to zero. -/
theorem pay2_2_apply (p : Fin 1024) (d : Fin 128) : k2_pay2 (F := Ideal) (ix2 p d) = 0 := by
  unfold k2_pay2
  exact (congrFun (shapeCast_self _ _) (ix2 p d)).trans Ideal.ofBits_zero_f32

/-- The projected queries: the block of source rows times the weights. -/
theorem pay2_3_apply (x0 : Vec Ideal S1024x128 .f32) (x3 : Vec Ideal S128x128 .f32) (p : Fin 1024) (d : Fin 128) :
    k2_pay3 (F := Ideal) x0 x3 (ix2 p d) = ∑ e : Fin 128, x0 (ix2 p e) * x3 (ix2 e d) := by
  unfold k2_pay3
  refine (congrFun (shapeCast_self _ _) (ix2 p d)).trans ?_
  refine (mm_2c (some .fp32) _ x3 p d).trans (Finset.sum_congr rfl fun e _ => ?_)
  exact congrArg (· * x3 (ix2 e d)) (congrFun (shapeCast_self x0 _) (ix2 p e))

/-- The block of target rows passes through a cast to its own shape unchanged. -/
theorem pay2_4_eq {F : FTy → Type} [FloatOps F] (x2 : Vec F S512x128 .f32) : k2_pay4 x2 = x2 := by
  unfold k2_pay4
  exact shapeCast_self x2 _

/-- The scores of the block: entry `(p, q)` is the exponential of the inner product of query row `p` and target row `q`. -/
theorem pay2_5_apply (Q : Vec Ideal S1024x128 .f32) (x2 : Vec Ideal S512x128 .f32) (p : Fin 1024) (q : Fin 512) :
    k2_pay5 (F := Ideal) Q x2 (ix2 p q) = Ideal.exp (∑ d : Fin 128, Q (ix2 p d) * x2 (ix2 q d)) := by
  unfold k2_pay5
  refine (exp_apply2 _ (ix2 p q)).trans (congrArg Ideal.exp ?_)
  refine (mm_2d (some .fp32) Q _ p q).trans (Finset.sum_congr rfl fun d _ => ?_)
  refine congrArg (Q (ix2 p d) * ·) ?_
  exact (ValueIdx.transpose_ix2_apply (k2_pay4 x2) _ d q).trans (congrFun (pay2_4_eq x2) (ix2 q d))

/-- The first accumulator: what it held plus the scores times the source-side block of rows. -/
theorem pay2_6_apply (Q : Vec Ideal S1024x128 .f32) (x2 : Vec Ideal S512x128 .f32) (x1 : Vec Ideal S512x128 .f32)
    (a : Vec Ideal S1024x128 .f32) (p : Fin 1024) (d : Fin 128) :
    k2_pay6 (F := Ideal) Q x2 x1 a (ix2 p d) = a (ix2 p d) + ∑ q : Fin 512, k2_pay5 (F := Ideal) Q x2 (ix2 p q) * x1 (ix2 q d) := by
  unfold k2_pay6
  refine (congrFun (shapeCast_self _ _) (ix2 p d)).trans ?_
  refine (ValueIdx.addf_apply _ _ (ix2 p d)).trans (congrArg (a (ix2 p d) + ·) ?_)
  refine (mm_2e (some .fp32) (k2_pay5 (F := Ideal) Q x2) _ p d).trans (Finset.sum_congr rfl fun q _ => ?_)
  exact congrArg (k2_pay5 (F := Ideal) Q x2 (ix2 p q) * ·) (congrFun (shapeCast_self x1 _) (ix2 q d))

/-- The second accumulator: what it held plus the scores times the block of target rows. -/
theorem pay2_7_apply (Q : Vec Ideal S1024x128 .f32) (x2 : Vec Ideal S512x128 .f32)
    (a : Vec Ideal S1024x128 .f32) (p : Fin 1024) (d : Fin 128) :
    k2_pay7 (F := Ideal) Q x2 a (ix2 p d) = a (ix2 p d) + ∑ q : Fin 512, k2_pay5 (F := Ideal) Q x2 (ix2 p q) * x2 (ix2 q d) := by
  unfold k2_pay7
  refine (congrFun (shapeCast_self _ _) (ix2 p d)).trans ?_
  refine (ValueIdx.addf_apply _ _ (ix2 p d)).trans (congrArg (a (ix2 p d) + ·) ?_)
  refine (mm_2e (some .fp32) (k2_pay5 (F := Ideal) Q x2) _ p d).trans (Finset.sum_congr rfl fun q _ => ?_)
  exact congrArg (k2_pay5 (F := Ideal) Q x2 (ix2 p q) * ·) (congrFun (pay2_4_eq x2) (ix2 q d))

/-- The first result: the first accumulator times the output weights. -/
theorem pay2_8_apply (x4 : Vec Ideal S128x128 .f32) (a : Vec Ideal S1024x128 .f32) (p : Fin 1024) (d : Fin 128) :
    k2_pay8 (F := Ideal) x4 a (ix2 p d) = ∑ e : Fin 128, a (ix2 p e) * x4 (ix2 e d) := by
  unfold k2_pay8
  exact mm_2c (some .fp32) a x4 p d

/-- The second result: the second accumulator times the output weights. -/
theorem pay2_9_apply (x4 : Vec Ideal S128x128 .f32) (a : Vec Ideal S1024x128 .f32) (p : Fin 1024) (d : Fin 128) :
    k2_pay9 (F := Ideal) x4 a (ix2 p d) = ∑ e : Fin 128, a (ix2 p e) * x4 (ix2 e d) := by
  unfold k2_pay9
  exact mm_2c (some .fp32) a x4 p d

end Cert.KernelIdeal.HandValue

end
-- ==== Proof.Value2Pieces.lean ====
/- What each case of the attention body leaves in the buffers it stores into, as the body's own arithmetic of the windows'
   blocks and of what the point before left in the scratch buffers. Every store is of a whole buffer and every load is of
   a whole buffer, so a buffer ends at the value of its last store, and a load after a store reads that store's value. Then each input
   window's block, read at an entry, as an entry of the array the window stages: a block's coordinate is its index times
   its extent plus the coordinate inside the block. -/
import proofs.«141314_j39779987096265_2_alg».proof.Proof.Ideal.Region2
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.SL.Sem
open Idealize.ShloMosaic.ValueIdx (ix2 eq_ix2)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

/-- A scratch buffer's raw contents that read `X` read `X`. -/
theorem read_sc0 (h : scM2_0.IsWhole) (X : Vec F S1024x128 .f32) : View.read (Elt F) (View.whole cc2_scratch0) (h.unread X) = X := h.read_unread X
theorem read_sc1 (h : scM2_1.IsWhole) (X : Vec F S1024x128 .f32) : View.read (Elt F) (View.whole cc2_scratch1) (h.unread X) = X := h.read_unread X
theorem read_sc2 (h : scM2_2.IsWhole) (X : Vec F S1024x128 .f32) : View.read (Elt F) (View.whole cc2_scratch2) (h.unread X) = X := h.read_unread X

/-! ## Case A: the first column block -/

/-- The query block: the block of source rows times `W3`. -/
theorem stA_s2 (c : Dev nD) (t : Fin cfg2.N) (hc0 : cond2_0 (grid2.coords t)) (hc1 : ¬cond2_1 (grid2.coords t)) :
    (stA V c t hc0 hc1).s2 = k2_pay3 (iblk2 V c 0 t) (iblk2 V c 3 t) := by
  unfold stA; dsimp only
  rw [View.read_writes_eq_canon _ _ _ (coverA_s2 V c t hc0 hc1)]
  unfold runA kernelRun2_A; dsimp only
  sl_unfold_words
  rw [View.canon_unit_zero hz2]
  simp only [View.readCov_unit_zero (S := S1024x128) (View.whole cc2_scratch0) hz2, View.readCov_unit_zero (S := S1024x128) (View.whole cc2_scratch1) hz2, View.readCov_unit_zero (S := S1024x128) (View.whole cc2_scratch2) hz2, View.readAt_eq_ld, Memref.IsWhole.read_unread, read_sc0, read_sc1, read_sc2, View.ld_unit_zero (S := S1024x128) hz2, View.ld_unit_zero (S := S512x128) hz2, View.ld_unit_zero (S := S128x128) hz2, View.ld_unit_zero (S := S1024x512) hz2]

/-- The score tile, of the query block just stored and read back. -/
theorem stA_o5 (c : Dev nD) (t : Fin cfg2.N) (hc0 : cond2_0 (grid2.coords t)) (hc1 : ¬cond2_1 (grid2.coords t)) :
    (stA V c t hc0 hc1).o5 = k2_pay5 (k2_pay3 (iblk2 V c 0 t) (iblk2 V c 3 t)) (iblk2 V c 2 t) := by
  unfold stA; dsimp only
  rw [View.read_writes_eq_canon _ _ _ (coverA_5 V c t hc0 hc1)]
  unfold runA kernelRun2_A; dsimp only
  sl_unfold_words
  rw [View.canon_unit_zero hz2]
  simp only [View.readCov_unit_zero (S := S1024x128) (View.whole cc2_scratch0) hz2, View.readCov_unit_zero (S := S1024x128) (View.whole cc2_scratch1) hz2, View.readCov_unit_zero (S := S1024x128) (View.whole cc2_scratch2) hz2, View.readAt_eq_ld, Memref.IsWhole.read_unread, read_sc0, read_sc1, read_sc2, View.ld_unit_zero (S := S1024x128) hz2, View.ld_unit_zero (S := S512x128) hz2, View.ld_unit_zero (S := S128x128) hz2, View.ld_unit_zero (S := S1024x512) hz2]

/-- The first accumulator: zeroed, read back, and the tile's product with the source-side block added. -/
theorem stA_s0 (c : Dev nD) (t : Fin cfg2.N) (hc0 : cond2_0 (grid2.coords t)) (hc1 : ¬cond2_1 (grid2.coords t)) :
    (stA V c t hc0 hc1).s0 = k2_pay6 (k2_pay3 (iblk2 V c 0 t) (iblk2 V c 3 t)) (iblk2 V c 2 t) (iblk2 V c 1 t) k2_pay1 := by
  unfold stA; dsimp only
  rw [View.read_writes_eq_canon _ _ _ (coverA_s0 V c t hc0 hc1)]
  unfold runA kernelRun2_A; dsimp only
  sl_unfold_words
  rw [View.canon_cons_unit_zero hz2]
  simp only [View.readCov_unit_zero (S := S1024x128) (View.whole cc2_scratch0) hz2, View.readCov_unit_zero (S := S1024x128) (View.whole cc2_scratch1) hz2, View.readCov_unit_zero (S := S1024x128) (View.whole cc2_scratch2) hz2, View.readAt_eq_ld, Memref.IsWhole.read_unread, read_sc0, read_sc1, read_sc2, View.ld_unit_zero (S := S1024x128) hz2, View.ld_unit_zero (S := S512x128) hz2, View.ld_unit_zero (S := S128x128) hz2, View.ld_unit_zero (S := S1024x512) hz2]

/-- The second accumulator: zeroed, read back, and the tile's product with the target block added. -/
theorem stA_s1 (c : Dev nD) (t : Fin cfg2.N) (hc0 : cond2_0 (grid2.coords t)) (hc1 : ¬cond2_1 (grid2.coords t)) :
    (stA V c t hc0 hc1).s1 = k2_pay7 (k2_pay3 (iblk2 V c 0 t) (iblk2 V c 3 t)) (iblk2 V c 2 t) k2_pay2 := by
  unfold stA; dsimp only
  rw [View.read_writes_eq_canon _ _ _ (coverA_s1 V c t hc0 hc1)]
  unfold runA kernelRun2_A; dsimp only
  sl_unfold_words
  rw [View.canon_cons_unit_zero hz2]
  simp only [View.readCov_unit_zero (S := S1024x128) (View.whole cc2_scratch0) hz2, View.readCov_unit_zero (S := S1024x128) (View.whole cc2_scratch1) hz2, View.readCov_unit_zero (S := S1024x128) (View.whole cc2_scratch2) hz2, View.readAt_eq_ld, Memref.IsWhole.read_unread, read_sc0, read_sc1, read_sc2, View.ld_unit_zero (S := S1024x128) hz2, View.ld_unit_zero (S := S512x128) hz2, View.ld_unit_zero (S := S128x128) hz2, View.ld_unit_zero (S := S1024x512) hz2]

/-! ## Case B: a middle column block, over what the point before left in the scratch buffers -/

theorem stB_o5 (c : Dev nD) (t : Fin cfg2.N) (hc0 : ¬cond2_0 (grid2.coords t)) (hc1 : ¬cond2_1 (grid2.coords t)) (p : St2 F) :
    (stB V c t hc0 hc1 p).o5 = k2_pay5 p.s2 (iblk2 V c 2 t) := by
  unfold stB; dsimp only
  rw [View.read_writes_eq_canon _ _ _ (coverB_5 V c t hc0 hc1 p)]
  unfold runB kernelRun2_B; dsimp only
  rw [View.canon_unit_zero hz2]
  simp only [View.readCov_unit_zero (S := S1024x128) (View.whole cc2_scratch0) hz2, View.readCov_unit_zero (S := S1024x128) (View.whole cc2_scratch1) hz2, View.readCov_unit_zero (S := S1024x128) (View.whole cc2_scratch2) hz2, View.readAt_eq_ld, Memref.IsWhole.read_unread, read_sc0, read_sc1, read_sc2, View.ld_unit_zero (S := S1024x128) hz2, View.ld_unit_zero (S := S512x128) hz2, View.ld_unit_zero (S := S128x128) hz2, View.ld_unit_zero (S := S1024x512) hz2]

theorem stB_s0 (c : Dev nD) (t : Fin cfg2.N) (hc0 : ¬cond2_0 (grid2.coords t)) (hc1 : ¬cond2_1 (grid2.coords t)) (p : St2 F) :
    (stB V c t hc0 hc1 p).s0 = k2_pay6 p.s2 (iblk2 V c 2 t) (iblk2 V c 1 t) p.s0 := by
  unfold stB; dsimp only
  rw [View.read_writes_eq_canon _ _ _ (coverB_s0 V c t hc0 hc1 p)]
  unfold runB kernelRun2_B; dsimp only
  rw [View.canon_unit_zero hz2]
  simp only [View.readCov_unit_zero (S := S1024x128) (View.whole cc2_scratch0) hz2, View.readCov_unit_zero (S := S1024x128) (View.whole cc2_scratch1) hz2, View.readCov_unit_zero (S := S1024x128) (View.whole cc2_scratch2) hz2, View.readAt_eq_ld, Memref.IsWhole.read_unread, read_sc0, read_sc1, read_sc2, View.ld_unit_zero (S := S1024x128) hz2, View.ld_unit_zero (S := S512x128) hz2, View.ld_unit_zero (S := S128x128) hz2, View.ld_unit_zero (S := S1024x512) hz2]

theorem stB_s1 (c : Dev nD) (t : Fin cfg2.N) (hc0 : ¬cond2_0 (grid2.coords t)) (hc1 : ¬cond2_1 (grid2.coords t)) (p : St2 F) :
    (stB V c t hc0 hc1 p).s1 = k2_pay7 p.s2 (iblk2 V c 2 t) p.s1 := by
  unfold stB; dsimp only
  rw [View.read_writes_eq_canon _ _ _ (coverB_s1 V c t hc0 hc1 p)]
  unfold runB kernelRun2_B; dsimp only
  rw [View.canon_unit_zero hz2]
  simp only [View.readCov_unit_zero (S := S1024x128) (View.whole cc2_scratch0) hz2, View.readCov_unit_zero (S := S1024x128) (View.whole cc2_scratch1) hz2, View.readCov_unit_zero (S := S1024x128) (View.whole cc2_scratch2) hz2, View.readAt_eq_ld, Memref.IsWhole.read_unread, read_sc0, read_sc1, read_sc2, View.ld_unit_zero (S := S1024x128) hz2, View.ld_unit_zero (S := S512x128) hz2, View.ld_unit_zero (S := S128x128) hz2, View.ld_unit_zero (S := S1024x512) hz2]

theorem stB_s2 (c : Dev nD) (t : Fin cfg2.N) (hc0 : ¬cond2_0 (grid2.coords t)) (hc1 : ¬cond2_1 (grid2.coords t)) (p : St2 F) :
    (stB V c t hc0 hc1 p).s2 = p.s2 := by
  unfold stB; dsimp only

/-! ## Case C: the last column block — as case B, and the accumulators just stored are read back and multiplied by `W4` -/

theorem stC_o5 (c : Dev nD) (t : Fin cfg2.N) (hc0 : ¬cond2_0 (grid2.coords t)) (hc1 : cond2_1 (grid2.coords t)) (p : St2 F) :
    (stC V c t hc0 hc1 p).o5 = k2_pay5 p.s2 (iblk2 V c 2 t) := by
  unfold stC; dsimp only
  rw [View.read_writes_eq_canon _ _ _ (coverC_5 V c t hc0 hc1 p)]
  unfold runC kernelRun2_C; dsimp only
  sl_unfold_words
  rw [View.canon_unit_zero hz2]
  simp only [View.readCov_unit_zero (S := S1024x128) (View.whole cc2_scratch0) hz2, View.readCov_unit_zero (S := S1024x128) (View.whole cc2_scratch1) hz2, View.readCov_unit_zero (S := S1024x128) (View.whole cc2_scratch2) hz2, View.readAt_eq_ld, Memref.IsWhole.read_unread, read_sc0, read_sc1, read_sc2, View.ld_unit_zero (S := S1024x128) hz2, View.ld_unit_zero (S := S512x128) hz2, View.ld_unit_zero (S := S128x128) hz2, View.ld_unit_zero (S := S1024x512) hz2]

theorem stC_s0 (c : Dev nD) (t : Fin cfg2.N) (hc0 : ¬cond2_0 (grid2.coords t)) (hc1 : cond2_1 (grid2.coords t)) (p : St2 F) :
    (stC V c t hc0 hc1 p).s0 = k2_pay6 p.s2 (iblk2 V c 2 t) (iblk2 V c 1 t) p.s0 := by
  unfold stC; dsimp only
  rw [View.read_writes_eq_canon _ _ _ (coverC_s0 V c t hc0 hc1 p)]
  unfold runC kernelRun2_C; dsimp only
  sl_unfold_words
  rw [View.canon_unit_zero hz2]
  simp only [View.readCov_unit_zero (S := S1024x128) (View.whole cc2_scratch0) hz2, View.readCov_unit_zero (S := S1024x128) (View.whole cc2_scratch1) hz2, View.readCov_unit_zero (S := S1024x128) (View.whole cc2_scratch2) hz2, View.readAt_eq_ld, Memref.IsWhole.read_unread, read_sc0, read_sc1, read_sc2, View.ld_unit_zero (S := S1024x128) hz2, View.ld_unit_zero (S := S512x128) hz2, View.ld_unit_zero (S := S128x128) hz2, View.ld_unit_zero (S := S1024x512) hz2]

theorem stC_s1 (c : Dev nD) (t : Fin cfg2.N) (hc0 : ¬cond2_0 (grid2.coords t)) (hc1 : cond2_1 (grid2.coords t)) (p : St2 F) :
    (stC V c t hc0 hc1 p).s1 = k2_pay7 p.s2 (iblk2 V c 2 t) p.s1 := by
  unfold stC; dsimp only
  rw [View.read_writes_eq_canon _ _ _ (coverC_s1 V c t hc0 hc1 p)]
  unfold runC kernelRun2_C; dsimp only
  sl_unfold_words
  rw [View.canon_unit_zero hz2]
  simp only [View.readCov_unit_zero (S := S1024x128) (View.whole cc2_scratch0) hz2, View.readCov_unit_zero (S := S1024x128) (View.whole cc2_scratch1) hz2, View.readCov_unit_zero (S := S1024x128) (View.whole cc2_scratch2) hz2, View.readAt_eq_ld, Memref.IsWhole.read_unread, read_sc0, read_sc1, read_sc2, View.ld_unit_zero (S := S1024x128) hz2, View.ld_unit_zero (S := S512x128) hz2, View.ld_unit_zero (S := S128x128) hz2, View.ld_unit_zero (S := S1024x512) hz2]

theorem stC_s2 (c : Dev nD) (t : Fin cfg2.N) (hc0 : ¬cond2_0 (grid2.coords t)) (hc1 : cond2_1 (grid2.coords t)) (p : St2 F) :
    (stC V c t hc0 hc1 p).s2 = p.s2 := by
  unfold stC; dsimp only

theorem stC_o6 (c : Dev nD) (t : Fin cfg2.N) (hc0 : ¬cond2_0 (grid2.coords t)) (hc1 : cond2_1 (grid2.coords t)) (p : St2 F) :
    (stC V c t hc0 hc1 p).o6 = k2_pay8 (iblk2 V c 4 t) (k2_pay6 p.s2 (iblk2 V c 2 t) (iblk2 V c 1 t) p.s0) := by
  unfold stC; dsimp only
  rw [View.read_writes_eq_canon _ _ _ (coverC_6 V c t hc0 hc1 p)]
  unfold runC kernelRun2_C; dsimp only
  sl_unfold_words
  rw [View.canon_unit_zero hz2]
  simp only [View.readCov_unit_zero (S := S1024x128) (View.whole cc2_scratch0) hz2, View.readCov_unit_zero (S := S1024x128) (View.whole cc2_scratch1) hz2, View.readCov_unit_zero (S := S1024x128) (View.whole cc2_scratch2) hz2, View.readAt_eq_ld, Memref.IsWhole.read_unread, read_sc0, read_sc1, read_sc2, View.ld_unit_zero (S := S1024x128) hz2, View.ld_unit_zero (S := S512x128) hz2, View.ld_unit_zero (S := S128x128) hz2, View.ld_unit_zero (S := S1024x512) hz2]

theorem stC_o7 (c : Dev nD) (t : Fin cfg2.N) (hc0 : ¬cond2_0 (grid2.coords t)) (hc1 : cond2_1 (grid2.coords t)) (p : St2 F) :
    (stC V c t hc0 hc1 p).o7 = k2_pay9 (iblk2 V c 4 t) (k2_pay7 p.s2 (iblk2 V c 2 t) p.s1) := by
  unfold stC; dsimp only
  rw [View.read_writes_eq_canon _ _ _ (coverC_7 V c t hc0 hc1 p)]
  unfold runC kernelRun2_C; dsimp only
  sl_unfold_words
  rw [View.canon_unit_zero hz2]
  simp only [View.readCov_unit_zero (S := S1024x128) (View.whole cc2_scratch0) hz2, View.readCov_unit_zero (S := S1024x128) (View.whole cc2_scratch1) hz2, View.readCov_unit_zero (S := S1024x128) (View.whole cc2_scratch2) hz2, View.readAt_eq_ld, Memref.IsWhole.read_unread, read_sc0, read_sc1, read_sc2, View.ld_unit_zero (S := S1024x128) hz2, View.ld_unit_zero (S := S512x128) hz2, View.ld_unit_zero (S := S128x128) hz2, View.ld_unit_zero (S := S1024x512) hz2]

/-! ## The windows' blocks read at an entry of their arrays -/

/-- The printed index maps, decided over the grid's 32 points `t = 8 i + j`: window 0 is row block `i` of 1024 rows of the
    second layer's source result; windows 1 and 2 are row block `j` of 512 rows of the second layer's two results; windows
    3 and 4 are whole weight matrices. -/
theorem idx_facts2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val % 8 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem point_lt2 (t : Fin cfg2.N) : t.val < 32 := Nat.lt_of_lt_of_eq (show t.val < grid2.N from t.isLt) N_2

/-- Window 0's block at point `t`: rows `1024 (t / 8) …` of the source result. -/
theorem iblk2_0_apply (c : Dev nD) (t : Fin cfg2.N) (p : Fin 1024) (e : Fin 128) :
    (iblk2 V c 0 t : Vec F S1024x128 .f32) (ix2 p e)
      = (V c main_v1_0 : S4096x128.Idx → Elt F .f32) (ix2 (Fin.ofNat 4096 (1024 * (t.val / 8) + p.val)) e) := by
  obtain ⟨e00, e01, e10, e11, e20, e21, e30, e31, e40, e41⟩ := idx_facts2 t
  have ht := point_lt2 t
  show V c main_v1_0 (((cfg2.win 0).blk t).view.emb (ix2 p e)) = V c main_v1_0 _
  refine congrArg (V c main_v1_0) (funext fun a => Fin.ext ?_)
  match a with
  | ⟨0, _⟩ => show win2_0.index t (0 : Fin 2) * 1024 + 1 * p.val = (1024 * (t.val / 8) + p.val) % 4096; omega
  | ⟨1, _⟩ => show win2_0.index t (1 : Fin 2) * 128 + 1 * e.val = e.val; omega

/-- Window 1's block at point `t`: rows `512 (t % 8) …` of the source result. -/
theorem iblk2_1_apply (c : Dev nD) (t : Fin cfg2.N) (q : Fin 512) (d : Fin 128) :
    (iblk2 V c 1 t : Vec F S512x128 .f32) (ix2 q d)
      = (V c main_v1_0 : S4096x128.Idx → Elt F .f32) (ix2 (Fin.ofNat 4096 (512 * (t.val % 8) + q.val)) d) := by
  obtain ⟨e00, e01, e10, e11, e20, e21, e30, e31, e40, e41⟩ := idx_facts2 t
  show V c main_v1_0 (((cfg2.win 1).blk t).view.emb (ix2 q d)) = V c main_v1_0 _
  refine congrArg (V c main_v1_0) (funext fun a => Fin.ext ?_)
  match a with
  | ⟨0, _⟩ => show win2_1.index t (0 : Fin 2) * 512 + 1 * q.val = (512 * (t.val % 8) + q.val) % 4096; omega
  | ⟨1, _⟩ => show win2_1.index t (1 : Fin 2) * 128 + 1 * d.val = d.val; omega

/-- Window 2's block at point `t`: rows `512 (t % 8) …` of the target result. -/
theorem iblk2_2_apply (c : Dev nD) (t : Fin cfg2.N) (q : Fin 512) (d : Fin 128) :
    (iblk2 V c 2 t : Vec F S512x128 .f32) (ix2 q d)
      = (V c main_v1_1 : S4096x128.Idx → Elt F .f32) (ix2 (Fin.ofNat 4096 (512 * (t.val % 8) + q.val)) d) := by
  obtain ⟨e00, e01, e10, e11, e20, e21, e30, e31, e40, e41⟩ := idx_facts2 t
  show V c main_v1_1 (((cfg2.win 2).blk t).view.emb (ix2 q d)) = V c main_v1_1 _
  refine congrArg (V c main_v1_1) (funext fun a => Fin.ext ?_)
  match a with
  | ⟨0, _⟩ => show win2_2.index t (0 : Fin 2) * 512 + 1 * q.val = (512 * (t.val % 8) + q.val) % 4096; omega
  | ⟨1, _⟩ => show win2_2.index t (1 : Fin 2) * 128 + 1 * d.val = d.val; omega

/-- Window 3's block is the whole weight matrix `W3`. -/
theorem iblk2_3_eq (c : Dev nD) (t : Fin cfg2.N) :
    (iblk2 V c 3 t : Vec F S128x128 .f32) = (V c main_arg6 : S128x128.Idx → Elt F .f32) := by
  obtain ⟨e00, e01, e10, e11, e20, e21, e30, e31, e40, e41⟩ := idx_facts2 t
  funext j
  show V c main_arg6 (((cfg2.win 3).blk t).view.emb j) = V c main_arg6 j
  refine congrArg (V c main_arg6) (funext fun a => Fin.ext ?_)
  match a with
  | ⟨0, _⟩ => show win2_3.index t (0 : Fin 2) * 128 + 1 * (j 0).val = (j 0).val; omega
  | ⟨1, _⟩ => show win2_3.index t (1 : Fin 2) * 128 + 1 * (j 1).val = (j 1).val; omega

/-- Window 4's block is the whole weight matrix `W4`. -/
theorem iblk2_4_eq (c : Dev nD) (t : Fin cfg2.N) :
    (iblk2 V c 4 t : Vec F S128x128 .f32) = (V c main_arg7 : S128x128.Idx → Elt F .f32) := by
  obtain ⟨e00, e01, e10, e11, e20, e21, e30, e31, e40, e41⟩ := idx_facts2 t
  funext j
  show V c main_arg7 (((cfg2.win 4).blk t).view.emb j) = V c main_arg7 j
  refine congrArg (V c main_arg7) (funext fun a => Fin.ext ?_)
  match a with
  | ⟨0, _⟩ => show win2_4.index t (0 : Fin 2) * 128 + 1 * (j 0).val = (j 0).val; omega
  | ⟨1, _⟩ => show win2_4.index t (1 : Fin 2) * 128 + 1 * (j 1).val = (j 1).val; omega

end Cert.KernelIdeal.HandValue

end
-- ==== Proof.BlockSum.lean ====
/-
  Sums over 4096 indices taken in consecutive blocks.

  The index set 0 … 4095 is 8 consecutive blocks of 512 (and 4 consecutive blocks of 1024): index `512 · j + q`
  is place `q` of block `j`. Addition of extended reals is commutative and associative, so a sum over all indices is
  the sum over the blocks of the sums inside each block — no finiteness is needed. A running total that starts
  at `0 + g 0` and adds `g (j + 1)` at step `j + 1` is, at every step, the sum of the `g` so far. Together: an entry of a
  matrix product with 4096 inner indices is the total, over the 8 blocks of the inner index, of the partial
  products over each block.
-/
import proofs.«141314_j39779987096265_2_alg».proof.Proof.Spec
import Mathlib.Algebra.BigOperators.Fin
import Mathlib.Algebra.BigOperators.Group.Finset.Basic

noncomputable section

open scoped BigOperators

namespace Cert.Spec

open Idealize.ShloMosaic Idealize.ShloMosaic.ValueIdx

/-! ## Regrouping a sum by consecutive blocks -/

/-- A sum over the first `n · b` naturals is the sum over `n` blocks of the sums over the `b` places of each block. -/
theorem sum_range_blocks {M : Type*} [AddCommMonoid M] (g : ℕ → M) (n b : ℕ) :
    ∑ i ∈ Finset.range (n * b), g i = ∑ j ∈ Finset.range n, ∑ q ∈ Finset.range b, g (b * j + q) := by
  induction n with
  | zero => simp
  | succ n ih => rw [Nat.succ_mul, Finset.sum_range_add, ih, Finset.sum_range_succ, Nat.mul_comm b n]

/-- The same with the places of a block as `Fin b`. -/
theorem sum_range_blocks_fin {M : Type*} [AddCommMonoid M] (g : ℕ → M) (n b : ℕ) :
    ∑ i ∈ Finset.range (n * b), g i = ∑ j ∈ Finset.range n, ∑ q : Fin b, g (b * j + q.val) := by
  rw [sum_range_blocks]
  exact Finset.sum_congr rfl fun j _ => (Fin.sum_univ_eq_sum_range (fun q => g (b * j + q)) b).symm

/-- A sum over `Fin 4096` read through the naturals. -/
theorem sum_fin4096 {M : Type*} [AddCommMonoid M] (f : Fin 4096 → M) :
    ∑ k : Fin 4096, f k = ∑ i ∈ Finset.range 4096, f (Fin.ofNat 4096 i) := by
  rw [← Fin.sum_univ_eq_sum_range (fun i => f (Fin.ofNat 4096 i)) 4096]
  exact Finset.sum_congr rfl fun k _ => by rw [Fin.ofNat_val_eq_self]

/-- A sum over 4096 indices is the sum over the 8 blocks of 512 of the sums inside each block. -/
theorem sum_blocks (f : Fin 4096 → EReal) :
    ∑ k : Fin 4096, f k = ∑ j ∈ Finset.range 8, ∑ q : Fin 512, f (Fin.ofNat 4096 (512 * j + q.val)) := by
  rw [sum_fin4096]
  exact sum_range_blocks_fin (fun i => f (Fin.ofNat 4096 i)) 8 512

/-- A sum over 4096 indices is the sum over the 4 blocks of 1024 of the sums inside each block. -/
theorem sum_blocks1024 (f : Fin 4096 → EReal) :
    ∑ k : Fin 4096, f k = ∑ i ∈ Finset.range 4, ∑ p : Fin 1024, f (Fin.ofNat 4096 (1024 * i + p.val)) := by
  rw [sum_fin4096]
  exact sum_range_blocks_fin (fun i => f (Fin.ofNat 4096 i)) 4 1024

/-! ## The index of a place in a block -/

/-- Place `p` of row block `i` (4 blocks of 1024 rows) is row `1024 · i + p`. -/
theorem row_block (i : Fin 4) (p : Fin 1024) :
    (Fin.ofNat 4096 (1024 * i.val + p.val)).val = 1024 * i.val + p.val := by
  rw [Fin.val_ofNat]
  exact Nat.mod_eq_of_lt (by have := i.isLt; have := p.isLt; omega)

/-- Place `q` of column block `j` (8 blocks of 512 columns) is column `512 · j + q`. -/
theorem col_block (j : ℕ) (hj : j < 8) (q : Fin 512) :
    (Fin.ofNat 4096 (512 * j + q.val)).val = 512 * j + q.val := by
  rw [Fin.val_ofNat]
  exact Nat.mod_eq_of_lt (by have := q.isLt; omega)

/-- Every index is place `r % 1024` of block `r / 1024`. -/
theorem eq_row_block (r : Fin 4096) : r = Fin.ofNat 4096 (1024 * (r.val / 1024) + r.val % 1024) :=
  Fin.ext (by rw [Fin.val_ofNat]; have := r.isLt; omega)

/-- Every index is place `r % 512` of block `r / 512`. -/
theorem eq_col_block (r : Fin 4096) : r = Fin.ofNat 4096 (512 * (r.val / 512) + r.val % 512) :=
  Fin.ext (by rw [Fin.val_ofNat]; have := r.isLt; omega)

/-- The block of an index is below the number of blocks, and its place below the block's size. -/
theorem row_block_lt (r : Fin 4096) : r.val / 1024 < 4 ∧ r.val % 1024 < 1024 := by
  have := r.isLt; omega

theorem col_block_lt (r : Fin 4096) : r.val / 512 < 8 ∧ r.val % 512 < 512 := by
  have := r.isLt; omega

/-! ## A running total in closed form -/

/-- A total that starts at `0 + g 0` and adds `g (j + 1)` at step `j + 1` is, at step `j`, the sum of `g 0, …, g j`. -/
theorem acc_closed (g : ℕ → EReal) (a : ℕ → EReal) (h0 : a 0 = 0 + g 0) (hs : ∀ j, a (j + 1) = a j + g (j + 1)) :
    ∀ j, a j = ∑ j' ∈ Finset.range (j + 1), g j' := by
  intro j
  induction j with
  | zero => rw [h0, zero_add, Finset.sum_range_one]
  | succ j ih => rw [hs, ih, Finset.sum_range_succ _ (j + 1)]

/-! ## A product with 4096 inner indices, by blocks of the inner index -/

/-- An entry of `Sc · Y` is the total over the 8 blocks of 512 inner indices of the partial products. -/
theorem mm_blocks (Sc : Mat 4096 4096) (Y : Mat 4096 128) (r : Fin 4096) (d : Fin 128) :
    mm Sc Y (ix2 r d)
      = ∑ j ∈ Finset.range 8, ∑ q : Fin 512,
          Sc (ix2 r (Fin.ofNat 4096 (512 * j + q.val))) * Y (ix2 (Fin.ofNat 4096 (512 * j + q.val)) d) := by
  rw [mm_apply]
  exact sum_blocks fun t => Sc (ix2 r t) * Y (ix2 t d)

end Cert.Spec

end
-- ==== Proof.Value2Inv.lean ====
/-
  What the attention region's buffers hold after each grid point, at the ideal instance, as functions of the arrays the
  region is entered with: Xs and Xt (the two layer-2 activations), W3, W4. At point t = 8 i + j, with row block i (1024
  rows) and column block j (512 columns): the query buffer holds rows of Xs · W3; the first result's buffer holds the tile
  exp((Xs · W3) · Xtᵀ) at (row block i, column block j); each accumulator holds the sum over the column blocks 0..j of the
  tile's product with the matching 512 rows of Xs (of Xt); and at j = 7 the other two results' buffers hold the full
  products (S · Xs) · W4 and (S · Xt) · W4 on row block i — the sum over 4096 columns regrouped as 8 blocks of 512.
  By induction on the point; a point with j = 0 restarts the accumulators, any other continues the point before.
-/
import proofs.«141314_j39779987096265_2_alg».proof.Proof.Ideal.Region2
import proofs.«141314_j39779987096265_2_alg».proof.Proof.Value2Pay
import proofs.«141314_j39779987096265_2_alg».proof.Proof.Value2Pieces
import proofs.«141314_j39779987096265_2_alg».proof.Proof.BlockSum
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

/-- The arrays the region is entered with. -/
abbrev aXs : Mat 4096 128 := V c main_v1_0
abbrev aXt : Mat 4096 128 := V c main_v1_1
abbrev aW3 : Mat 128 128 := V c main_arg6
abbrev aW4 : Mat 128 128 := V c main_arg7
/-- The score matrix S of the entry arrays. -/
abbrev aS : Mat 4096 4096 := scores (aXs V c) (aXt V c) (aW3 V c)

/-- Row `p` of the row block of position `n`, and column `q` of column block `j`, in the whole arrays. -/
def rowOf (n : ℕ) (p : Fin 1024) : Fin 4096 := Fin.ofNat 4096 (1024 * (n / 8) + p.val)
def colOf (j : ℕ) (q : Fin 512) : Fin 4096 := Fin.ofNat 4096 (512 * j + q.val)

/-- One column block's share of (S · Y) at an entry. -/
def blockTerm (Y : Mat 4096 128) (n : ℕ) (p : Fin 1024) (d : Fin 128) (j : ℕ) : EReal :=
  ∑ q : Fin 512, aS V c (ix2 (rowOf n p) (colOf j q)) * Y (ix2 (colOf j q) d)

/-- What the buffers hold after position `n`. -/
structure Inv (n : ℕ) (s : St2 Ideal) : Prop where
  s2 : ∀ (p : Fin 1024) (d : Fin 128), s.s2 (ix2 p d) = mm (aXs V c) (aW3 V c) (ix2 (rowOf n p) d)
  o5 : ∀ (p : Fin 1024) (q : Fin 512), s.o5 (ix2 p q) = aS V c (ix2 (rowOf n p) (colOf (n % 8) q))
  s0 : ∀ (p : Fin 1024) (d : Fin 128), s.s0 (ix2 p d) = ∑ j ∈ Finset.range (n % 8 + 1), blockTerm V c (aXs V c) n p d j
  s1 : ∀ (p : Fin 1024) (d : Fin 128), s.s1 (ix2 p d) = ∑ j ∈ Finset.range (n % 8 + 1), blockTerm V c (aXt V c) n p d j

/-- The tile the body stores, from a query buffer holding rows of Xs · W3 and the column block of Xt. -/
theorem tile_eq (n : ℕ) (Q : Vec Ideal S1024x128 .f32) (x2 : Vec Ideal S512x128 .f32)
    (hQ : ∀ (p : Fin 1024) (d : Fin 128), Q (ix2 p d) = mm (aXs V c) (aW3 V c) (ix2 (rowOf n p) d))
    (hx2 : ∀ (q : Fin 512) (d : Fin 128), x2 (ix2 q d) = aXt V c (ix2 (colOf (n % 8) q) d))
    (p : Fin 1024) (q : Fin 512) : k2_pay5 (F := Ideal) Q x2 (ix2 p q) = aS V c (ix2 (rowOf n p) (colOf (n % 8) q)) := by
  rw [pay2_5_apply]
  show _ = Ideal.exp (∑ d : Fin 128, (∑ e : Fin 128, aXs V c (ix2 (rowOf n p) e) * aW3 V c (ix2 e d)) * aXt V c (ix2 (colOf (n % 8) q) d))
  refine congrArg Ideal.exp (Finset.sum_congr rfl fun d _ => ?_)
  rw [hQ, hx2]; rfl

/-- The block's share the body adds to an accumulator. -/
theorem add_eq (Y : Mat 4096 128) (n : ℕ) (Q : Vec Ideal S1024x128 .f32) (x2 y : Vec Ideal S512x128 .f32)
    (hQ : ∀ (p : Fin 1024) (d : Fin 128), Q (ix2 p d) = mm (aXs V c) (aW3 V c) (ix2 (rowOf n p) d))
    (hx2 : ∀ (q : Fin 512) (d : Fin 128), x2 (ix2 q d) = aXt V c (ix2 (colOf (n % 8) q) d))
    (hy : ∀ (q : Fin 512) (d : Fin 128), y (ix2 q d) = Y (ix2 (colOf (n % 8) q) d))
    (p : Fin 1024) (d : Fin 128) :
    (∑ q : Fin 512, k2_pay5 (F := Ideal) Q x2 (ix2 p q) * y (ix2 q d)) = blockTerm V c Y n p d (n % 8) := by
  unfold blockTerm
  exact Finset.sum_congr rfl fun q _ => by rw [tile_eq V c n Q x2 hQ hx2 p q, hy]

section Point

variable (t : Fin cfg2.N)

theorem hx0 (p : Fin 1024) (e : Fin 128) : iblk2 V c 0 t (ix2 p e) = aXs V c (ix2 (rowOf t.val p) e) := iblk2_0_apply V c t p e
theorem hx1 (q : Fin 512) (d : Fin 128) : iblk2 V c 1 t (ix2 q d) = aXs V c (ix2 (colOf (t.val % 8) q) d) := iblk2_1_apply V c t q d
theorem hx2' (q : Fin 512) (d : Fin 128) : iblk2 V c 2 t (ix2 q d) = aXt V c (ix2 (colOf (t.val % 8) q) d) := iblk2_2_apply V c t q d

/-- The query block the first point of a row block stores. -/
theorem query_eq (p : Fin 1024) (d : Fin 128) :
    k2_pay3 (F := Ideal) (iblk2 V c 0 t) (iblk2 V c 3 t) (ix2 p d) = mm (aXs V c) (aW3 V c) (ix2 (rowOf t.val p) d) := by
  rw [pay2_3_apply, iblk2_3_eq]
  show _ = ∑ e : Fin 128, aXs V c (ix2 (rowOf t.val p) e) * aW3 V c (ix2 e d)
  exact Finset.sum_congr rfl fun e _ => by rw [hx0]

/-- A point with j = 0. -/
theorem invA (h0 : t.val % 8 = 0) (hc0 hc1) : Inv V c t.val (stA V c t hc0 hc1) where
  s2 p d := by rw [stA_s2]; exact query_eq V c t p d
  o5 p q := by rw [stA_o5]; exact tile_eq V c t.val _ _ (query_eq V c t) (hx2' V c t) p q
  s0 p d := by
    rw [stA_s0, pay2_6_apply, pay2_1_apply, zero_add, add_eq V c (aXs V c) t.val _ _ _ (query_eq V c t) (hx2' V c t) (hx1 V c t) p d, h0]
    exact (Finset.sum_range_one _).symm
  s1 p d := by
    rw [stA_s1, pay2_7_apply, pay2_2_apply, zero_add, add_eq V c (aXt V c) t.val _ _ _ (query_eq V c t) (hx2' V c t) (hx2' V c t) p d, h0]
    exact (Finset.sum_range_one _).symm

/-- Moving from position t - 1 to t inside a row block keeps the row block and advances the column block. -/
theorem rowOf_pred (h0 : ¬t.val % 8 = 0) (p : Fin 1024) : rowOf (t.val - 1) p = rowOf t.val p := by
  unfold rowOf; congr 2; omega
theorem mod_pred (h0 : ¬t.val % 8 = 0) : (t.val - 1) % 8 + 1 = t.val % 8 := by omega
theorem blockTerm_pred (Y : Mat 4096 128) (h0 : ¬t.val % 8 = 0) (p : Fin 1024) (d : Fin 128) (j : ℕ) :
    blockTerm V c Y (t.val - 1) p d j = blockTerm V c Y t.val p d j := by
  unfold blockTerm; simp only [rowOf_pred t h0]

/-- The common part of a point with j > 0: the tile and the accumulators over the point before. -/
theorem inv_step (h0 : ¬t.val % 8 = 0) (pv : St2 Ideal) (hp : Inv V c (t.val - 1) pv) :
    (∀ (p : Fin 1024) (q : Fin 512), k2_pay5 (F := Ideal) pv.s2 (iblk2 V c 2 t) (ix2 p q) = aS V c (ix2 (rowOf t.val p) (colOf (t.val % 8) q)))
    ∧ (∀ (p : Fin 1024) (d : Fin 128), k2_pay6 (F := Ideal) pv.s2 (iblk2 V c 2 t) (iblk2 V c 1 t) pv.s0 (ix2 p d) = ∑ j ∈ Finset.range (t.val % 8 + 1), blockTerm V c (aXs V c) t.val p d j)
    ∧ (∀ (p : Fin 1024) (d : Fin 128), k2_pay7 (F := Ideal) pv.s2 (iblk2 V c 2 t) pv.s1 (ix2 p d) = ∑ j ∈ Finset.range (t.val % 8 + 1), blockTerm V c (aXt V c) t.val p d j) := by
  have hQ : ∀ (p : Fin 1024) (d : Fin 128), pv.s2 (ix2 p d) = mm (aXs V c) (aW3 V c) (ix2 (rowOf t.val p) d) :=
    fun p d => by rw [hp.s2, rowOf_pred t h0]
  refine ⟨fun p q => tile_eq V c t.val _ _ hQ (hx2' V c t) p q, fun p d => ?_, fun p d => ?_⟩
  · rw [pay2_6_apply, hp.s0, add_eq V c (aXs V c) t.val _ _ _ hQ (hx2' V c t) (hx1 V c t) p d, mod_pred t h0, Finset.sum_range_succ]
    simp only [blockTerm_pred V c t _ h0]
  · rw [pay2_7_apply, hp.s1, add_eq V c (aXt V c) t.val _ _ _ hQ (hx2' V c t) (hx2' V c t) p d, mod_pred t h0, Finset.sum_range_succ]
    simp only [blockTerm_pred V c t _ h0]

theorem invB (h0 : ¬t.val % 8 = 0) (hc0 hc1) (pv : St2 Ideal) (hp : Inv V c (t.val - 1) pv) : Inv V c t.val (stB V c t hc0 hc1 pv) where
  s2 p d := by rw [stB_s2, hp.s2, rowOf_pred t h0]
  o5 p q := by rw [stB_o5]; exact (inv_step V c t h0 pv hp).1 p q
  s0 p d := by rw [stB_s0]; exact (inv_step V c t h0 pv hp).2.1 p d
  s1 p d := by rw [stB_s1]; exact (inv_step V c t h0 pv hp).2.2 p d

theorem invC (h0 : ¬t.val % 8 = 0) (hc0 hc1) (pv : St2 Ideal) (hp : Inv V c (t.val - 1) pv) : Inv V c t.val (stC V c t hc0 hc1 pv) where
  s2 p d := by rw [stC_s2, hp.s2, rowOf_pred t h0]
  o5 p q := by rw [stC_o5]; exact (inv_step V c t h0 pv hp).1 p q
  s0 p d := by rw [stC_s0]; exact (inv_step V c t h0 pv hp).2.1 p d
  s1 p d := by rw [stC_s1]; exact (inv_step V c t h0 pv hp).2.2 p d

end Point

/-- THE INVARIANT at every position. -/
theorem inv_all : ∀ (n : ℕ) (h : n < cfg2.N), Inv V c n (outsAt2 V c n h) := by
  intro n
  induction n with
  | zero =>
    intro h
    rw [show outsAt2 V c 0 h = stA V c ⟨0, h⟩ _ _ from outsAt2_A V c ⟨0, h⟩ (Nat.zero_mod _) (fun e => absurd e (by decide : ¬(0 % 8 = 7)))]
    exact invA V c ⟨0, h⟩ (Nat.zero_mod _) _ _
  | succ n ih =>
    intro h
    have hp := ih (Nat.lt_of_succ_lt h)
    by_cases h0 : (n + 1) % 8 = 0
    · have h1 : ¬(n + 1) % 8 = 7 := by omega
      rw [show outsAt2 V c (n + 1) h = stA V c ⟨n + 1, h⟩ _ _ from outsAt2_A V c ⟨n + 1, h⟩ h0 h1]
      exact invA V c ⟨n + 1, h⟩ h0 _ _
    · by_cases h1 : (n + 1) % 8 = 7
      · rw [show outsAt2 V c (n + 1) h = stC V c ⟨n + 1, h⟩ _ _ (outsAt2 V c n (Nat.lt_of_succ_lt h)) from outsAt2_C V c ⟨n + 1, h⟩ h0 h1]
        exact invC V c ⟨n + 1, h⟩ h0 _ _ _ hp
      · rw [show outsAt2 V c (n + 1) h = stB V c ⟨n + 1, h⟩ _ _ (outsAt2 V c n (Nat.lt_of_succ_lt h)) from outsAt2_B V c ⟨n + 1, h⟩ h0 h1]
        exact invB V c ⟨n + 1, h⟩ h0 _ _ _ hp

/-- At the last column block an accumulator holds the whole product (S · Y) on the row block: eight blocks of 512 are the
    4096 columns. -/
theorem acc_full (Y : Mat 4096 128) (n : ℕ) (h7 : n % 8 = 7) (p : Fin 1024) (d : Fin 128) :
    (∑ j ∈ Finset.range (n % 8 + 1), blockTerm V c Y n p d j) = mm (aS V c) Y (ix2 (rowOf n p) d) := by
  rw [h7, mm_blocks]; rfl

/-- The two projections the last column block stores. -/
theorem proj_eq (Y : Mat 4096 128) (n : ℕ) (h7 : n % 8 = 7) (a : Vec Ideal S1024x128 .f32) (x4 : Vec Ideal S128x128 .f32)
    (ha : ∀ (p : Fin 1024) (d : Fin 128), a (ix2 p d) = ∑ j ∈ Finset.range (n % 8 + 1), blockTerm V c Y n p d j)
    (hx4 : x4 = aW4 V c) (p : Fin 1024) (d : Fin 128) :
    (∑ e : Fin 128, a (ix2 p e) * x4 (ix2 e d)) = attend (aS V c) Y (aW4 V c) (ix2 (rowOf n p) d) := by
  show _ = ∑ e : Fin 128, mm (aS V c) Y (ix2 (rowOf n p) e) * aW4 V c (ix2 e d)
  exact Finset.sum_congr rfl fun e _ => by rw [ha, acc_full V c Y n h7, hx4]

/-- What the three results' staging buffers hold after point `t`: the tile always, the two projections at j = 7. -/
theorem after5_apply (t : Fin cfg2.N) (p : Fin 1024) (q : Fin 512) :
    (outsAt2 V c t.val t.isLt).o5 (ix2 p q) = aS V c (ix2 (rowOf t.val p) (colOf (t.val % 8) q)) :=
  (inv_all V c t.val t.isLt).o5 p q

theorem after6_apply (t : Fin cfg2.N) (h7 : t.val % 8 = 7) (p : Fin 1024) (d : Fin 128) :
    (outsAt2 V c t.val t.isLt).o6 (ix2 p d) = attend (aS V c) (aXs V c) (aW4 V c) (ix2 (rowOf t.val p) d) := by
  have h0 : ¬t.val % 8 = 0 := by omega
  have hp := inv_all V c (t.val - 1) (Nat.lt_of_le_of_lt (Nat.sub_le _ _) t.isLt)
  rw [outsAt2_C V c t h0 h7, stC_o6, pay2_8_apply]
  exact proj_eq V c (aXs V c) t.val h7 _ _ (inv_step V c t h0 _ hp).2.1 (iblk2_4_eq V c t) p d

theorem after7_apply (t : Fin cfg2.N) (h7 : t.val % 8 = 7) (p : Fin 1024) (d : Fin 128) :
    (outsAt2 V c t.val t.isLt).o7 (ix2 p d) = attend (aS V c) (aXt V c) (aW4 V c) (ix2 (rowOf t.val p) d) := by
  have h0 : ¬t.val % 8 = 0 := by omega
  have hp := inv_all V c (t.val - 1) (Nat.lt_of_le_of_lt (Nat.sub_le _ _) t.isLt)
  rw [outsAt2_C V c t h0 h7, stC_o7, pay2_9_apply]
  exact proj_eq V c (aXt V c) t.val h7 _ _ (inv_step V c t h0 _ hp).2.2 (iblk2_4_eq V c t) p d

end Cert.KernelIdeal.HandValue

end
-- ==== Proof.Value2.lean ====
/- The attention region's three result arrays at the extended reals. The score tile of point `t = 8 i + j` is block
   `(i, j)` — 1024 rows, 512 columns — of the score array, and the 32 blocks tile its 4096 × 4096 entries, so after the
   region the array is the score matrix at every entry. The two projections are written back only at the last column
   block `j = 7` of each row block, as block `(i, 0)` — 1024 rows, all 128 columns — and those 4 blocks tile the 4096
   rows, so after the region the arrays are `(S · Xs) · W4` and `(S · Xt) · W4`. No input array is written. -/
import proofs.«141314_j39779987096265_2_alg».proof.Proof.Value2Inv
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx (ix2 eq_ix2)

variable (V : (c : Dev nD) → (b : Ref sig .tc) → Buf (Elt Ideal) ((c : Thread nD τ).loc b))

/-- The printed index maps of the three results' windows, decided over the grid's 32 points `t = 8 i + j`: the score
    tile is block `(i, j)`; the two projections are block `(i, 0)`. -/
theorem idx_facts2o : ∀ t : Fin cfg2.N,
    win2_5.index t (0 : Fin 2) = t.val / 8 ∧ win2_5.index t (1 : Fin 2) = t.val % 8
    ∧ win2_6.index t (0 : Fin 2) = t.val / 8 ∧ win2_6.index t (1 : Fin 2) = 0
    ∧ win2_7.index t (0 : Fin 2) = t.val / 8 ∧ win2_7.index t (1 : Fin 2) = 0 :=
  (by decide +kernel : ∀ t : Fin grid2.N, _)

/-! ## The score matrix -/

/-- What point `t` writes back to the score array is block `(t / 8, t % 8)` of the score matrix of the arrays as the
    region finds them. -/
theorem flushed2_5_eq (c : Dev nD) (t : Fin cfg2.N) :
    (dat2 V c).flushed 5 t = ((cfg2.win 5).blk t).view.read (Elt Ideal)
      (Cert.Spec.scores (V c main_v1_0) (V c main_v1_1) (V c main_arg6)) := by
  show (cfg2.win 5).cut (grid2.coords t) ((dat2 V c).after 5 t) = _
  rw [after2_5]
  obtain ⟨e50, e51, e60, e61, e70, e71⟩ := idx_facts2o t
  have ht := point_lt2 t
  funext j
  obtain ⟨p, q, rfl⟩ : ∃ (p : Fin 1024) (q : Fin 512), j = ix2 p q := ⟨j 0, j 1, eq_ix2 j⟩
  show (outsAt2 V c t.val t.isLt).o5 (ix2 p q)
    = Cert.Spec.scores (V c main_v1_0) (V c main_v1_1) (V c main_arg6) (((cfg2.win 5).blk t).view.emb (ix2 p q))
  refine (after5_apply V c t p q).trans ?_
  show Cert.Spec.scores (V c main_v1_0) (V c main_v1_1) (V c main_arg6) (ix2 (rowOf t.val p) (colOf (t.val % 8) q)) = _
  refine congrArg (Cert.Spec.scores (V c main_v1_0) (V c main_v1_1) (V c main_arg6)) (funext fun a => Fin.ext ?_)
  match a with
  | ⟨0, _⟩ => show (1024 * (t.val / 8) + p.val) % 4096 = win2_5.index t (0 : Fin 2) * 1024 + 1 * p.val; omega
  | ⟨1, _⟩ => show (512 * (t.val % 8) + q.val) % 4096 = win2_5.index t (1 : Fin 2) * 512 + 1 * q.val; omega

/-- An entry of the score array is in point `t`'s block iff each coordinate is in the block's range on its axis. -/
theorem mem_blk2_5 (t : Fin cfg2.N) (i : S4096x4096.Idx) :
    i ∈ ((cfg2.win 5).blk t).view.set ↔ ∀ a : Fin 2, win2_5.index t a * S1024x512.size a ≤ (i a).val ∧ (i a).val < win2_5.index t a * S1024x512.size a + S1024x512.size a := by
  show i ∈ ((View.whole main_v2_0).slice (win2_5.rect t)).set ↔ _
  rw [View.set_slice_whole, Rect.mem_set_unit]
  exact Iff.rfl

/-- Entry `(r, s)` lies in the block of point `8 (r / 1024) + s / 512`, which is written back. -/
theorem covered2_5 (i : S4096x4096.Idx) :
    ∃ t : Fin cfg2.N, (cfg2.win 5).flush t = true ∧ i ∈ ((cfg2.win 5).blk t).view.set := by
  have hi0 : (i 0).val < 4096 := (i 0).isLt
  have hi1 : (i 1).val < 4096 := (i 1).isLt
  have hN : grid2.N = 32 := N_2
  have ht : 8 * ((i 0).val / 1024) + (i 1).val / 512 < grid2.N := by rw [hN]; omega
  obtain ⟨e50, e51, e60, e61, e70, e71⟩ := idx_facts2o ⟨8 * ((i 0).val / 1024) + (i 1).val / 512, ht⟩
  refine ⟨⟨8 * ((i 0).val / 1024) + (i 1).val / 512, ht⟩, flush2_5 _, ?_⟩
  rw [mem_blk2_5]
  intro a
  match a with
  | ⟨0, _⟩ =>
    show win2_5.index ⟨8 * ((i 0).val / 1024) + (i 1).val / 512, ht⟩ (0 : Fin 2) * 1024 ≤ (i 0).val ∧ (i 0).val < win2_5.index ⟨8 * ((i 0).val / 1024) + (i 1).val / 512, ht⟩ (0 : Fin 2) * 1024 + 1024
    rw [e50]; show (8 * ((i 0).val / 1024) + (i 1).val / 512) / 8 * 1024 ≤ (i 0).val ∧ (i 0).val < (8 * ((i 0).val / 1024) + (i 1).val / 512) / 8 * 1024 + 1024; omega
  | ⟨1, _⟩ =>
    show win2_5.index ⟨8 * ((i 0).val / 1024) + (i 1).val / 512, ht⟩ (1 : Fin 2) * 512 ≤ (i 1).val ∧ (i 1).val < win2_5.index ⟨8 * ((i 0).val / 1024) + (i 1).val / 512, ht⟩ (1 : Fin 2) * 512 + 512
    rw [e51]; show (8 * ((i 0).val / 1024) + (i 1).val / 512) % 8 * 512 ≤ (i 1).val ∧ (i 1).val < (8 * ((i 0).val / 1024) + (i 1).val / 512) % 8 * 512 + 512; omega

/-- After the region the score array is the score matrix of the two second-layer results and `W3` as the region finds them. -/
theorem arrAt2_5 (c : Dev nD) :
    (dat2 V c).arrAt 5 cfg2.N = Cert.Spec.scores (V c main_v1_0) (V c main_v1_1) (V c main_arg6) :=
  (dat2 V c).arrAt_eq_of_cover 5 _ (fun t _ => flushed2_5_eq V c t) covered2_5

/-! ## The two projections -/

/-- What a point of the last column block writes back to the source-side result is row block `t / 8` of `(S · Xs) · W4`. -/
theorem flushed2_6_eq (c : Dev nD) (t : Fin cfg2.N) (hf : (cfg2.win 6).flush t = true) :
    (dat2 V c).flushed 6 t = ((cfg2.win 6).blk t).view.read (Elt Ideal)
      (Cert.Spec.attend (Cert.Spec.scores (V c main_v1_0) (V c main_v1_1) (V c main_arg6)) (V c main_v1_0) (V c main_arg7)) := by
  have h7 : t.val % 8 = 7 := (flush2_6 t).mp hf
  show (cfg2.win 6).cut (grid2.coords t) ((dat2 V c).after 6 t) = _
  rw [after2_6]
  obtain ⟨e50, e51, e60, e61, e70, e71⟩ := idx_facts2o t
  have ht := point_lt2 t
  funext j
  obtain ⟨p, d, rfl⟩ : ∃ (p : Fin 1024) (d : Fin 128), j = ix2 p d := ⟨j 0, j 1, eq_ix2 j⟩
  show (outsAt2 V c t.val t.isLt).o6 (ix2 p d)
    = (Cert.Spec.attend (Cert.Spec.scores (V c main_v1_0) (V c main_v1_1) (V c main_arg6)) (V c main_v1_0) (V c main_arg7)) (((cfg2.win 6).blk t).view.emb (ix2 p d))
  refine (after6_apply V c t h7 p d).trans ?_
  show (Cert.Spec.attend (Cert.Spec.scores (V c main_v1_0) (V c main_v1_1) (V c main_arg6)) (V c main_v1_0) (V c main_arg7)) (ix2 (rowOf t.val p) d) = _
  refine congrArg (Cert.Spec.attend (Cert.Spec.scores (V c main_v1_0) (V c main_v1_1) (V c main_arg6)) (V c main_v1_0) (V c main_arg7)) (funext fun a => Fin.ext ?_)
  match a with
  | ⟨0, _⟩ => show (1024 * (t.val / 8) + p.val) % 4096 = win2_6.index t (0 : Fin 2) * 1024 + 1 * p.val; omega
  | ⟨1, _⟩ => show d.val = win2_6.index t (1 : Fin 2) * 128 + 1 * d.val; omega

theorem mem_blk2_6 (t : Fin cfg2.N) (i : S4096x128.Idx) :
    i ∈ ((cfg2.win 6).blk t).view.set ↔ ∀ a : Fin 2, win2_6.index t a * S1024x128.size a ≤ (i a).val ∧ (i a).val < win2_6.index t a * S1024x128.size a + S1024x128.size a := by
  show i ∈ ((View.whole main_v2_1).slice (win2_6.rect t)).set ↔ _
  rw [View.set_slice_whole, Rect.mem_set_unit]
  exact Iff.rfl

/-- Row `r` lies in the block of point `8 (r / 1024) + 7`, the last column block of its row block, which is written back. -/
theorem covered2_6 (i : S4096x128.Idx) :
    ∃ t : Fin cfg2.N, (cfg2.win 6).flush t = true ∧ i ∈ ((cfg2.win 6).blk t).view.set := by
  have hi0 : (i 0).val < 4096 := (i 0).isLt
  have hi1 : (i 1).val < 128 := (i 1).isLt
  have hN : grid2.N = 32 := N_2
  have ht : 8 * ((i 0).val / 1024) + 7 < grid2.N := by rw [hN]; omega
  obtain ⟨e50, e51, e60, e61, e70, e71⟩ := idx_facts2o ⟨8 * ((i 0).val / 1024) + 7, ht⟩
  refine ⟨⟨8 * ((i 0).val / 1024) + 7, ht⟩, (flush2_6 _).mpr (by show (8 * ((i 0).val / 1024) + 7) % 8 = 7; omega), ?_⟩
  rw [mem_blk2_6]
  intro a
  match a with
  | ⟨0, _⟩ =>
    show win2_6.index ⟨8 * ((i 0).val / 1024) + 7, ht⟩ (0 : Fin 2) * 1024 ≤ (i 0).val ∧ (i 0).val < win2_6.index ⟨8 * ((i 0).val / 1024) + 7, ht⟩ (0 : Fin 2) * 1024 + 1024
    rw [e60]; show (8 * ((i 0).val / 1024) + 7) / 8 * 1024 ≤ (i 0).val ∧ (i 0).val < (8 * ((i 0).val / 1024) + 7) / 8 * 1024 + 1024; omega
  | ⟨1, _⟩ =>
    show win2_6.index ⟨8 * ((i 0).val / 1024) + 7, ht⟩ (1 : Fin 2) * 128 ≤ (i 1).val ∧ (i 1).val < win2_6.index ⟨8 * ((i 0).val / 1024) + 7, ht⟩ (1 : Fin 2) * 128 + 128
    rw [e61]; omega

/-- After the region the source-side result array is `(S · Xs) · W4` of the arrays as the region finds them. -/
theorem arrAt2_6 (c : Dev nD) :
    (dat2 V c).arrAt 6 cfg2.N = Cert.Spec.attend (Cert.Spec.scores (V c main_v1_0) (V c main_v1_1) (V c main_arg6)) (V c main_v1_0) (V c main_arg7) :=
  (dat2 V c).arrAt_eq_of_cover 6 _ (flushed2_6_eq V c) covered2_6

/-- What a point of the last column block writes back to the target-side result is row block `t / 8` of `(S · Xt) · W4`. -/
theorem flushed2_7_eq (c : Dev nD) (t : Fin cfg2.N) (hf : (cfg2.win 7).flush t = true) :
    (dat2 V c).flushed 7 t = ((cfg2.win 7).blk t).view.read (Elt Ideal)
      (Cert.Spec.attend (Cert.Spec.scores (V c main_v1_0) (V c main_v1_1) (V c main_arg6)) (V c main_v1_1) (V c main_arg7)) := by
  have h7 : t.val % 8 = 7 := (flush2_7 t).mp hf
  show (cfg2.win 7).cut (grid2.coords t) ((dat2 V c).after 7 t) = _
  rw [after2_7]
  obtain ⟨e50, e51, e60, e61, e70, e71⟩ := idx_facts2o t
  have ht := point_lt2 t
  funext j
  obtain ⟨p, d, rfl⟩ : ∃ (p : Fin 1024) (d : Fin 128), j = ix2 p d := ⟨j 0, j 1, eq_ix2 j⟩
  show (outsAt2 V c t.val t.isLt).o7 (ix2 p d)
    = (Cert.Spec.attend (Cert.Spec.scores (V c main_v1_0) (V c main_v1_1) (V c main_arg6)) (V c main_v1_1) (V c main_arg7)) (((cfg2.win 7).blk t).view.emb (ix2 p d))
  refine (after7_apply V c t h7 p d).trans ?_
  show (Cert.Spec.attend (Cert.Spec.scores (V c main_v1_0) (V c main_v1_1) (V c main_arg6)) (V c main_v1_1) (V c main_arg7)) (ix2 (rowOf t.val p) d) = _
  refine congrArg (Cert.Spec.attend (Cert.Spec.scores (V c main_v1_0) (V c main_v1_1) (V c main_arg6)) (V c main_v1_1) (V c main_arg7)) (funext fun a => Fin.ext ?_)
  match a with
  | ⟨0, _⟩ => show (1024 * (t.val / 8) + p.val) % 4096 = win2_7.index t (0 : Fin 2) * 1024 + 1 * p.val; omega
  | ⟨1, _⟩ => show d.val = win2_7.index t (1 : Fin 2) * 128 + 1 * d.val; omega

theorem mem_blk2_7 (t : Fin cfg2.N) (i : S4096x128.Idx) :
    i ∈ ((cfg2.win 7).blk t).view.set ↔ ∀ a : Fin 2, win2_7.index t a * S1024x128.size a ≤ (i a).val ∧ (i a).val < win2_7.index t a * S1024x128.size a + S1024x128.size a := by
  show i ∈ ((View.whole main_v2_2).slice (win2_7.rect t)).set ↔ _
  rw [View.set_slice_whole, Rect.mem_set_unit]
  exact Iff.rfl

/-- Row `r` lies in the block of point `8 (r / 1024) + 7`, the last column block of its row block, which is written back. -/
theorem covered2_7 (i : S4096x128.Idx) :
    ∃ t : Fin cfg2.N, (cfg2.win 7).flush t = true ∧ i ∈ ((cfg2.win 7).blk t).view.set := by
  have hi0 : (i 0).val < 4096 := (i 0).isLt
  have hi1 : (i 1).val < 128 := (i 1).isLt
  have hN : grid2.N = 32 := N_2
  have ht : 8 * ((i 0).val / 1024) + 7 < grid2.N := by rw [hN]; omega
  obtain ⟨e50, e51, e60, e61, e70, e71⟩ := idx_facts2o ⟨8 * ((i 0).val / 1024) + 7, ht⟩
  refine ⟨⟨8 * ((i 0).val / 1024) + 7, ht⟩, (flush2_7 _).mpr (by show (8 * ((i 0).val / 1024) + 7) % 8 = 7; omega), ?_⟩
  rw [mem_blk2_7]
  intro a
  match a with
  | ⟨0, _⟩ =>
    show win2_7.index ⟨8 * ((i 0).val / 1024) + 7, ht⟩ (0 : Fin 2) * 1024 ≤ (i 0).val ∧ (i 0).val < win2_7.index ⟨8 * ((i 0).val / 1024) + 7, ht⟩ (0 : Fin 2) * 1024 + 1024
    rw [e70]; show (8 * ((i 0).val / 1024) + 7) / 8 * 1024 ≤ (i 0).val ∧ (i 0).val < (8 * ((i 0).val / 1024) + 7) / 8 * 1024 + 1024; omega
  | ⟨1, _⟩ =>
    show win2_7.index ⟨8 * ((i 0).val / 1024) + 7, ht⟩ (1 : Fin 2) * 128 ≤ (i 1).val ∧ (i 1).val < win2_7.index ⟨8 * ((i 0).val / 1024) + 7, ht⟩ (1 : Fin 2) * 128 + 128
    rw [e71]; omega

/-- After the region the target-side result array is `(S · Xt) · W4` of the arrays as the region finds them. -/
theorem arrAt2_7 (c : Dev nD) :
    (dat2 V c).arrAt 7 cfg2.N = Cert.Spec.attend (Cert.Spec.scores (V c main_v1_0) (V c main_v1_1) (V c main_arg6)) (V c main_v1_1) (V c main_arg7) :=
  (dat2 V c).arrAt_eq_of_cover 7 _ (flushed2_7_eq V c) covered2_7

/-- An input window's array ends as the region finds it: it is staged and never written back. -/
theorem arrAt2_in (c : Dev nD) (w : Fin cfg2.W) (hin : (cfg2.win w).isOut = false) :
    (dat2 V c).arrAt w cfg2.N = V c (Pipeline.arrRef spec2 w) :=
  ((dat2 V c).arrAt_in w hin _).trans (A_eq2 V c w)

end Cert.KernelIdeal.HandValue

end
-- ==== Proof.Assemble.lean ====
/-
  The two idealized programs compute the same three arrays.

  The kernel program is three regions in a row. The first leaves, in its two result arrays, one propagation layer
  of each graph, `relu ((A · X) · W1)`; the second reads those and leaves the second layer, `relu ((A · X₁) · W2)`;
  the third reads the two second-layer feature arrays and the last two weight matrices and leaves the score matrix
  `exp ((Xs2 · W3) · Xt2ᵀ)` and the two outputs `(S · Xs2) · W4`, `(S · Xt2) · W4`. A region's input arrays are never
  written, so an argument reaches every region as launched, and what one region leaves in a result array is what the
  next finds there. Substituting region after region, the three results are the specification's `S`, `outS`, `outT`
  of the eight argument arrays. The reference's three results are the same functions of its own arguments
  (`RefSpec.run_spec`), and the two memories agree on the arguments.
-/
import proofs.«141314_j39779987096265_2_alg».proof.Defs
import proofs.«141314_j39779987096265_2_alg».proof.Proof.Ideal.Run
import proofs.«141314_j39779987096265_2_alg».proof.Proof.Value0
import proofs.«141314_j39779987096265_2_alg».proof.Proof.Value1
import proofs.«141314_j39779987096265_2_alg».proof.Proof.Value2
import proofs.«141314_j39779987096265_2_alg».proof.Proof.Spec
import proofs.«141314_j39779987096265_2_alg».proof.Proof.RefSpec

noncomputable section

namespace Cert.Assemble

open Cert.KernelIdeal Cert.KernelIdeal.Gen Cert.KernelIdeal.Hand Cert.KernelIdeal.HandValue
open Idealize.ShloMosaic Idealize.ShloMosaic.TcCoe Idealize.SL.Sem

variable (m : (ℓ : Loc nD τ sig) → Buf (Elt Ideal) ℓ)

/-! ## What the arrays hold between the regions, as functions of the arguments -/

/-- After the first region the first result array is the source graph after one layer. -/
theorem W2_v0_0 (c : Dev nD) :
    W2 m c (Proc.devRef .tc main_v0_0) = Spec.Xs1 (m ((c.tc : Thread nD τ).loc main_arg0)) (m ((c.tc : Thread nD τ).loc main_arg1)) (m ((c.tc : Thread nD τ).loc main_arg4)) :=
  (W2_arr m c 5).trans (arrAt0_5 (V1 m) c)

/-- After the first region the second result array is the target graph after one layer. -/
theorem W2_v0_1 (c : Dev nD) :
    W2 m c (Proc.devRef .tc main_v0_1) = Spec.Xt1 (m ((c.tc : Thread nD τ).loc main_arg2)) (m ((c.tc : Thread nD τ).loc main_arg3)) (m ((c.tc : Thread nD τ).loc main_arg4)) :=
  (W2_arr m c 6).trans (arrAt0_6 (V1 m) c)

/-- After the second region the first result array is the source graph after two layers. -/
theorem W4_v1_0 (c : Dev nD) :
    W4 m c (Proc.devRef .tc main_v1_0) = Spec.Xs2 (m ((c.tc : Thread nD τ).loc main_arg0)) (m ((c.tc : Thread nD τ).loc main_arg1)) (m ((c.tc : Thread nD τ).loc main_arg4)) (m ((c.tc : Thread nD τ).loc main_arg5)) := by
  refine (W4_arr m c 5).trans ((arrAt1_5 (V2 m) c).trans ?_)
  show Spec.layer (W2 m c (Proc.devRef .tc main_arg0)) (W2 m c (Proc.devRef .tc main_v0_0)) (W2 m c (Proc.devRef .tc main_arg5)) = _
  rw [W2_in m c 0 rfl, W2_v0_0, W2_of_ne m c main_arg5 (by decide)]
  rfl

/-- After the second region the second result array is the target graph after two layers. -/
theorem W4_v1_1 (c : Dev nD) :
    W4 m c (Proc.devRef .tc main_v1_1) = Spec.Xt2 (m ((c.tc : Thread nD τ).loc main_arg2)) (m ((c.tc : Thread nD τ).loc main_arg3)) (m ((c.tc : Thread nD τ).loc main_arg4)) (m ((c.tc : Thread nD τ).loc main_arg5)) := by
  refine (W4_arr m c 6).trans ((arrAt1_6 (V2 m) c).trans ?_)
  show Spec.layer (W2 m c (Proc.devRef .tc main_arg2)) (W2 m c (Proc.devRef .tc main_v0_1)) (W2 m c (Proc.devRef .tc main_arg5)) = _
  rw [W2_in m c 2 rfl, W2_v0_1, W2_of_ne m c main_arg5 (by decide)]
  rfl

/-- The last two weight matrices reach the third region as launched. -/
theorem W4_arg6 (c : Dev nD) : W4 m c (Proc.devRef .tc main_arg6) = (m ((c.tc : Thread nD τ).loc main_arg6)) :=
  (W4_of_ne m c main_arg6 (by decide)).trans ((W2_of_ne m c main_arg6 (by decide)).trans rfl)
theorem W4_arg7 (c : Dev nD) : W4 m c (Proc.devRef .tc main_arg7) = (m ((c.tc : Thread nD τ).loc main_arg7)) :=
  (W4_of_ne m c main_arg7 (by decide)).trans ((W2_of_ne m c main_arg7 (by decide)).trans rfl)

/-! ## What the third region leaves, as functions of the arguments -/

/-- The score array. -/
theorem W6_S (c : Dev nD) :
    W6 m c (Proc.devRef .tc main_v2_0) = Spec.S (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W6_v2_0 m c).trans ((arrAt2_5 (V3 m) c).trans ?_)
  show Spec.scores (W4 m c (Proc.devRef .tc main_v1_0)) (W4 m c (Proc.devRef .tc main_v1_1)) (W4 m c (Proc.devRef .tc main_arg6)) = _
  rw [W4_v1_0, W4_v1_1, W4_arg6]
  rfl

/-- The source-side output array. -/
theorem W6_outS (c : Dev nD) :
    W6 m c (Proc.devRef .tc main_v2_1) = Spec.outS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W6_v2_1 m c).trans ((arrAt2_6 (V3 m) c).trans ?_)
  show Spec.attend (Spec.scores (W4 m c (Proc.devRef .tc main_v1_0)) (W4 m c (Proc.devRef .tc main_v1_1)) (W4 m c (Proc.devRef .tc main_arg6)))
      (W4 m c (Proc.devRef .tc main_v1_0)) (W4 m c (Proc.devRef .tc main_arg7)) = _
  rw [W4_v1_0, W4_v1_1, W4_arg6, W4_arg7]
  rfl

/-- The target-side output array. -/
theorem W6_outT (c : Dev nD) :
    W6 m c (Proc.devRef .tc main_v2_2) = Spec.outT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W6_v2_2 m c).trans ((arrAt2_7 (V3 m) c).trans ?_)
  show Spec.attend (Spec.scores (W4 m c (Proc.devRef .tc main_v1_0)) (W4 m c (Proc.devRef .tc main_v1_1)) (W4 m c (Proc.devRef .tc main_arg6)))
      (W4 m c (Proc.devRef .tc main_v1_1)) (W4 m c (Proc.devRef .tc main_arg7)) = _
  rw [W4_v1_0, W4_v1_1, W4_arg6, W4_arg7]
  rfl

/-! ## The kernel's run, with its results named by the specification -/

/-- Every weakly fair execution of the kernel program terminates with its three results at the specification's
    functions of the argument arrays, and the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v2_1) = Spec.outS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v2_2) = Spec.outT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v2_0) = Spec.S (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
      ⟨(h c _ (mem_uc main_v2_1 (by decide))).trans (W6_outS m c),
       (h c _ (mem_uc main_v2_2 (by decide))).trans (W6_outT m c),
       (h c _ (mem_uc main_v2_0 (by decide))).trans (W6_S m c),
       (h c _ (mem_uc main_arg0 (by decide))).trans (W6_main_arg0 m c),
       (h c _ (mem_uc main_arg1 (by decide))).trans (W6_main_arg1 m c),
       (h c _ (mem_uc main_arg2 (by decide))).trans (W6_main_arg2 m c),
       (h c _ (mem_uc main_arg3 (by decide))).trans (W6_main_arg3 m c),
       (h c _ (mem_uc main_arg4 (by decide))).trans (W6_main_arg4 m c),
       (h c _ (mem_uc main_arg5 (by decide))).trans (W6_main_arg5 m c),
       (h c _ (mem_uc main_arg6 (by decide))).trans (W6_main_arg6 m c),
       (h c _ (mem_uc main_arg7 (by decide))).trans (W6_main_arg7 m c)⟩)
    (run_all m ρ)

/-! ## The two idealized programs end with equal results -/

/-- From memories that agree on the arguments both programs run, the kernel's results at the specification's functions
    of its arguments and the reference's at the same functions of its own: equal arrays. -/
theorem algebraic : Cert.algebraic_KernelIdeal_ReferenceIdeal := by
  intro m ρ m' ρ' _ hagree
  refine ⟨_, _, _, kernel_run m ρ, ?_⟩
  refine (θ_run Cert.ReferenceIdeal.defs _ _).mono (fun r h c => ?_) (Cert.RefSpec.run_spec m' ρ')
  obtain ⟨h17, h19, h15, hargs⟩ := h c
  obtain ⟨e0, e1, e2, e3, e4, e5, e6, e7⟩ := hagree c
  refine ⟨h17.trans ?_, h19.trans ?_, h15.trans ?_, hargs⟩
  · rw [e0, e1, e2, e3, e4, e5, e6, e7]
  · rw [e0, e1, e2, e3, e4, e5, e6, e7]
  · rw [e0, e1, e2, e3, e4, e5, e6]

end Cert.Assemble

end
-- ==== Proof.lean ====
/-
  The certificate of the two-graph propagation with exponential cross scores.

  The kernel program runs three regions in a row: two propagation layers `relu ((A · X) · W)` of each of two graphs,
  then the cross scores `S = exp ((Xs2 · W3) · Xt2ᵀ)` and the outputs `(S · Xs2) · W4`, `(S · Xt2) · W4`, computed block
  by block with the products over the 4096 inner indices accumulated over 8 column blocks of 512. The reference is the
  same formulas as whole-array operations.

  * The frames: every weakly fair execution of each program terminates without a fault and leaves the eight argument
    arrays unchanged — for the kernel program, at the word level and at the ideal values, by running the three regions
    one after the other over a valuation of the buffers that changes only in each region's result arrays; for the
    reference, by its run with the results dropped.
  * No operation of the kernel was rewritten for the ideal values, so there is nothing to preserve.
  * At the ideal values both programs end with the three arrays `Spec.outS`, `Spec.outT`, `Spec.S` of their arguments
    (extended reals; sums regrouped by blocks, which needs only that addition is commutative and associative), and the
    two memories agree on the arguments.
-/
import proofs.«141314_j39779987096265_2_alg».proof.Defs
import proofs.«141314_j39779987096265_2_alg».proof.Proof.Gen.Kernel
import proofs.«141314_j39779987096265_2_alg».proof.Proof.Gen.KernelIdeal
import proofs.«141314_j39779987096265_2_alg».proof.Proof.Gen.ReferenceIdeal
import proofs.«141314_j39779987096265_2_alg».proof.Proof.Gen.Pre_finite_inputs
import proofs.«141314_j39779987096265_2_alg».proof.Proof.Bits.Run
import proofs.«141314_j39779987096265_2_alg».proof.Proof.Ideal.Run
import proofs.«141314_j39779987096265_2_alg».proof.Proof.RefSpec
import proofs.«141314_j39779987096265_2_alg».proof.Proof.Assemble
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.RefSpec.frame_ri,
    trivial,
    Cert.Assemble.algebraic⟩

end Cert.Proof

end
